-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_arg6)) (v3 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg6) = v2 c
          ∧ r.2.mem ((c.tc : Thread Cert.KernelIdeal.nD Cert.KernelIdeal.τ).loc Cert.KernelIdeal.main_v1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg6) = v2 c
          ∧ r.2.mem ((c.tc : Thread Cert.ReferenceIdeal.nD Cert.ReferenceIdeal.τ).loc Cert.ReferenceIdeal.main_v4) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000 : Shape := ⟨1, ![100000]⟩
abbrev S17 : Shape := ⟨1, ![17]⟩
abbrev S100000x3 : Shape := ⟨2, ![100000, 3]⟩
abbrev S16x3x3 : Shape := ⟨3, ![16, 3, 3]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S16x3x3 : S_.BroadcastsInDim S16x3x3 (![] : Fin 0 → Fin S16x3x3.rank)
  reducesTo_S16x3x3_S_d0_1_2 : S16x3x3.ReducesTo [0, 1, 2] S_
  bcast_S_S17 : S_.BroadcastsInDim S17 (![] : Fin 0 → Fin S17.rank)
  reducesTo_S17_S_d0 : S17.ReducesTo [0] S_

variable [Facts]

def fn_part2 {F : FTy → Type} [FloatOps F] (main_arg3 : IVec S17 32) (main_v30 : IVec S_ 1) (main_v32 : IVec S17 1) (main_c_12 : IVec S_ 32) : IVec S_ 1 :=
  let main_v33 : IVec S17 32 := broadcastInDim S17 ![] bcast_S_S17 main_c_12
  let main_v34 : IVec S17 1 := cmpi .sle main_arg3 main_v33
  let main_v35 : IVec S17 1 := andi main_v32 main_v34
  let main_c_13 : IVec S_ 1 := constantI S_ 1 1#1
  let main_v36 : IVec S_ 1 := (fun x v => Host.reduce IntOp.andi x v reducesTo_S17_S_d0 h_S_) main_v35 main_c_13
  let main_v37 : IVec S_ 1 := andi main_v30 main_v36
  main_v37

def fn_part1 {F : FTy → Type} [FloatOps F] (main_arg2 : IVec S100000 32) (main_arg3 : IVec S17 32) (main_arg6 : FVec F S100000x3 .f32) (main_v13 : IVec S_ 1) (main_v16 : IVec S16x3x3 1) : IVec S_ 1 :=
  let main_c_5 : IVec S_ 1 := constantI S_ 1 1#1
  let main_v17 : IVec S_ 1 := (fun x v => Host.reduce IntOp.andi x v reducesTo_S16x3x3_S_d0_1_2 h_S_) main_v16 main_c_5
  let main_v18 : IVec S_ 1 := andi main_v13 main_v17
  let main_v19 : FVec F S100000x3 .f32 := Host.absf main_arg6
  let main_cst_6 : FVec F S_ .f32 := constant S_ .f32 0x7F800000#32
  let main_v20 : FVec F S100000x3 .f32 := broadcastInDim S100000x3 ![] bcast_S_S100000x3 main_cst_6
  let main_v21 : IVec S100000x3 1 := cmpf .olt main_v19 main_v20
  let main_c_7 : IVec S_ 1 := constantI S_ 1 1#1
  let main_v22 : IVec S_ 1 := (fun x v => Host.reduce IntOp.andi x v reducesTo_S100000x3_S_d0_1 h_S_) main_v21 main_c_7
  let main_v23 : IVec S_ 1 := andi main_v18 main_v22
  let main_c_8 : IVec S_ 32 := constantI S_ 32 0#32
  let main_v24 : IVec S100000 32 := broadcastInDim S100000 ![] bcast_S_S100000 main_c_8
  let main_v25 : IVec S100000 1 := cmpi .sge main_arg2 main_v24
  let main_c_9 : IVec S_ 32 := constantI S_ 32 15#32
  let main_v26 : IVec S100000 32 := broadcastInDim S100000 ![] bcast_S_S100000 main_c_9
  let main_v27 : IVec S100000 1 := cmpi .sle main_arg2 main_v26
  let main_v28 : IVec S100000 1 := andi main_v25 main_v27
  let main_c_10 : IVec S_ 1 := constantI S_ 1 1#1
  let main_v29 : IVec S_ 1 := (fun x v => Host.reduce IntOp.andi x v reducesTo_S100000_S_d0 h_S_) main_v28 main_c_10
  let main_v30 : IVec S_ 1 := andi main_v23 main_v29
  let main_c_11 : IVec S_ 32 := constantI S_ 32 0#32
  let main_v31 : IVec S17 32 := broadcastInDim S17 ![] bcast_S_S17 main_c_11
  let main_v32 : IVec S17 1 := cmpi .sge main_arg3 main_v31
  let main_c_12 : IVec S_ 32 := constantI S_ 32 16#32
  fn_part2 (F := F) main_arg3 main_v30 main_v32 main_c_12

def fn {F : FTy → Type} [FloatOps F] (main_arg0 : FVec F S100000 .f32) (main_arg1 : FVec F S100000 .f32) (main_arg2 : IVec S100000 32) (main_arg3 : IVec S17 32) (main_arg4 : FVec F S100000x3 .f32) (main_arg5 : FVec F S16x3x3 .f32) (main_arg6 : FVec F S100000x3 .f32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S100000 .f32 := Host.absf main_arg1
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S100000x3 .f32 := Host.absf main_arg4
  let main_cst_2 : FVec F S_ .f32 := constant S_ .f32 0x7F800000#32
  let main_v10 : FVec F S100000x3 .f32 := broadcastInDim S100000x3 ![] bcast_S_S100000x3 main_cst_2
  let main_v11 : IVec S100000x3 1 := cmpf .olt main_v9 main_v10
  let main_c_3 : IVec S_ 1 := constantI S_ 1 1#1
  let main_v12 : IVec S_ 1 := (fun x v => Host.reduce IntOp.andi x v reducesTo_S100000x3_S_d0_1 h_S_) main_v11 main_c_3
  let main_v13 : IVec S_ 1 := andi main_v8 main_v12
  let main_v14 : FVec F S16x3x3 .f32 := Host.absf main_arg5
  let main_cst_4 : FVec F S_ .f32 := constant S_ .f32 0x7F800000#32
  let main_v15 : FVec F S16x3x3 .f32 := broadcastInDim S16x3x3 ![] bcast_S_S16x3x3 main_cst_4
  let main_v16 : IVec S16x3x3 1 := cmpf .olt main_v14 main_v15
  fn_part1 (F := F) main_arg2 main_arg3 main_arg6 main_v13 main_v16
-- ==== Kernel.lean ====
abbrev S100000 : Shape := ⟨1, ![100000]⟩
abbrev S17 : Shape := ⟨1, ![17]⟩
abbrev S100000x3 : Shape := ⟨2, ![100000, 3]⟩
abbrev S16x3x3 : Shape := ⟨3, ![16, 3, 3]⟩
abbrev S16 : Shape := ⟨1, ![16]⟩
abbrev S512 : Shape := ⟨1, ![512]⟩
abbrev S6256 : Shape := ⟨1, ![6256]⟩
abbrev S8x16 : Shape := ⟨2, ![8, 16]⟩
abbrev S256 : Shape := ⟨1, ![256]⟩
abbrev S_ : Shape := ⟨0, ![]⟩
abbrev S1x16 : Shape := ⟨2, ![1, 16]⟩
abbrev S8 : Shape := ⟨1, ![8]⟩

abbrev nBuf : Table → Nat
  | .hbm => 11
  | .local .scVector .vmem => 6
  | _ => 0

abbrev bufTy : (tb : Table) → Fin (nBuf tb) → BufTy
  | .hbm, ⟨0, _⟩ => ⟨S100000, .f32⟩
  | .hbm, ⟨1, _⟩ => ⟨S100000, .f32⟩
  | .hbm, ⟨2, _⟩ => ⟨S100000, .i32⟩
  | .hbm, ⟨3, _⟩ => ⟨S17, .i32⟩
  | .hbm, ⟨4, _⟩ => ⟨S100000x3, .f32⟩
  | .hbm, ⟨5, _⟩ => ⟨S16x3x3, .f32⟩
  | .hbm, ⟨6, _⟩ => ⟨S100000x3, .f32⟩
  | .hbm, ⟨7, _⟩ => ⟨S16, .f32⟩
  | .hbm, ⟨8, _⟩ => ⟨S512, .f32⟩
  | .hbm, ⟨9, _⟩ => ⟨S_, .f32⟩
  | .hbm, ⟨10, _⟩ => ⟨S16x3x3, .f32⟩
  | .local .scVector .vmem, ⟨0, _⟩ => ⟨S6256, .f32⟩
  | .local .scVector .vmem, ⟨1, _⟩ => ⟨S6256, .f32⟩
  | .local .scVector .vmem, ⟨2, _⟩ => ⟨S6256, .i32⟩
  | .local .scVector .vmem, ⟨3, _⟩ => ⟨S16, .f32⟩
  | .local .scVector .vmem, ⟨4, _⟩ => ⟨S8x16, .f32⟩
  | .local .scVector .vmem, ⟨5, _⟩ => ⟨S256, .f32⟩
  | _, _ => ⟨S100000, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 5 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_cst : Ref sig .tc := ⟨.hbm, 9, rfl⟩
abbrev main_v1 : Ref sig .tc := ⟨.hbm, 10, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_0_scv : Ref sig .scVector := ⟨.hbm, 7, rfl⟩
abbrev main_v0_1_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c15_i32 : BitVec 32 := 15#32
  let v0 : BitVec 1 := Scalar.cmpi .eq arg1 c15_i32
  let c93744_i32 : BitVec 32 := 93744#32
  let c6256_i32 : BitVec 32 := 6256#32
  let v1 : BitVec 32 := Scalar.muli arg1 c6256_i32
  let v2 : BitVec 32 := Scalar.select v0 c93744_i32 v1
  ![v2.toNat]
@[reducible] def k0_t1_loop (i : grid0.Coords) : Scf.Loop 32 :=
  let arg1 : BitVec 32 := BitVec.ofNat 32 (i 1).val
  let c15_i32 : BitVec 32 := 15#32
  let v0 : BitVec 1 := Scalar.cmpi .eq arg1 c15_i32
  let c3_i32 : BitVec 32 := 3#32
  let c0_i32 : BitVec 32 := 0#32
  let v17 : BitVec 32 := Scalar.select v0 c3_i32 c0_i32
  let c195_i32 : BitVec 32 := 195#32
  let v18 : BitVec 32 := Scalar.subi c195_i32 v17
  let c1_i32 : BitVec 32 := 1#32
  let v20 : BitVec 32 := Scalar.divsi v18 c1_i32
  let v21 : BitVec 32 := Scalar.muli v20 c1_i32
  let v22 : BitVec 32 := Scalar.addi v17 v21
  let c1_i32_0 : BitVec 32 := 1#32
  ⟨v17, v22, c1_i32_0⟩
def k0_off2 (i : grid0.Coords) (k0_t1 : Fin (k0_t1_loop i).trips) : Fin 1 → Nat :=
  let arg1 : BitVec 32 := BitVec.ofNat 32 (i 1).val
  let c15_i32 : BitVec 32 := 15#32
  let v0 : BitVec 1 := Scalar.cmpi .eq arg1 c15_i32
  let c3_i32 : BitVec 32 := 3#32
  let c0_i32 : BitVec 32 := 0#32
  let v17 : BitVec 32 := Scalar.select v0 c3_i32 c0_i32
  let c1_i32_0 : BitVec 32 := 1#32
  let arg16 : BitVec 32 := Scf.iv v17 c1_i32_0 k0_t1
  let c32_i32 : BitVec 32 := 32#32
  let v143 : BitVec 32 := Scalar.muli arg16 c32_i32
  let v144 : Index := Scalar.indexCast v143
  ![v144.toNat]
def k0_off3 (i : grid0.Coords) (k0_t1 : Fin (k0_t1_loop i).trips) : Fin 1 → Nat :=
  let arg1 : BitVec 32 := BitVec.ofNat 32 (i 1).val
  let c15_i32 : BitVec 32 := 15#32
  let v0 : BitVec 1 := Scalar.cmpi .eq arg1 c15_i32
  let c3_i32 : BitVec 32 := 3#32
  let c0_i32 : BitVec 32 := 0#32
  let v17 : BitVec 32 := Scalar.select v0 c3_i32 c0_i32
  let c1_i32_0 : BitVec 32 := 1#32
  let arg16 : BitVec 32 := Scf.iv v17 c1_i32_0 k0_t1
  let c32_i32_46 : BitVec 32 := 32#32
  let v191 : BitVec 32 := Scalar.muli arg16 c32_i32_46
  let c16_i32_47 : BitVec 32 := 16#32
  let v192 : BitVec 32 := Scalar.addi v191 c16_i32_47
  let v193 : Index := Scalar.indexCast v192
  ![v193.toNat]
@[reducible] def k0_t2_loop (i : grid0.Coords) : Scf.Loop 32 :=
  let arg1 : BitVec 32 := BitVec.ofNat 32 (i 1).val
  let c15_i32 : BitVec 32 := 15#32
  let v0 : BitVec 1 := Scalar.cmpi .eq arg1 c15_i32
  let c3_i32 : BitVec 32 := 3#32
  let c0_i32 : BitVec 32 := 0#32
  let v17 : BitVec 32 := Scalar.select v0 c3_i32 c0_i32
  let c195_i32 : BitVec 32 := 195#32
  let v18 : BitVec 32 := Scalar.subi c195_i32 v17
  let c1_i32 : BitVec 32 := 1#32
  let v20 : BitVec 32 := Scalar.divsi v18 c1_i32
  let v21 : BitVec 32 := Scalar.muli v20 c1_i32
  let v22 : BitVec 32 := Scalar.addi v17 v21
  let v19 : BitVec 32 := Scalar.addi v17 v18
  let c1_i32_1 : BitVec 32 := 1#32
  ⟨v22, v19, c1_i32_1⟩
def k0_off4 (i : grid0.Coords) (k0_t2 : Fin (k0_t2_loop i).trips) : Fin 1 → Nat :=
  let arg1 : BitVec 32 := BitVec.ofNat 32 (i 1).val
  let c15_i32 : BitVec 32 := 15#32
  let v0 : BitVec 1 := Scalar.cmpi .eq arg1 c15_i32
  let c3_i32 : BitVec 32 := 3#32
  let c0_i32 : BitVec 32 := 0#32
  let v17 : BitVec 32 := Scalar.select v0 c3_i32 c0_i32
  let c195_i32 : BitVec 32 := 195#32
  let v18 : BitVec 32 := Scalar.subi c195_i32 v17
  let c1_i32 : BitVec 32 := 1#32
  let v20 : BitVec 32 := Scalar.divsi v18 c1_i32
  let v21 : BitVec 32 := Scalar.muli v20 c1_i32
  let v22 : BitVec 32 := Scalar.addi v17 v21
  let c1_i32_1 : BitVec 32 := 1#32
  let arg16 : BitVec 32 := Scf.iv v22 c1_i32_1 k0_t2
  let c32_i32 : BitVec 32 := 32#32
  let v143 : BitVec 32 := Scalar.muli arg16 c32_i32
  let v144 : Index := Scalar.indexCast v143
  ![v144.toNat]
def k0_off5 (i : grid0.Coords) (k0_t2 : Fin (k0_t2_loop i).trips) : Fin 1 → Nat :=
  let arg1 : BitVec 32 := BitVec.ofNat 32 (i 1).val
  let c15_i32 : BitVec 32 := 15#32
  let v0 : BitVec 1 := Scalar.cmpi .eq arg1 c15_i32
  let c3_i32 : BitVec 32 := 3#32
  let c0_i32 : BitVec 32 := 0#32
  let v17 : BitVec 32 := Scalar.select v0 c3_i32 c0_i32
  let c195_i32 : BitVec 32 := 195#32
  let v18 : BitVec 32 := Scalar.subi c195_i32 v17
  let c1_i32 : BitVec 32 := 1#32
  let v20 : BitVec 32 := Scalar.divsi v18 c1_i32
  let v21 : BitVec 32 := Scalar.muli v20 c1_i32
  let v22 : BitVec 32 := Scalar.addi v17 v21
  let c1_i32_1 : BitVec 32 := 1#32
  let arg16 : BitVec 32 := Scf.iv v22 c1_i32_1 k0_t2
  let c32_i32_46 : BitVec 32 := 32#32
  let v191 : BitVec 32 := Scalar.muli arg16 c32_i32_46
  let c16_i32_47 : BitVec 32 := 16#32
  let v192 : BitVec 32 := Scalar.addi v191 c16_i32_47
  let v193 : Index := Scalar.indexCast v192
  ![v193.toNat]

def k0_chk1 (v87 : IVec S16 32) (v88 : IVec S16 32) : Prop :=
  (∀ a x, ((![v87, v88] : Fin 2 → IVec S16 32) a x).toNat < S8x16.size a)
instance k0_chk1.dec : ∀ (v87 : IVec S16 32) (v88 : IVec S16 32), Decidable (k0_chk1 v87 v88) := fun v87 v88 => decidable_of_iff' _ (Iff.of_eq (k0_chk1.eq_1 v87 v88))
theorem k0_idx1_inb : ∀ (v87 : IVec S16 32) (v88 : IVec S16 32) (k0_hw1 : k0_chk1 v87 v88), ∀ a x, ((![v87, v88] : Fin 2 → IVec S16 32) a x).toNat < S8x16.size a := fun v87 v88 k0_hw1 => k0_hw1

def k0_chk2 (v87 : IVec S16 32) (v91 : IVec S16 32) : Prop :=
  (∀ a x, ((![v87, v91] : Fin 2 → IVec S16 32) a x).toNat < S8x16.size a)
instance k0_chk2.dec : ∀ (v87 : IVec S16 32) (v91 : IVec S16 32), Decidable (k0_chk2 v87 v91) := fun v87 v91 => decidable_of_iff' _ (Iff.of_eq (k0_chk2.eq_1 v87 v91))
theorem k0_idx2_inb : ∀ (v87 : IVec S16 32) (v91 : IVec S16 32) (k0_hw2 : k0_chk2 v87 v91), ∀ a x, ((![v87, v91] : Fin 2 → IVec S16 32) a x).toNat < S8x16.size a := fun v87 v91 k0_hw2 => k0_hw2

def k0_chk3 (v87 : IVec S16 32) (v94 : IVec S16 32) : Prop :=
  (∀ a x, ((![v87, v94] : Fin 2 → IVec S16 32) a x).toNat < S8x16.size a)
instance k0_chk3.dec : ∀ (v87 : IVec S16 32) (v94 : IVec S16 32), Decidable (k0_chk3 v87 v94) := fun v87 v94 => decidable_of_iff' _ (Iff.of_eq (k0_chk3.eq_1 v87 v94))
theorem k0_idx3_inb : ∀ (v87 : IVec S16 32) (v94 : IVec S16 32) (k0_hw3 : k0_chk3 v87 v94), ∀ a x, ((![v87, v94] : Fin 2 → IVec S16 32) a x).toNat < S8x16.size a := fun v87 v94 k0_hw3 => k0_hw3

def k0_chk4 (v87 : IVec S16 32) (v97 : IVec S16 32) : Prop :=
  (∀ a x, ((![v87, v97] : Fin 2 → IVec S16 32) a x).toNat < S8x16.size a)
instance k0_chk4.dec : ∀ (v87 : IVec S16 32) (v97 : IVec S16 32), Decidable (k0_chk4 v87 v97) := fun v87 v97 => decidable_of_iff' _ (Iff.of_eq (k0_chk4.eq_1 v87 v97))
theorem k0_idx4_inb : ∀ (v87 : IVec S16 32) (v97 : IVec S16 32) (k0_hw4 : k0_chk4 v87 v97), ∀ a x, ((![v87, v97] : Fin 2 → IVec S16 32) a x).toNat < S8x16.size a := fun v87 v97 k0_hw4 => k0_hw4

def k0_chk5 (v87 : IVec S16 32) (v100 : IVec S16 32) : Prop :=
  (∀ a x, ((![v87, v100] : Fin 2 → IVec S16 32) a x).toNat < S8x16.size a)
instance k0_chk5.dec : ∀ (v87 : IVec S16 32) (v100 : IVec S16 32), Decidable (k0_chk5 v87 v100) := fun v87 v100 => decidable_of_iff' _ (Iff.of_eq (k0_chk5.eq_1 v87 v100))
theorem k0_idx5_inb : ∀ (v87 : IVec S16 32) (v100 : IVec S16 32) (k0_hw5 : k0_chk5 v87 v100), ∀ a x, ((![v87, v100] : Fin 2 → IVec S16 32) a x).toNat < S8x16.size a := fun v87 v100 k0_hw5 => k0_hw5

def k0_chk6 (v87 : IVec S16 32) (v103 : IVec S16 32) : Prop :=
  (∀ a x, ((![v87, v103] : Fin 2 → IVec S16 32) a x).toNat < S8x16.size a)
instance k0_chk6.dec : ∀ (v87 : IVec S16 32) (v103 : IVec S16 32), Decidable (k0_chk6 v87 v103) := fun v87 v103 => decidable_of_iff' _ (Iff.of_eq (k0_chk6.eq_1 v87 v103))
theorem k0_idx6_inb : ∀ (v87 : IVec S16 32) (v103 : IVec S16 32) (k0_hw6 : k0_chk6 v87 v103), ∀ a x, ((![v87, v103] : Fin 2 → IVec S16 32) a x).toNat < S8x16.size a := fun v87 v103 k0_hw6 => k0_hw6

def k0_chk7 (v87 : IVec S16 32) (v106 : IVec S16 32) : Prop :=
  (∀ a x, ((![v87, v106] : Fin 2 → IVec S16 32) a x).toNat < S8x16.size a)
instance k0_chk7.dec : ∀ (v87 : IVec S16 32) (v106 : IVec S16 32), Decidable (k0_chk7 v87 v106) := fun v87 v106 => decidable_of_iff' _ (Iff.of_eq (k0_chk7.eq_1 v87 v106))
theorem k0_idx7_inb : ∀ (v87 : IVec S16 32) (v106 : IVec S16 32) (k0_hw7 : k0_chk7 v87 v106), ∀ a x, ((![v87, v106] : Fin 2 → IVec S16 32) a x).toNat < S8x16.size a := fun v87 v106 k0_hw7 => k0_hw7

def k0_chk8 (v87 : IVec S16 32) (v109 : IVec S16 32) : Prop :=
  (∀ a x, ((![v87, v109] : Fin 2 → IVec S16 32) a x).toNat < S8x16.size a)
instance k0_chk8.dec : ∀ (v87 : IVec S16 32) (v109 : IVec S16 32), Decidable (k0_chk8 v87 v109) := fun v87 v109 => decidable_of_iff' _ (Iff.of_eq (k0_chk8.eq_1 v87 v109))
theorem k0_idx8_inb : ∀ (v87 : IVec S16 32) (v109 : IVec S16 32) (k0_hw8 : k0_chk8 v87 v109), ∀ a x, ((![v87, v109] : Fin 2 → IVec S16 32) a x).toNat < S8x16.size a := fun v87 v109 k0_hw8 => k0_hw8

def k0_chk9 (v87 : IVec S16 32) (v112 : IVec S16 32) : Prop :=
  (∀ a x, ((![v87, v112] : Fin 2 → IVec S16 32) a x).toNat < S8x16.size a)
instance k0_chk9.dec : ∀ (v87 : IVec S16 32) (v112 : IVec S16 32), Decidable (k0_chk9 v87 v112) := fun v87 v112 => decidable_of_iff' _ (Iff.of_eq (k0_chk9.eq_1 v87 v112))
theorem k0_idx9_inb : ∀ (v87 : IVec S16 32) (v112 : IVec S16 32) (k0_hw9 : k0_chk9 v87 v112), ∀ a x, ((![v87, v112] : Fin 2 → IVec S16 32) a x).toNat < S8x16.size a := fun v87 v112 k0_hw9 => k0_hw9

def k0_chk10 (v87 : IVec S16 32) (v115 : IVec S16 32) : Prop :=
  (∀ a x, ((![v87, v115] : Fin 2 → IVec S16 32) a x).toNat < S8x16.size a)
instance k0_chk10.dec : ∀ (v87 : IVec S16 32) (v115 : IVec S16 32), Decidable (k0_chk10 v87 v115) := fun v87 v115 => decidable_of_iff' _ (Iff.of_eq (k0_chk10.eq_1 v87 v115))
theorem k0_idx10_inb : ∀ (v87 : IVec S16 32) (v115 : IVec S16 32) (k0_hw10 : k0_chk10 v87 v115), ∀ a x, ((![v87, v115] : Fin 2 → IVec S16 32) a x).toNat < S8x16.size a := fun v87 v115 k0_hw10 => k0_hw10

def k0_chk11 (v87 : IVec S16 32) (v118 : IVec S16 32) : Prop :=
  (∀ a x, ((![v87, v118] : Fin 2 → IVec S16 32) a x).toNat < S8x16.size a)
instance k0_chk11.dec : ∀ (v87 : IVec S16 32) (v118 : IVec S16 32), Decidable (k0_chk11 v87 v118) := fun v87 v118 => decidable_of_iff' _ (Iff.of_eq (k0_chk11.eq_1 v87 v118))
theorem k0_idx11_inb : ∀ (v87 : IVec S16 32) (v118 : IVec S16 32) (k0_hw11 : k0_chk11 v87 v118), ∀ a x, ((![v87, v118] : Fin 2 → IVec S16 32) a x).toNat < S8x16.size a := fun v87 v118 k0_hw11 => k0_hw11

def k0_chk12 (v87 : IVec S16 32) (v121 : IVec S16 32) : Prop :=
  (∀ a x, ((![v87, v121] : Fin 2 → IVec S16 32) a x).toNat < S8x16.size a)
instance k0_chk12.dec : ∀ (v87 : IVec S16 32) (v121 : IVec S16 32), Decidable (k0_chk12 v87 v121) := fun v87 v121 => decidable_of_iff' _ (Iff.of_eq (k0_chk12.eq_1 v87 v121))
theorem k0_idx12_inb : ∀ (v87 : IVec S16 32) (v121 : IVec S16 32) (k0_hw12 : k0_chk12 v87 v121), ∀ a x, ((![v87, v121] : Fin 2 → IVec S16 32) a x).toNat < S8x16.size a := fun v87 v121 k0_hw12 => k0_hw12

def k0_chk13 (v87 : IVec S16 32) (v124 : IVec S16 32) : Prop :=
  (∀ a x, ((![v87, v124] : Fin 2 → IVec S16 32) a x).toNat < S8x16.size a)
instance k0_chk13.dec : ∀ (v87 : IVec S16 32) (v124 : IVec S16 32), Decidable (k0_chk13 v87 v124) := fun v87 v124 => decidable_of_iff' _ (Iff.of_eq (k0_chk13.eq_1 v87 v124))
theorem k0_idx13_inb : ∀ (v87 : IVec S16 32) (v124 : IVec S16 32) (k0_hw13 : k0_chk13 v87 v124), ∀ a x, ((![v87, v124] : Fin 2 → IVec S16 32) a x).toNat < S8x16.size a := fun v87 v124 k0_hw13 => k0_hw13

def k0_chk14 (v87 : IVec S16 32) (v127 : IVec S16 32) : Prop :=
  (∀ a x, ((![v87, v127] : Fin 2 → IVec S16 32) a x).toNat < S8x16.size a)
instance k0_chk14.dec : ∀ (v87 : IVec S16 32) (v127 : IVec S16 32), Decidable (k0_chk14 v87 v127) := fun v87 v127 => decidable_of_iff' _ (Iff.of_eq (k0_chk14.eq_1 v87 v127))
theorem k0_idx14_inb : ∀ (v87 : IVec S16 32) (v127 : IVec S16 32) (k0_hw14 : k0_chk14 v87 v127), ∀ a x, ((![v87, v127] : Fin 2 → IVec S16 32) a x).toNat < S8x16.size a := fun v87 v127 k0_hw14 => k0_hw14

def k0_chk15 (v87 : IVec S16 32) (v130 : IVec S16 32) : Prop :=
  (∀ a x, ((![v87, v130] : Fin 2 → IVec S16 32) a x).toNat < S8x16.size a)
instance k0_chk15.dec : ∀ (v87 : IVec S16 32) (v130 : IVec S16 32), Decidable (k0_chk15 v87 v130) := fun v87 v130 => decidable_of_iff' _ (Iff.of_eq (k0_chk15.eq_1 v87 v130))
theorem k0_idx15_inb : ∀ (v87 : IVec S16 32) (v130 : IVec S16 32) (k0_hw15 : k0_chk15 v87 v130), ∀ a x, ((![v87, v130] : Fin 2 → IVec S16 32) a x).toNat < S8x16.size a := fun v87 v130 k0_hw15 => k0_hw15

def k0_chk16 (v87 : IVec S16 32) (v133 : IVec S16 32) : Prop :=
  (∀ a x, ((![v87, v133] : Fin 2 → IVec S16 32) a x).toNat < S8x16.size a)
instance k0_chk16.dec : ∀ (v87 : IVec S16 32) (v133 : IVec S16 32), Decidable (k0_chk16 v87 v133) := fun v87 v133 => decidable_of_iff' _ (Iff.of_eq (k0_chk16.eq_1 v87 v133))
theorem k0_idx16_inb : ∀ (v87 : IVec S16 32) (v133 : IVec S16 32) (k0_hw16 : k0_chk16 v87 v133), ∀ a x, ((![v87, v133] : Fin 2 → IVec S16 32) a x).toNat < S8x16.size a := fun v87 v133 k0_hw16 => k0_hw16
def k0_off6 (i : grid0.Coords) : Fin 1 → Nat :=
  let arg0 : BitVec 32 := BitVec.ofNat 32 (i 0).val
  let c16_i32 : BitVec 32 := 16#32
  let v137 : BitVec 32 := Scalar.muli arg0 c16_i32
  let arg1 : BitVec 32 := BitVec.ofNat 32 (i 1).val
  let v138 : BitVec 32 := Scalar.addi v137 arg1
  let c16_i32_34 : BitVec 32 := 16#32
  let v139 : BitVec 32 := Scalar.muli v138 c16_i32_34
  ![v139.toNat]
def k0_cond1 (i : grid0.Coords) : BitVec 1 :=
  let arg1 : BitVec 32 := BitVec.ofNat 32 (i 1).val
  let c0_i32_36 : BitVec 32 := 0#32
  let v140 : BitVec 1 := Scalar.cmpi .eq arg1 c0_i32_36
  let v141 : BitVec 32 := Scalar.extui v140
  let c0_i32_37 : BitVec 32 := 0#32
  let v142 : BitVec 1 := Scalar.cmpi .ne v141 c0_i32_37
  v142

def k0_off7 (i : grid0.Coords) : Fin 1 → Nat :=
  let arg0 : BitVec 32 := BitVec.ofNat 32 (i 0).val
  let c16_i32_38 : BitVec 32 := 16#32
  let v143 : BitVec 32 := Scalar.muli arg0 c16_i32_38
  let c16_i32_39 : BitVec 32 := 16#32
  let v144 : BitVec 32 := Scalar.muli v143 c16_i32_39
  ![v144.toNat]
def k0_off8 (i : grid0.Coords) : Fin 1 → Nat :=
  let arg0 : BitVec 32 := BitVec.ofNat 32 (i 0).val
  let c8_i32_42 : BitVec 32 := 8#32
  let v177 : BitVec 32 := Scalar.muli arg0 c8_i32_42
  ![v177.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S16 : 0 < S16.numel
  inb_S6256_S16_6240 : ∀ a, (![6240] : Fin 1 → Nat) a + S16.size a ≤ S6256.size a
  inb_S8x16_S1x16_0_0 : ∀ a, (![0, 0] : Fin 2 → Nat) a + S1x16.size a ≤ S8x16.size a
  h_S1x16 : 0 < S1x16.numel
  shapeCasts_S1x16_S16 : S1x16.ShapeCasts S16
  shapeCasts_S16_S1x16 : S16.ShapeCasts S1x16
  inb_S8x16_S1x16_1_0 : ∀ a, (![1, 0] : Fin 2 → Nat) a + S1x16.size a ≤ S8x16.size a
  inb_S8x16_S1x16_2_0 : ∀ a, (![2, 0] : Fin 2 → Nat) a + S1x16.size a ≤ S8x16.size a
  inb_S8x16_S1x16_3_0 : ∀ a, (![3, 0] : Fin 2 → Nat) a + S1x16.size a ≤ S8x16.size a
  inb_S8x16_S1x16_4_0 : ∀ a, (![4, 0] : Fin 2 → Nat) a + S1x16.size a ≤ S8x16.size a
  inb_S8x16_S1x16_5_0 : ∀ a, (![5, 0] : Fin 2 → Nat) a + S1x16.size a ≤ S8x16.size a
  inb_S8x16_S1x16_6_0 : ∀ a, (![6, 0] : Fin 2 → Nat) a + S1x16.size a ≤ S8x16.size a
  inb_S8x16_S1x16_7_0 : ∀ a, (![7, 0] : Fin 2 → Nat) a + S1x16.size a ≤ S8x16.size a
  iota_S16_d0_w32_scVector : S16.Iotas .scVector 32 [0]
  h_S8x16 : 0 < S8x16.numel
  inb_S16_S16_0 : ∀ a, (![0] : Fin 1 → Nat) a + S16.size a ≤ S16.size a
  inb_S256_S16_0 : ∀ a, (![0] : Fin 1 → Nat) a + S16.size a ≤ S256.size a
  inb_S256_S16_16 : ∀ a, (![16] : Fin 1 → Nat) a + S16.size a ≤ S256.size a
  inb_S256_S16_32 : ∀ a, (![32] : Fin 1 → Nat) a + S16.size a ≤ S256.size a
  inb_S256_S16_48 : ∀ a, (![48] : Fin 1 → Nat) a + S16.size a ≤ S256.size a
  inb_S256_S16_64 : ∀ a, (![64] : Fin 1 → Nat) a + S16.size a ≤ S256.size a
  inb_S256_S16_80 : ∀ a, (![80] : Fin 1 → Nat) a + S16.size a ≤ S256.size a
  inb_S256_S16_96 : ∀ a, (![96] : Fin 1 → Nat) a + S16.size a ≤ S256.size a
  inb_S256_S16_112 : ∀ a, (![112] : Fin 1 → Nat) a + S16.size a ≤ S256.size a
  inb_S256_S16_128 : ∀ a, (![128] : Fin 1 → Nat) a + S16.size a ≤ S256.size a
  inb_S256_S16_144 : ∀ a, (![144] : Fin 1 → Nat) a + S16.size a ≤ S256.size a
  inb_S256_S16_160 : ∀ a, (![160] : Fin 1 → Nat) a + S16.size a ≤ S256.size a
  inb_S256_S16_176 : ∀ a, (![176] : Fin 1 → Nat) a + S16.size a ≤ S256.size a
  inb_S256_S16_192 : ∀ a, (![192] : Fin 1 → Nat) a + S16.size a ≤ S256.size a
  inb_S256_S16_208 : ∀ a, (![208] : Fin 1 → Nat) a + S16.size a ≤ S256.size a
  inb_S256_S16_224 : ∀ a, (![224] : Fin 1 → Nat) a + S16.size a ≤ S256.size a
  inb_S256_S16_240 : ∀ a, (![240] : Fin 1 → Nat) a + S16.size a ≤ S256.size a
  inb_S16_S8_0 : ∀ a, (![0] : Fin 1 → Nat) a + S8.size a ≤ S16.size a
  bcast_S_S16x3x3 : S_.BroadcastsInDim S16x3x3 (![] : Fin 0 → Fin S16x3x3.rank)
  hcc0_scratch6 : 0 + S_.numel ≤ 6
  hcc0_scratch7 : 1 + S_.numel ≤ 6
  hcc0_scratch8 : 2 + S_.numel ≤ 6
  hcc0_scoped0 : 3 + S_.numel ≤ 6
  hcc0_scoped1 : 4 + S_.numel ≤ 6
  hcc0_scoped2 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S6256.size a ≤ S100000.size a
  k0_t1_ok : ∀ i : grid0.Coords, (k0_t1_loop i).OK
  k0_off2_inb : ∀ (i : grid0.Coords) (k0_t1 : Fin (k0_t1_loop i).trips), ∀ a, (k0_off2 i k0_t1) a + S16.size a ≤ S6256.size a
  k0_off3_inb : ∀ (i : grid0.Coords) (k0_t1 : Fin (k0_t1_loop i).trips), ∀ a, (k0_off3 i k0_t1) a + S16.size a ≤ S6256.size a
  k0_t2_ok : ∀ i : grid0.Coords, (k0_t2_loop i).OK
  k0_off4_inb : ∀ (i : grid0.Coords) (k0_t2 : Fin (k0_t2_loop i).trips), ∀ a, (k0_off4 i k0_t2) a + S16.size a ≤ S6256.size a
  k0_off5_inb : ∀ (i : grid0.Coords) (k0_t2 : Fin (k0_t2_loop i).trips), ∀ a, (k0_off5 i k0_t2) a + S16.size a ≤ S6256.size a
  k0_off6_inb : ∀ i : grid0.Coords, ∀ a, (k0_off6 i) a + S16.size a ≤ S512.size a
  k0_off7_inb : ∀ i : grid0.Coords, ∀ (k0_h1 : k0_cond1 i = 1#1), ∀ a, (k0_off7 i) a + S256.size a ≤ S512.size a
  k0_off8_inb : ∀ i : grid0.Coords, ∀ (k0_h1 : k0_cond1 i = 1#1), ∀ a, (k0_off8 i) a + S8.size a ≤ S16.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scoped0 : DmaSems sig S_ := SemArray.consecutive 3 S_ hcc0_scoped0
abbrev cc0_scoped1 : DmaSems sig S_ := SemArray.consecutive 4 S_ hcc0_scoped1
abbrev cc0_scoped2 : DmaSems sig S_ := SemArray.consecutive 5 S_ hcc0_scoped2

class Facts : Prop extends Facts₀ where

variable [Facts]
-- ==== ReferenceIdeal.lean ====
abbrev S100000 : Shape := ⟨1, ![100000]⟩
abbrev S17 : Shape := ⟨1, ![17]⟩
abbrev S100000x3 : Shape := ⟨2, ![100000, 3]⟩
abbrev S16x3x3 : Shape := ⟨3, ![16, 3, 3]⟩
abbrev S_ : Shape := ⟨0, ![]⟩
abbrev S16 : Shape := ⟨1, ![16]⟩
abbrev S100000x1 : Shape := ⟨2, ![100000, 1]⟩

abbrev nBuf : Space → Nat
  | .hbm => 14
  | .vmem => 0
  | .smem => 0
  | _ => 0

abbrev bufTy : (tb : Table) → Fin (tcTables nBuf tb) → BufTy
  | .hbm, ⟨0, _⟩ => ⟨S100000, .f32⟩
  | .hbm, ⟨1, _⟩ => ⟨S100000, .f32⟩
  | .hbm, ⟨2, _⟩ => ⟨S100000, .i32⟩
  | .hbm, ⟨3, _⟩ => ⟨S17, .i32⟩
  | .hbm, ⟨4, _⟩ => ⟨S100000x3, .f32⟩
  | .hbm, ⟨5, _⟩ => ⟨S16x3x3, .f32⟩
  | .hbm, ⟨6, _⟩ => ⟨S100000x3, .f32⟩
  | .hbm, ⟨7, _⟩ => ⟨S100000, .f32⟩
  | .hbm, ⟨8, _⟩ => ⟨S_, .f32⟩
  | .hbm, ⟨9, _⟩ => ⟨S16, .f32⟩
  | .hbm, ⟨10, _⟩ => ⟨S100000x1, .i32⟩
  | .hbm, ⟨11, _⟩ => ⟨S16, .f32⟩
  | .hbm, ⟨12, _⟩ => ⟨S_, .f32⟩
  | .hbm, ⟨13, _⟩ => ⟨S16x3x3, .f32⟩
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S100000_S100000x1_0 : S100000.BroadcastsInDim S100000x1 (![0] : Fin 1 → Fin S100000x1.rank)
  bcast_S_S16x3x3 : S_.BroadcastsInDim S16x3x3 (![] : Fin 0 → Fin S16x3x3.rank)
  scatter_S16_S100000x1_S100000_n_0_0_1_wf : ScatterDims.WF S16 S100000x1 S100000 [] [0] [0] 1

variable [Facts₀]

def scatter_S16_S100000x1_S100000_n_0_0_1 : ScatterDims S16 S100000x1 S100000 where
  updateWindowDims := []
  insertedWindowDims := [0]
  scatterDimsToOperandDims := [0]
  indexVectorDim := 1
  wf := scatter_S16_S100000x1_S100000_n_0_0_1_wf

class Facts : Prop extends Facts₀ where

variable [Facts]
-- ==== Proof.KSegCommon.lean ====
import proofs.«209885_g3178275799312_cont_8to1_b_553_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209885_g3178275799312_cont_8to1_b_553_16_alg».proof.Proof.Gen.Kernel
import proofs.«209885_g3178275799312_cont_8to1_b_553_16_alg».proof.Proof.Gen.Kernel.Skeleton

/-!
# Segment sums on the SparseCores: vocabulary

Two SparseCores of sixteen tiles each. Core c accumulates the segments 8c … 8c+7. Tile i of either core
fetches its 6256-element chunk of the three input vectors (the last tile's chunk is moved back so that it
ends with the arrays, and it skips the 96 elements it shares with tile 14), sums energy × mask per lane and
per segment, folds the lanes, and leaves a 16-word row (segments 0..7 twice) in row 16c+i of a 512-word
staging array. After the subcore barrier tile 0 of core c adds the sixteen rows of its core and writes the
first eight sums to words 8c … 8c+7 of the result.

This file fixes the configuration the launch theorem is applied at, the ghost state (handshakes, barrier
cells, transfer counters), the arrays as the tiles address them, the index sets the arrays are cut into,
and the barrier schedule: in tile 0's round, tile i's duty hands over row 16c+i of the staging array,
holding the values the whole-array function G gives it.
-/

noncomputable section

namespace Cert.Kernel.SegSum

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

/-- energy, mask, segment ids (arguments); the sixteen sums and the staging array (the call's results). -/
abbrev neLoc (d : Dev nD) : Loc nD τ sig := (SparseCore.T d).loc main_arg0
abbrev lgLoc (d : Dev nD) : Loc nD τ sig := (SparseCore.T d).loc main_arg1
abbrev sgLoc (d : Dev nD) : Loc nD τ sig := (SparseCore.T d).loc main_arg2
abbrev outLoc (d : Dev nD) : Loc nD τ sig := (SparseCore.T d).loc main_v0_0
abbrev stLoc (d : Dev nD) : Loc nD τ sig := (SparseCore.T d).loc main_v0_1

abbrev neV : Memref sig .scVector .hbm S100000 .f32 := Memref.whole main_arg0_scv
abbrev lgV : Memref sig .scVector .hbm S100000 .f32 := Memref.whole main_arg1_scv
abbrev sgV : Memref sig .scVector .hbm S100000 .i32 := Memref.whole main_arg2_scv
abbrev outV : Memref sig .scVector .hbm S16 .f32 := Memref.whole main_v0_0_scv
abbrev stV : Memref sig .scVector .hbm S512 .f32 := Memref.whole main_v0_1_scv
/-- A tile's scratch: the three chunks, the 16-word row, the 8×16 accumulators, the 256 staged words. -/
abbrev s0V : Memref sig .scVector .vmem S6256 .f32 := Memref.whole cc0_scratch0
abbrev s1V : Memref sig .scVector .vmem S6256 .f32 := Memref.whole cc0_scratch1
abbrev s2V : Memref sig .scVector .vmem S6256 .i32 := Memref.whole cc0_scratch2
abbrev s3V : Memref sig .scVector .vmem S16 .f32 := Memref.whole cc0_scratch3
abbrev s4V : Memref sig .scVector .vmem S8x16 .f32 := Memref.whole cc0_scratch4
abbrev s5V : Memref sig .scVector .vmem S256 .f32 := Memref.whole cc0_scratch5

/-! ## The index sets: rows and halves of the staging array, halves of the result -/

/-- Words 16 r … 16 r + 15 of the staging array: what the tile numbered r (16 c + i) writes. -/
abbrev stRowRect (r : Fin 32) : Rect S512 := Rect.unit (s := S512) ![16 * r.val] ![16] (Rect.inb₁ (by have := r.isLt; show 16 * r.val + 16 ≤ 512; omega))
abbrev stRow (r : Fin 32) : Finset S512.Idx := (stRowRect r).set
/-- Words 256 c … 256 c + 255: the sixteen rows of core c. -/
abbrev stHalfRect (c : Fin 2) : Rect S512 := Rect.unit (s := S512) ![256 * c.val] ![256] (Rect.inb₁ (by have := c.isLt; show 256 * c.val + 256 ≤ 512; omega))
abbrev stHalf (c : Fin 2) : Finset S512.Idx := (stHalfRect c).set
/-- Words 8 c … 8 c + 7 of the result: core c's segments. -/
abbrev outHalfRect (c : Fin 2) : Rect S16 := Rect.unit (s := S16) ![8 * c.val] ![8] (Rect.inb₁ (by have := c.isLt; show 8 * c.val + 8 ≤ 16; omega))
abbrev outHalf (c : Fin 2) : Finset S16.Idx := (outHalfRect c).set

/-- The number of tile i of core c among the 32. -/
def tileNo (c : Fin 2) (i : Fin 16) : Fin 32 := ⟨16 * c.val + i.val, by have := c.isLt; have := i.isLt; omega⟩

theorem unit_set_congr {s : Shape} {off off' size size' : Fin s.rank → Nat} {inb inb'} (ho : off = off') (hs : size = size') :
    (Rect.unit (s := s) off size inb).set = (Rect.unit (s := s) off' size' inb').set := by subst ho; subst hs; rfl

theorem mem_stRow {r : Fin 32} {x : S512.Idx} : x ∈ stRow r ↔ 16 * r.val ≤ (x 0).val ∧ (x 0).val < 16 * r.val + 16 := by
  unfold stRow stRowRect; rw [Rect.mem_set_unit]; exact Fin.forall_fin_one
theorem mem_stHalf {c : Fin 2} {x : S512.Idx} : x ∈ stHalf c ↔ 256 * c.val ≤ (x 0).val ∧ (x 0).val < 256 * c.val + 256 := by
  unfold stHalf stHalfRect; rw [Rect.mem_set_unit]; exact Fin.forall_fin_one
theorem mem_outHalf {c : Fin 2} {x : S16.Idx} : x ∈ outHalf c ↔ 8 * c.val ≤ (x 0).val ∧ (x 0).val < 8 * c.val + 8 := by
  unfold outHalf outHalfRect; rw [Rect.mem_set_unit]; exact Fin.forall_fin_one

theorem stRows_disjoint : ∀ r ∈ (Finset.univ : Finset (Fin 32)), ∀ r' ∈ (Finset.univ : Finset (Fin 32)), r ≠ r' → Disjoint (stRow r) (stRow r') := by
  intro r _ r' _ h
  rw [Finset.disjoint_left]; intro x hx hx'
  rw [mem_stRow] at hx hx'
  exact h (Fin.ext (by omega))
theorem stRows_cover : (Finset.univ : Finset (Fin 32)).biUnion stRow = Finset.univ := by
  ext x
  simp only [Finset.mem_biUnion, Finset.mem_univ, true_and, iff_true]
  have hx : (x 0).val < 512 := (x 0).isLt
  exact ⟨⟨(x 0).val / 16, by omega⟩, mem_stRow.mpr ⟨by show 16 * ((x 0).val / 16) ≤ _; omega, by show _ < 16 * ((x 0).val / 16) + 16; omega⟩⟩
/-- The sixteen rows of core c are its half. -/
theorem stHalf_rows (c : Fin 2) : (Finset.univ : Finset (Fin 16)).biUnion (fun i => stRow (tileNo c i)) = stHalf c := by
  ext x
  simp only [Finset.mem_biUnion, Finset.mem_univ, true_and, mem_stRow, mem_stHalf, tileNo]
  constructor
  · rintro ⟨i, h1, h2⟩; have := i.isLt; constructor <;> omega
  · rintro ⟨h1, h2⟩
    exact ⟨⟨((x 0).val - 256 * c.val) / 16, by omega⟩, by show 16 * (16 * c.val + ((x 0).val - 256 * c.val) / 16) ≤ _; omega,
      by show _ < 16 * (16 * c.val + ((x 0).val - 256 * c.val) / 16) + 16; omega⟩
theorem stHalf_rows_disjoint (c : Fin 2) : ∀ i ∈ (Finset.univ : Finset (Fin 16)), ∀ i' ∈ (Finset.univ : Finset (Fin 16)), i ≠ i' →
    Disjoint (stRow (tileNo c i)) (stRow (tileNo c i')) := by
  intro i _ i' _ h
  refine stRows_disjoint _ (Finset.mem_univ _) _ (Finset.mem_univ _) fun e => h (Fin.ext ?_)
  have := congrArg Fin.val e; simp only [tileNo] at this; omega
theorem outHalves_disjoint : ∀ c ∈ (Finset.univ : Finset (Fin 2)), ∀ c' ∈ (Finset.univ : Finset (Fin 2)), c ≠ c' → Disjoint (outHalf c) (outHalf c') := by
  intro c _ c' _ h
  rw [Finset.disjoint_left]; intro x hx hx'
  rw [mem_outHalf] at hx hx'
  exact h (Fin.ext (by omega))
theorem outHalves_cover : (Finset.univ : Finset (Fin 2)).biUnion outHalf = Finset.univ := by
  ext x
  simp only [Finset.mem_biUnion, Finset.mem_univ, true_and, iff_true]
  have hx : (x 0).val < 16 := (x 0).isLt
  exact ⟨⟨(x 0).val / 8, by omega⟩, mem_outHalf.mpr ⟨by show 8 * ((x 0).val / 8) ≤ _; omega, by show _ < 8 * ((x 0).val / 8) + 8; omega⟩⟩

variable [FloatOps F]

/-! ## The barrier cells -/

/-- Tile (c, j)'s barrier semaphore of device d. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

theorem nSC_eq : τ.nSC = 2 := rfl
theorem nSub_eq : τ.nSub = 16 := rfl

/-- The staging array's contents once every tile has written its row: one whole-array function per device. -/
abbrev StageVal : Type := (d : Dev nD) → Buf (Elt F) (stLoc d)

variable (G : StageVal (F := F))

abbrev stRowPts (d : Dev nD) (r : Fin 32) (f : Buf (Elt F) (stLoc d)) : sProp 𝕄 := stLoc d ↦[stRow r]{fullShare} f

/-- What a duty hands over: in the round of tile 0 of a core, tile n's duty its row of the staging array, written; in the
    other tiles' rounds nothing. -/
def bPay (g : GSem nD τ sig) (n : ℕ) : sProp 𝕄 :=
  match g with
  | ((d, .scVector c j), _) =>
      if j.val = 0 then (if h : n < 16 then stRowPts d (tileNo (Fin.cast nSC_eq c) ⟨n, h⟩) (G d) else iprop(emp)) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay G g n
  amount_pos _ _ _ _ := Nat.one_pos

instance bRd_payload_storable (g : GSem nD τ sig) (r n : ℕ) : BI.Storable (upEmb : UEmb _ 𝕄) ((bRd (F := F) G).payload g r n) := by
  show BI.Storable upEmb (bPay G g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) G).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) G).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) G).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) G) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

end Cert.Kernel.SegSum

end
-- ==== Proof.KSegBody.lean ====
import proofs.«209885_g3178275799312_cont_8to1_b_553_16_alg».proof.Proof.KSegCommon

/-!
# One tile's task

The task of tile (c, i), at a symbolic place: the three fetches, the accumulation loop, the lane folds, the
row written to the staging array, the barrier (the row handed to tile 0's round), and on tile 0 the sum of
the core's sixteen rows written to the result's half.
-/

noncomputable section

namespace Cert.Kernel.SegSum

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (G : StageVal (F := F)) (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

abbrev dcell (d : Dev nD) (c : Fin τ.nSC) (i : Fin τ.nSub) (s : DmaSems sig S_) : GSem nD τ sig := (V d c i, .dma s.sem)

omit [FloatOps F] in
theorem ownSems0_V :
    (ownSems0 (V d (cV L) (jV L)) : sProp 𝕄)
      = iprop(semVal (dcell d (cV L) (jV L) cc0_scratch6) 0 ∗ semVal (dcell d (cV L) (jV L) cc0_scratch7) 0 ∗ semVal (dcell d (cV L) (jV L) cc0_scratch8) 0 ∗ semVal (dcell d (cV L) (jV L) cc0_scoped0) 0 ∗ semVal (dcell d (cV L) (jV L) cc0_scoped1) 0 ∗ semVal (dcell d (cV L) (jV L) cc0_scoped2) 0
          ∗ bigSep (((((((ownCells (V d (cV L) (jV L))).erase (dcell d (cV L) (jV L) cc0_scratch6)).erase (dcell d (cV L) (jV L) cc0_scratch7)).erase (dcell d (cV L) (jV L) cc0_scratch8)).erase (dcell d (cV L) (jV L) cc0_scoped0)).erase (dcell d (cV L) (jV L) cc0_scoped1)).erase (dcell d (cV L) (jV L) cc0_scoped2)) fun g => semVal g 0) := by
  unfold SparseCore.Cfg.ownSems0
  rw [SparseCore.bigSep_erase' (((mem_ownCells (g := (dcell d (cV L) (jV L) cc0_scratch6))).mpr ⟨rfl, by show (SemLoc.dma cc0_scratch6.sem : SemLoc sig).isScoped .scVector = true; decide⟩)),
    SparseCore.bigSep_erase' (Finset.mem_erase.mpr ⟨(fun e => absurd (congrArg (fun g : GSem nD τ sig => g.2) e) (show (SemLoc.dma cc0_scratch7.sem : SemLoc sig) ≠ SemLoc.dma cc0_scratch6.sem by decide)), ((mem_ownCells (g := (dcell d (cV L) (jV L) cc0_scratch7))).mpr ⟨rfl, by show (SemLoc.dma cc0_scratch7.sem : SemLoc sig).isScoped .scVector = true; decide⟩)⟩),
    SparseCore.bigSep_erase' (Finset.mem_erase.mpr ⟨(fun e => absurd (congrArg (fun g : GSem nD τ sig => g.2) e) (show (SemLoc.dma cc0_scratch8.sem : SemLoc sig) ≠ SemLoc.dma cc0_scratch7.sem by decide)), Finset.mem_erase.mpr ⟨(fun e => absurd (congrArg (fun g : GSem nD τ sig => g.2) e) (show (SemLoc.dma cc0_scratch8.sem : SemLoc sig) ≠ SemLoc.dma cc0_scratch6.sem by decide)), ((mem_ownCells (g := (dcell d (cV L) (jV L) cc0_scratch8))).mpr ⟨rfl, by show (SemLoc.dma cc0_scratch8.sem : SemLoc sig).isScoped .scVector = true; decide⟩)⟩⟩),
    SparseCore.bigSep_erase' (Finset.mem_erase.mpr ⟨(fun e => absurd (congrArg (fun g : GSem nD τ sig => g.2) e) (show (SemLoc.dma cc0_scoped0.sem : SemLoc sig) ≠ SemLoc.dma cc0_scratch8.sem by decide)), Finset.mem_erase.mpr ⟨(fun e => absurd (congrArg (fun g : GSem nD τ sig => g.2) e) (show (SemLoc.dma cc0_scoped0.sem : SemLoc sig) ≠ SemLoc.dma cc0_scratch7.sem by decide)), Finset.mem_erase.mpr ⟨(fun e => absurd (congrArg (fun g : GSem nD τ sig => g.2) e) (show (SemLoc.dma cc0_scoped0.sem : SemLoc sig) ≠ SemLoc.dma cc0_scratch6.sem by decide)), ((mem_ownCells (g := (dcell d (cV L) (jV L) cc0_scoped0))).mpr ⟨rfl, by show (SemLoc.dma cc0_scoped0.sem : SemLoc sig).isScoped .scVector = true; decide⟩)⟩⟩⟩),
    SparseCore.bigSep_erase' (Finset.mem_erase.mpr ⟨(fun e => absurd (congrArg (fun g : GSem nD τ sig => g.2) e) (show (SemLoc.dma cc0_scoped1.sem : SemLoc sig) ≠ SemLoc.dma cc0_scoped0.sem by decide)), Finset.mem_erase.mpr ⟨(fun e => absurd (congrArg (fun g : GSem nD τ sig => g.2) e) (show (SemLoc.dma cc0_scoped1.sem : SemLoc sig) ≠ SemLoc.dma cc0_scratch8.sem by decide)), Finset.mem_erase.mpr ⟨(fun e => absurd (congrArg (fun g : GSem nD τ sig => g.2) e) (show (SemLoc.dma cc0_scoped1.sem : SemLoc sig) ≠ SemLoc.dma cc0_scratch7.sem by decide)), Finset.mem_erase.mpr ⟨(fun e => absurd (congrArg (fun g : GSem nD τ sig => g.2) e) (show (SemLoc.dma cc0_scoped1.sem : SemLoc sig) ≠ SemLoc.dma cc0_scratch6.sem by decide)), ((mem_ownCells (g := (dcell d (cV L) (jV L) cc0_scoped1))).mpr ⟨rfl, by show (SemLoc.dma cc0_scoped1.sem : SemLoc sig).isScoped .scVector = true; decide⟩)⟩⟩⟩⟩),
    SparseCore.bigSep_erase' (Finset.mem_erase.mpr ⟨(fun e => absurd (congrArg (fun g : GSem nD τ sig => g.2) e) (show (SemLoc.dma cc0_scoped2.sem : SemLoc sig) ≠ SemLoc.dma cc0_scoped1.sem by decide)), Finset.mem_erase.mpr ⟨(fun e => absurd (congrArg (fun g : GSem nD τ sig => g.2) e) (show (SemLoc.dma cc0_scoped2.sem : SemLoc sig) ≠ SemLoc.dma cc0_scoped0.sem by decide)), Finset.mem_erase.mpr ⟨(fun e => absurd (congrArg (fun g : GSem nD τ sig => g.2) e) (show (SemLoc.dma cc0_scoped2.sem : SemLoc sig) ≠ SemLoc.dma cc0_scratch8.sem by decide)), Finset.mem_erase.mpr ⟨(fun e => absurd (congrArg (fun g : GSem nD τ sig => g.2) e) (show (SemLoc.dma cc0_scoped2.sem : SemLoc sig) ≠ SemLoc.dma cc0_scratch7.sem by decide)), Finset.mem_erase.mpr ⟨(fun e => absurd (congrArg (fun g : GSem nD τ sig => g.2) e) (show (SemLoc.dma cc0_scoped2.sem : SemLoc sig) ≠ SemLoc.dma cc0_scratch6.sem by decide)), ((mem_ownCells (g := (dcell d (cV L) (jV L) cc0_scoped2))).mpr ⟨rfl, by show (SemLoc.dma cc0_scoped2.sem : SemLoc sig).isScoped .scVector = true; decide⟩)⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  rw [SparseCore.bigSep_erase' ((SparseCore.Cfg.mem_ownRefs_of_owner (p := Proc.scVector (cV L) (jV L)) (b := ((Proc.scVector (cV L) (jV L)).devRef cc0_scratch0)) rfl)),
    SparseCore.bigSep_erase' (Finset.mem_erase.mpr ⟨(fun e => absurd (Proc.devRef_injective _ e) (show (cc0_scratch1 : Ref sig .scVector) ≠ cc0_scratch0 by decide)), (SparseCore.Cfg.mem_ownRefs_of_owner (p := Proc.scVector (cV L) (jV L)) (b := ((Proc.scVector (cV L) (jV L)).devRef cc0_scratch1)) rfl)⟩),
    SparseCore.bigSep_erase' (Finset.mem_erase.mpr ⟨(fun e => absurd (Proc.devRef_injective _ e) (show (cc0_scratch2 : Ref sig .scVector) ≠ cc0_scratch1 by decide)), Finset.mem_erase.mpr ⟨(fun e => absurd (Proc.devRef_injective _ e) (show (cc0_scratch2 : Ref sig .scVector) ≠ cc0_scratch0 by decide)), (SparseCore.Cfg.mem_ownRefs_of_owner (p := Proc.scVector (cV L) (jV L)) (b := ((Proc.scVector (cV L) (jV L)).devRef cc0_scratch2)) rfl)⟩⟩),
    SparseCore.bigSep_erase' (Finset.mem_erase.mpr ⟨(fun e => absurd (Proc.devRef_injective _ e) (show (cc0_scratch3 : Ref sig .scVector) ≠ cc0_scratch2 by decide)), Finset.mem_erase.mpr ⟨(fun e => absurd (Proc.devRef_injective _ e) (show (cc0_scratch3 : Ref sig .scVector) ≠ cc0_scratch1 by decide)), Finset.mem_erase.mpr ⟨(fun e => absurd (Proc.devRef_injective _ e) (show (cc0_scratch3 : Ref sig .scVector) ≠ cc0_scratch0 by decide)), (SparseCore.Cfg.mem_ownRefs_of_owner (p := Proc.scVector (cV L) (jV L)) (b := ((Proc.scVector (cV L) (jV L)).devRef cc0_scratch3)) rfl)⟩⟩⟩),
    SparseCore.bigSep_erase' (Finset.mem_erase.mpr ⟨(fun e => absurd (Proc.devRef_injective _ e) (show (cc0_scratch4 : Ref sig .scVector) ≠ cc0_scratch3 by decide)), Finset.mem_erase.mpr ⟨(fun e => absurd (Proc.devRef_injective _ e) (show (cc0_scratch4 : Ref sig .scVector) ≠ cc0_scratch2 by decide)), Finset.mem_erase.mpr ⟨(fun e => absurd (Proc.devRef_injective _ e) (show (cc0_scratch4 : Ref sig .scVector) ≠ cc0_scratch1 by decide)), Finset.mem_erase.mpr ⟨(fun e => absurd (Proc.devRef_injective _ e) (show (cc0_scratch4 : Ref sig .scVector) ≠ cc0_scratch0 by decide)), (SparseCore.Cfg.mem_ownRefs_of_owner (p := Proc.scVector (cV L) (jV L)) (b := ((Proc.scVector (cV L) (jV L)).devRef cc0_scratch4)) rfl)⟩⟩⟩⟩),
    SparseCore.bigSep_erase' (Finset.mem_erase.mpr ⟨(fun e => absurd (Proc.devRef_injective _ e) (show (cc0_scratch5 : Ref sig .scVector) ≠ cc0_scratch4 by decide)), Finset.mem_erase.mpr ⟨(fun e => absurd (Proc.devRef_injective _ e) (show (cc0_scratch5 : Ref sig .scVector) ≠ cc0_scratch3 by decide)), Finset.mem_erase.mpr ⟨(fun e => absurd (Proc.devRef_injective _ e) (show (cc0_scratch5 : Ref sig .scVector) ≠ cc0_scratch2 by decide)), Finset.mem_erase.mpr ⟨(fun e => absurd (Proc.devRef_injective _ e) (show (cc0_scratch5 : Ref sig .scVector) ≠ cc0_scratch1 by decide)), Finset.mem_erase.mpr ⟨(fun e => absurd (Proc.devRef_injective _ e) (show (cc0_scratch5 : Ref sig .scVector) ≠ cc0_scratch0 by decide)), (SparseCore.Cfg.mem_ownRefs_of_owner (p := Proc.scVector (cV L) (jV L)) (b := ((Proc.scVector (cV L) (jV L)).devRef cc0_scratch5)) rfl)⟩⟩⟩⟩⟩)]

/-! ## The arrays as the task slices them -/

abbrev stRowK (L : grid0.Coords) : Memref sig .scVector .hbm S16 .f32 :=
  (stV).slice (Rect.unit (s := S512) (k0_off6 L) S16.size (k0_off6_inb L)) (fun _ => rfl)
abbrev stHalfK (L : grid0.Coords) (h : k0_cond1 L = 1#1) : Memref sig .scVector .hbm S256 .f32 :=
  (stV).slice (Rect.unit (s := S512) (k0_off7 L) S256.size (k0_off7_inb L h)) (fun _ => rfl)
abbrev outHalfK (L : grid0.Coords) (h : k0_cond1 L = 1#1) : Memref sig .scVector .hbm S8 .f32 :=
  (outV).slice (Rect.unit (s := S16) (k0_off8 L) S8.size (k0_off8_inb L h)) (fun _ => rfl)

omit [FloatOps F] in
theorem set_stRowK : (stRowK L).view.set = stRow (tileNo (cL L) (jL L)) := by
  show ((View.whole (main_v0_1_scv : Ref sig .scVector)).slice _).set = _
  rw [View.set_slice_whole]
  exact unit_set_congr (by rw [k0_off6_eq]; exact congrArg (fun t => ![t]) (by show 256 * (L 0).val + 16 * (L 1).val = 16 * (16 * (L 0).val + (L 1).val); omega)) rfl
omit [FloatOps F] in
theorem set_stHalfK (h : k0_cond1 L = 1#1) : (stHalfK L h).view.set = stHalf (cL L) := by
  show ((View.whole (main_v0_1_scv : Ref sig .scVector)).slice _).set = _
  rw [View.set_slice_whole]
  exact unit_set_congr (by rw [k0_off7_eq]; rfl) rfl
omit [FloatOps F] in
theorem set_outHalfK (h : k0_cond1 L = 1#1) : (outHalfK L h).view.set = outHalf (cL L) := by
  show ((View.whole (main_v0_0_scv : Ref sig .scVector)).slice _).set = _
  rw [View.set_slice_whole]
  exact unit_set_congr (by rw [k0_off8_eq]; rfl) rfl

omit [FloatOps F] in
theorem pts_stRowK (f : Buf (Elt F) (stLoc d)) :
    ((stRowK L).view.loc (V d (cV L) (jV L)) ↦[(stRowK L).view.set]{fullShare} f : sProp 𝕄) = stRowPts d (tileNo (cL L) (jL L)) f := by
  unfold stRowPts; rw [set_stRowK]
omit [FloatOps F] in
theorem pts_stHalfK (h : k0_cond1 L = 1#1) (f : Buf (Elt F) (stLoc d)) :
    ((stHalfK L h).view.loc (V d (cV L) (jV L)) ↦[(stHalfK L h).view.set]{fullShare} f : sProp 𝕄) = stLoc d ↦[stHalf (cL L)]{fullShare} f := by
  rw [set_stHalfK]
omit [FloatOps F] in
theorem pts_outHalfK (h : k0_cond1 L = 1#1) (f : Buf (Elt F) (outLoc d)) :
    ((outHalfK L h).view.loc (V d (cV L) (jV L)) ↦[(outHalfK L h).view.set]{fullShare} f : sProp 𝕄) = outLoc d ↦[outHalf (cL L)]{fullShare} f := by
  rw [set_outHalfK]
omit [FloatOps F] in
theorem pts_neV (q : PosShare TreeShare) (f : Buf (Elt F) (neLoc d)) :
    ((neV).view.loc (V d (cV L) (jV L)) ↦{q} f : sProp 𝕄) = neLoc d ↦{q} f := rfl
omit [FloatOps F] in
theorem pts_lgV (q : PosShare TreeShare) (f : Buf (Elt F) (lgLoc d)) :
    ((lgV).view.loc (V d (cV L) (jV L)) ↦{q} f : sProp 𝕄) = lgLoc d ↦{q} f := rfl
omit [FloatOps F] in
theorem pts_sgV (q : PosShare TreeShare) (f : Buf (Elt F) (sgLoc d)) :
    ((sgV).view.loc (V d (cV L) (jV L)) ↦{q} f : sProp 𝕄) = sgLoc d ↦{q} f := rfl

omit [FloatOps F] in
theorem pts_s0V (f : Buf (Elt F) ((V d (cV L) (jV L)).loc cc0_scratch0)) :
    ((s0V).view.loc (V d (cV L) (jV L)) ↦{fullShare} f : sProp 𝕄) = (V d (cV L) (jV L)).loc cc0_scratch0 ↦{fullShare} f := rfl
omit [FloatOps F] in
theorem pts_s1V (f : Buf (Elt F) ((V d (cV L) (jV L)).loc cc0_scratch1)) :
    ((s1V).view.loc (V d (cV L) (jV L)) ↦{fullShare} f : sProp 𝕄) = (V d (cV L) (jV L)).loc cc0_scratch1 ↦{fullShare} f := rfl
omit [FloatOps F] in
theorem pts_s2V (f : Buf (Elt F) ((V d (cV L) (jV L)).loc cc0_scratch2)) :
    ((s2V).view.loc (V d (cV L) (jV L)) ↦{fullShare} f : sProp 𝕄) = (V d (cV L) (jV L)).loc cc0_scratch2 ↦{fullShare} f := rfl
omit [FloatOps F] in
theorem pts_s3V (f : Buf (Elt F) ((V d (cV L) (jV L)).loc cc0_scratch3)) :
    ((s3V).view.loc (V d (cV L) (jV L)) ↦{fullShare} f : sProp 𝕄) = (V d (cV L) (jV L)).loc cc0_scratch3 ↦{fullShare} f := rfl
omit [FloatOps F] in
theorem pts_s4V (f : Buf (Elt F) ((V d (cV L) (jV L)).loc cc0_scratch4)) :
    ((s4V).view.loc (V d (cV L) (jV L)) ↦{fullShare} f : sProp 𝕄) = (V d (cV L) (jV L)).loc cc0_scratch4 ↦{fullShare} f := rfl
omit [FloatOps F] in
theorem pts_s5V (f : Buf (Elt F) ((V d (cV L) (jV L)).loc cc0_scratch5)) :
    ((s5V).view.loc (V d (cV L) (jV L)) ↦{fullShare} f : sProp 𝕄) = (V d (cV L) (jV L)).loc cc0_scratch5 ↦{fullShare} f := rfl

omit [FloatOps F] in
theorem pts_s4V_access (f : Buf (Elt F) ((V d (cV L) (jV L)).loc cc0_scratch4)) :
    (((s4V).access (.whole S8x16)).loc (V d (cV L) (jV L)) ↦{fullShare} f : sProp 𝕄) = ((s4V).view.loc (V d (cV L) (jV L)) ↦{fullShare} f) := rfl

omit [FloatOps F] in
/-- The branch after the barrier is taken on tile 0 only. -/
theorem k0_cond1_iff : ∀ L : grid0.Coords, k0_cond1 L = 1#1 ↔ (L 1).val = 0 := by decide +kernel

variable (Gout : (d : Dev nD) → Buf (Elt F) (outLoc d))

/-- What a task is handed: its read shares of the inputs, its row of the staging array, and on tile 0 the core's half
    of the result. -/
def goRes (q : PosShare TreeShare) (c : Fin 2) (i : Fin 16) : sProp 𝕄 :=
  iprop(((neLoc d ↦{q} m (neLoc d)) ∗ (lgLoc d ↦{q} m (lgLoc d)) ∗ (sgLoc d ↦{q} m (sgLoc d)))
    ∗ stRowPts d (tileNo c i) (m (stLoc d))
    ∗ (if i.val = 0 then outLoc d ↦[outHalf c]{fullShare} m (outLoc d) else iprop(emp)))
/-- What it hands back: the read shares, and on tile 0 the result's half at its sums and the core's half of the staging
    array, all rows written. -/
def tdRes (q : PosShare TreeShare) (c : Fin 2) (i : Fin 16) : sProp 𝕄 :=
  iprop(((neLoc d ↦{q} m (neLoc d)) ∗ (lgLoc d ↦{q} m (lgLoc d)) ∗ (sgLoc d ↦{q} m (sgLoc d)))
    ∗ (if i.val = 0 then iprop((outLoc d ↦[outHalf c]{fullShare} Gout d) ∗ stLoc d ↦[stHalf c]{fullShare} G d) else iprop(emp)))

/-- Before the barrier, the tile's written row is what its duties hand over: tile 0's round the row, the others nothing. -/
theorem pays_intro : stRowPts d (tileNo (cL L) (jL L)) (G d)
    ⊢ (bigSep Finset.univ fun j : Fin (grid0.bound 1) => (bRd (F := F) G).payload (bcell d (cV L) (j.castLE hsub0)) 0 (jV L).val : sProp 𝕄) := by
  let j₀ : Fin (grid0.bound 1) := ⟨0, by decide⟩
  rw [SparseCore.bigSep_erase' (Finset.mem_univ j₀),
    show (bigSep (Finset.univ.erase j₀) fun j : Fin (grid0.bound 1) => (bRd (F := F) G).payload (bcell d (cV L) (j.castLE hsub0)) 0 (jV L).val)
      = bigSep (Finset.univ.erase j₀) fun _ => (iprop(emp) : sProp 𝕄) from
      bigSep_congr fun j hj => if_neg fun h => (Finset.mem_erase.mp hj).1 (Fin.ext h), bigSep_emp']
  have e : (bRd (F := F) G).payload (bcell d (cV L) (j₀.castLE hsub0)) 0 (jV L).val = stRowPts d (tileNo (cL L) (jL L)) (G d) := by
    show bPay G (bcell d (cV L) (j₀.castLE hsub0)) (jV L).val = _
    unfold bPay; dsimp only
    rw [if_pos (show (Fin.castLE hsub0 j₀).val = 0 from rfl), dif_pos (show (jV L).val < 16 from (jV L).isLt)]
    rfl
  rw [e]
  iintro H
  isplitl [H]
  · iexact H
  · iempintro

/-- After it, tile 0's own round collected the sixteen rows of its core. -/
theorem pays_elim (h0 : (L 1).val = 0) : (bigSep ((bRd (F := F) G).duties (bcell d (cV L) (jV L)) 0 \ ∅) fun n => (bRd (F := F) G).payload (bcell d (cV L) (jV L)) 0 n)
    ⊢ (bigSep Finset.univ fun i : Fin 16 => stRowPts d (tileNo (cL L) i) (G d) : sProp 𝕄) := by
  rw [Finset.sdiff_empty, bRd_duties₀, SparseCore.bigSep_image_of_injOn (fun a _ b _ e => Fin.val_injective e)]
  refine Entails.of_eq (bigSep_congr fun i _ => ?_)
  show bPay G (bcell d (cV L) (jV L)) i.val = _
  unfold bPay; dsimp only
  rw [if_pos (show (jV L).val = 0 from h0), dif_pos (show i.val < 16 from i.isLt)]
  rfl

/-- The three inputs, each under the read share q. -/
abbrev ins (q : PosShare TreeShare) : sProp 𝕄 :=
  iprop((neLoc d ↦{q} m (neLoc d)) ∗ (lgLoc d ↦{q} m (lgLoc d)) ∗ (sgLoc d ↦{q} m (sgLoc d)))

abbrev neChunkK (L : grid0.Coords) : Memref sig .scVector .hbm S6256 .f32 :=
  (neV).slice (Rect.unit (s := S100000) (k0_off1 L) S6256.size (k0_off1_inb L)) (fun _ => rfl)
abbrev lgChunkK (L : grid0.Coords) : Memref sig .scVector .hbm S6256 .f32 :=
  (lgV).slice (Rect.unit (s := S100000) (k0_off1 L) S6256.size (k0_off1_inb L)) (fun _ => rfl)
abbrev sgChunkK (L : grid0.Coords) : Memref sig .scVector .hbm S6256 .i32 :=
  (sgV).slice (Rect.unit (s := S100000) (k0_off1 L) S6256.size (k0_off1_inb L)) (fun _ => rfl)

/-- The tile's chunks of the three inputs, as its scratch holds them after the fetches. -/
def cNe : Buf (Elt F) ((V d (cV L) (jV L)).loc cc0_scratch0) := (neChunkK L).view.read (Elt F) (m (neLoc d))
def cLg : Buf (Elt F) ((V d (cV L) (jV L)).loc cc0_scratch1) := (lgChunkK L).view.read (Elt F) (m (lgLoc d))
def cSg : Buf (Elt F) ((V d (cV L) (jV L)).loc cc0_scratch2) := (sgChunkK L).view.read (Elt F) (m (sgLoc d))

abbrev Acc8 (F : FTy → Type) : Type := FVec F S16 .f32 × FVec F S16 .f32 × FVec F S16 .f32 × FVec F S16 .f32 × FVec F S16 .f32 × FVec F S16 .f32 × FVec F S16 .f32 × FVec F S16 .f32

/-- Sixteen consecutive words of a chunk, from word off. -/
abbrev ldNe (off : Fin 1 → Nat) (h : ∀ a, off a + S16.size a ≤ S6256.size a) : Vec F S16 .f32 :=
  View.readAt (Elt F) (s0V).view (Rect.unit (s := S6256) off S16.size h).toLoadRect (cNe m d L)
abbrev ldLg (off : Fin 1 → Nat) (h : ∀ a, off a + S16.size a ≤ S6256.size a) : Vec F S16 .f32 :=
  View.readAt (Elt F) (s1V).view (Rect.unit (s := S6256) off S16.size h).toLoadRect (cLg m d L)
abbrev ldSg (off : Fin 1 → Nat) (h : ∀ a, off a + S16.size a ≤ S6256.size a) : Vec F S16 .i32 :=
  View.readAt (Elt F) (s2V).view (Rect.unit (s := S6256) off S16.size h).toLoadRect (cSg m d L)

/-- The first of the core's eight segments, as a word. -/
abbrev seg0 (L : grid0.Coords) : BitVec 32 := Scalar.muli (BitVec.ofNat 32 (L 0).val) 8#32

/-- One trip of the loop: two vectors of sixteen words, each added into the eight lane accumulators where its segment
    id is the accumulator's. -/
def accStep (t : Fin (k0_t1_loop L).trips) (a : Acc8 F) : Acc8 F :=
  (k0_pay22 L (k0_pay2 (k0_pay20 (F := F)) (seg0 L) a.1 (ldNe m d L (k0_off2 L t) (k0_off2_inb L t)) (ldLg m d L (k0_off2 L t) (k0_off2_inb L t)) (ldSg m d L (k0_off2 L t) (k0_off2_inb L t)))
      (ldNe m d L (k0_off3 L t) (k0_off3_inb L t)) (ldLg m d L (k0_off3 L t) (k0_off3_inb L t)) (ldSg m d L (k0_off3 L t) (k0_off3_inb L t)),
   k0_pay23 L (k0_pay3 (k0_pay20 (F := F)) (seg0 L) a.2.1 (ldNe m d L (k0_off2 L t) (k0_off2_inb L t)) (ldLg m d L (k0_off2 L t) (k0_off2_inb L t)) (ldSg m d L (k0_off2 L t) (k0_off2_inb L t)))
      (ldNe m d L (k0_off3 L t) (k0_off3_inb L t)) (ldLg m d L (k0_off3 L t) (k0_off3_inb L t)) (ldSg m d L (k0_off3 L t) (k0_off3_inb L t)),
   k0_pay24 L (k0_pay4 (k0_pay20 (F := F)) (seg0 L) a.2.2.1 (ldNe m d L (k0_off2 L t) (k0_off2_inb L t)) (ldLg m d L (k0_off2 L t) (k0_off2_inb L t)) (ldSg m d L (k0_off2 L t) (k0_off2_inb L t)))
      (ldNe m d L (k0_off3 L t) (k0_off3_inb L t)) (ldLg m d L (k0_off3 L t) (k0_off3_inb L t)) (ldSg m d L (k0_off3 L t) (k0_off3_inb L t)),
   k0_pay25 L (k0_pay5 (k0_pay20 (F := F)) (seg0 L) a.2.2.2.1 (ldNe m d L (k0_off2 L t) (k0_off2_inb L t)) (ldLg m d L (k0_off2 L t) (k0_off2_inb L t)) (ldSg m d L (k0_off2 L t) (k0_off2_inb L t)))
      (ldNe m d L (k0_off3 L t) (k0_off3_inb L t)) (ldLg m d L (k0_off3 L t) (k0_off3_inb L t)) (ldSg m d L (k0_off3 L t) (k0_off3_inb L t)),
   k0_pay26 L (k0_pay6 (k0_pay20 (F := F)) (seg0 L) a.2.2.2.2.1 (ldNe m d L (k0_off2 L t) (k0_off2_inb L t)) (ldLg m d L (k0_off2 L t) (k0_off2_inb L t)) (ldSg m d L (k0_off2 L t) (k0_off2_inb L t)))
      (ldNe m d L (k0_off3 L t) (k0_off3_inb L t)) (ldLg m d L (k0_off3 L t) (k0_off3_inb L t)) (ldSg m d L (k0_off3 L t) (k0_off3_inb L t)),
   k0_pay27 L (k0_pay7 (k0_pay20 (F := F)) (seg0 L) a.2.2.2.2.2.1 (ldNe m d L (k0_off2 L t) (k0_off2_inb L t)) (ldLg m d L (k0_off2 L t) (k0_off2_inb L t)) (ldSg m d L (k0_off2 L t) (k0_off2_inb L t)))
      (ldNe m d L (k0_off3 L t) (k0_off3_inb L t)) (ldLg m d L (k0_off3 L t) (k0_off3_inb L t)) (ldSg m d L (k0_off3 L t) (k0_off3_inb L t)),
   k0_pay28 L (k0_pay8 (k0_pay20 (F := F)) (seg0 L) a.2.2.2.2.2.2.1 (ldNe m d L (k0_off2 L t) (k0_off2_inb L t)) (ldLg m d L (k0_off2 L t) (k0_off2_inb L t)) (ldSg m d L (k0_off2 L t) (k0_off2_inb L t)))
      (ldNe m d L (k0_off3 L t) (k0_off3_inb L t)) (ldLg m d L (k0_off3 L t) (k0_off3_inb L t)) (ldSg m d L (k0_off3 L t) (k0_off3_inb L t)),
   k0_pay29 L (k0_pay9 (k0_pay20 (F := F)) (seg0 L) a.2.2.2.2.2.2.2 (ldNe m d L (k0_off2 L t) (k0_off2_inb L t)) (ldLg m d L (k0_off2 L t) (k0_off2_inb L t)) (ldSg m d L (k0_off2 L t) (k0_off2_inb L t)))
      (ldNe m d L (k0_off3 L t) (k0_off3_inb L t)) (ldLg m d L (k0_off3 L t) (k0_off3_inb L t)) (ldSg m d L (k0_off3 L t) (k0_off3_inb L t)))

/-- The accumulators after n trips. -/
def accIter : Nat → Acc8 F
  | 0 => (k0_pay20 (F := F), k0_pay20 (F := F), k0_pay20 (F := F), k0_pay20 (F := F), k0_pay20 (F := F), k0_pay20 (F := F), k0_pay20 (F := F), k0_pay20 (F := F))
  | n + 1 => if h : n < (k0_t1_loop L).trips then accStep m d L ⟨n, h⟩ (accIter n) else accIter n

theorem accIter_zero : accIter m d L 0 = (k0_pay20 (F := F), k0_pay20 (F := F), k0_pay20 (F := F), k0_pay20 (F := F), k0_pay20 (F := F), k0_pay20 (F := F), k0_pay20 (F := F), k0_pay20 (F := F)) := rfl
theorem accIter_succ (n : Nat) (h : n < (k0_t1_loop L).trips) : accIter m d L (n + 1) = accStep m d L ⟨n, h⟩ (accIter m d L n) := by
  rw [accIter, dif_pos h]
attribute [irreducible] accIter

def inv (k : Nat) (acc : Acc8 F) : sProp 𝕄 :=
  iprop(((s0V).view.loc (V d (cV L) (jV L)) ↦{fullShare} cNe m d L)
    ∗ ((s1V).view.loc (V d (cV L) (jV L)) ↦{fullShare} cLg m d L)
    ∗ ((s2V).view.loc (V d (cV L) (jV L)) ↦{fullShare} cSg m d L)
    ∗ ⌜acc = accIter m d L k⌝)

omit [FloatOps F] in
theorem trips2_zero : Scf.trips (k0_t2_loop L).lb (k0_t2_loop L).ub (k0_t2_loop L).st = 0 := Nat.le_zero.mp (k0_t2_abs L).2.1

/-! ## What the tile computes, as terms of its scratch contents -/

/-- The last sixteen words of the chunks: the vector the loop leaves for after it. -/
abbrev tNe : Vec F S16 .f32 := ldNe m d L ![6240] inb_S6256_S16_6240
abbrev tLg : Vec F S16 .f32 := ldLg m d L ![6240] inb_S6256_S16_6240
abbrev tSg : Vec F S16 .i32 := ldSg m d L ![6240] inb_S6256_S16_6240

/-- The eight lane accumulators after the last vector: row g holds, per lane, the sum for segment 8c + g. -/
def accRow (acc : Acc8 F) : Fin 8 → FVec F S16 .f32
  | 0 => k0_pay40 L acc.1 (tNe m d L) (tLg m d L) (tSg m d L)
  | 1 => k0_pay42 (k0_pay20 (F := F)) acc.2.1 (k0_pay39 (tNe m d L) (tLg m d L)) (tSg m d L) (k0_pay41 L)
  | 2 => k0_pay43 (k0_pay20 (F := F)) (seg0 L) acc.2.2.1 (k0_pay39 (tNe m d L) (tLg m d L)) (tSg m d L)
  | 3 => k0_pay44 (k0_pay20 (F := F)) (seg0 L) acc.2.2.2.1 (k0_pay39 (tNe m d L) (tLg m d L)) (tSg m d L)
  | 4 => k0_pay45 (k0_pay20 (F := F)) (seg0 L) acc.2.2.2.2.1 (k0_pay39 (tNe m d L) (tLg m d L)) (tSg m d L)
  | 5 => k0_pay46 (k0_pay20 (F := F)) (seg0 L) acc.2.2.2.2.2.1 (k0_pay39 (tNe m d L) (tLg m d L)) (tSg m d L)
  | 6 => k0_pay47 (k0_pay20 (F := F)) (seg0 L) acc.2.2.2.2.2.2.1 (k0_pay39 (tNe m d L) (tLg m d L)) (tSg m d L)
  | 7 => k0_pay48 (k0_pay20 (F := F)) (seg0 L) acc.2.2.2.2.2.2.2 (k0_pay39 (tNe m d L) (tLg m d L)) (tSg m d L)

/-- The eight row stores into the 8×16 scratch, newest first. -/
def pieces8 (acc : Acc8 F) : List (View.Piece (Elt F) S8x16 .f32) :=
  [⟨Rect.unit ![7, 0] S1x16.size inb_S8x16_S1x16_7_0, shapeCast S1x16 (accRow m d L acc 7) shapeCasts_S16_S1x16⟩,
   ⟨Rect.unit ![6, 0] S1x16.size inb_S8x16_S1x16_6_0, shapeCast S1x16 (accRow m d L acc 6) shapeCasts_S16_S1x16⟩,
   ⟨Rect.unit ![5, 0] S1x16.size inb_S8x16_S1x16_5_0, shapeCast S1x16 (accRow m d L acc 5) shapeCasts_S16_S1x16⟩,
   ⟨Rect.unit ![4, 0] S1x16.size inb_S8x16_S1x16_4_0, shapeCast S1x16 (accRow m d L acc 4) shapeCasts_S16_S1x16⟩,
   ⟨Rect.unit ![3, 0] S1x16.size inb_S8x16_S1x16_3_0, shapeCast S1x16 (accRow m d L acc 3) shapeCasts_S16_S1x16⟩,
   ⟨Rect.unit ![2, 0] S1x16.size inb_S8x16_S1x16_2_0, shapeCast S1x16 (accRow m d L acc 2) shapeCasts_S16_S1x16⟩,
   ⟨Rect.unit ![1, 0] S1x16.size inb_S8x16_S1x16_1_0, shapeCast S1x16 (accRow m d L acc 1) shapeCasts_S16_S1x16⟩,
   ⟨Rect.unit ![0, 0] S1x16.size inb_S8x16_S1x16_0_0, shapeCast S1x16 (accRow m d L acc 0) shapeCasts_S16_S1x16⟩]

/-- The 8×16 scratch as the indexed loads read it. -/
def matOf (f4 : Buf (Elt F) ((V d (cV L) (jV L)).loc cc0_scratch4)) (acc : Acc8 F) : Vec F S8x16 .f32 :=
  View.read (Elt F) ((s4V).access (Rect.whole S8x16)) ((s4V).view.writes (Elt F) f4 (pieces8 m d L acc))

omit [FloatOps F] in
/-- Rows lane & 7, column l: inside the 8×16 scratch. -/
theorem gidx_inb (l : BitVec 32) (hl : l.toNat < 16) : ∀ a x, ((![k0_pay49, broadcast S16 l] : Fin 2 → IVec S16 32) a x).toNat < S8x16.size a := by
  intro a x
  match a with
  | 0 =>
    show (k0_pay49 x).toNat < 8
    unfold k0_pay49
    show ((iota .scVector S16 32 [0] iota_S16_d0_w32_scVector x) &&& 7#32).toNat < 8
    rw [BitVec.toNat_and]
    exact Nat.lt_of_le_of_lt Nat.and_le_right (by decide)
  | 1 => exact hl

/-- Column l of the scratch gathered at rows lane & 7. -/
def gath (f4 : Buf (Elt F) ((V d (cV L) (jV L)).loc cc0_scratch4)) (acc : Acc8 F) (l : Fin 16) : Vec F S16 .f32 :=
  loadIdx (matOf m d L f4 acc) ![k0_pay49, broadcast S16 (BitVec.ofNat 32 l.val)] (gidx_inb _ (by have := l.isLt; rw [BitVec.toNat_ofNat]; omega))

/-- The tile's 16-word row: lane j the sum over the sixteen columns of row j & 7. -/
def rowOf (f4 : Buf (Elt F) ((V d (cV L) (jV L)).loc cc0_scratch4)) (acc : Acc8 F) : FVec F S16 .f32 :=
  k0_pay51 (k0_pay50 (k0_pay20 (F := F)) (gath m d L f4 acc 0) (gath m d L f4 acc 1) (gath m d L f4 acc 2) (gath m d L f4 acc 3) (gath m d L f4 acc 4))
    (gath m d L f4 acc 5) (gath m d L f4 acc 6) (gath m d L f4 acc 7) (gath m d L f4 acc 8) (gath m d L f4 acc 9) (gath m d L f4 acc 10)
    (gath m d L f4 acc 11) (gath m d L f4 acc 12) (gath m d L f4 acc 13) (gath m d L f4 acc 14) (gath m d L f4 acc 15)

/-- The one store of the row into the 16-word scratch. -/
def rowPieces (f4 : Buf (Elt F) ((V d (cV L) (jV L)).loc cc0_scratch4)) (acc : Acc8 F) : List (View.Piece (Elt F) S16 .f32) :=
  [⟨Rect.unit ![0] S16.size inb_S16_S16_0, rowOf m d L f4 acc⟩]

/-- What the copy to the staging array carries: the 16-word scratch read back. -/
def rowDma (acc : Acc8 F) (f3 : Buf (Elt F) ((V d (cV L) (jV L)).loc cc0_scratch3)) (f4 : Buf (Elt F) ((V d (cV L) (jV L)).loc cc0_scratch4)) : S16.Idx → Elt F .f32 :=
  ReadAs.same.apply (View.read (Elt F) (s3V).view ((s3V).view.writes (Elt F) f3 (rowPieces m d L f4 acc)))

/-- The core's half of the staging array as tile 0 fetches it. -/
def halfRead (hc : k0_cond1 L = 1#1) : S256.Idx → Elt F .f32 :=
  ReadAs.same.apply (View.read (Elt F) (stHalfK L hc).view (G d))

abbrev ldSt (hc : k0_cond1 L = 1#1) (f5 : Buf (Elt F) ((V d (cV L) (jV L)).loc cc0_scratch5)) (off : Fin 1 → Nat) (h : ∀ a, off a + S16.size a ≤ S256.size a) : Vec F S16 .f32 :=
  View.readAt (Elt F) (s5V).view (Rect.unit (s := S256) off S16.size h).toLoadRect (View.write (Elt F) (s5V).view f5 (halfRead G d L hc) Finset.univ)

/-- The sum of the sixteen staged rows. -/
def sumOf (hc : k0_cond1 L = 1#1) (f5 : Buf (Elt F) ((V d (cV L) (jV L)).loc cc0_scratch5)) : FVec F S16 .f32 :=
  k0_pay19 (ldSt G d L hc f5 ![0] inb_S256_S16_0) (ldSt G d L hc f5 ![16] inb_S256_S16_16) (ldSt G d L hc f5 ![32] inb_S256_S16_32) (ldSt G d L hc f5 ![48] inb_S256_S16_48)
    (ldSt G d L hc f5 ![64] inb_S256_S16_64) (ldSt G d L hc f5 ![80] inb_S256_S16_80) (ldSt G d L hc f5 ![96] inb_S256_S16_96) (ldSt G d L hc f5 ![112] inb_S256_S16_112)
    (ldSt G d L hc f5 ![128] inb_S256_S16_128) (ldSt G d L hc f5 ![144] inb_S256_S16_144) (ldSt G d L hc f5 ![160] inb_S256_S16_160) (ldSt G d L hc f5 ![176] inb_S256_S16_176)
    (ldSt G d L hc f5 ![192] inb_S256_S16_192) (ldSt G d L hc f5 ![208] inb_S256_S16_208) (ldSt G d L hc f5 ![224] inb_S256_S16_224) (ldSt G d L hc f5 ![240] inb_S256_S16_240)

/-- The first eight words of the 16-word scratch, as the last copy slices it. -/
abbrev s3HeadK : Memref sig .scVector .vmem S8 .f32 := (s3V).slice (Rect.unit (s := S16) ![0] S8.size inb_S16_S8_0) (fun _ => rfl)

/-- What the copy to the result carries. -/
def outDma (acc : Acc8 F) (hc : k0_cond1 L = 1#1) (f3 : Buf (Elt F) ((V d (cV L) (jV L)).loc cc0_scratch3)) (f4 : Buf (Elt F) ((V d (cV L) (jV L)).loc cc0_scratch4))
    (f5 : Buf (Elt F) ((V d (cV L) (jV L)).loc cc0_scratch5)) : S8.Idx → Elt F .f32 :=
  ReadAs.same.apply (View.read (Elt F) (s3HeadK).view ((s3V).view.writes (Elt F) f3
    ((⟨Rect.unit ![0] S16.size inb_S16_S16_0, sumOf G d L hc f5⟩ : View.Piece (Elt F) S16 .f32) :: rowPieces m d L f4 acc)))

/-- What the two whole-array functions must be at this tile: the staging array's row what the tile's copy lands there, and
    on tile 0 the result's half what the last copy lands there — whatever the scratch held before. -/
structure TileSpec : Prop where
  row : ∀ acc, acc = accIter m d L (k0_t1_loop L).trips → ∀ f3 f4, ∀ i ∈ (stRowK L).view.set,
    (stRowK L).view.writes (Elt F) (m (stLoc d)) [⟨Rect.whole S16, rowDma m d L acc f3 f4⟩] i = G d i
  out : ∀ acc, acc = accIter m d L (k0_t1_loop L).trips → ∀ (hc : k0_cond1 L = 1#1) f3 f4 f5, ∀ i ∈ (outHalfK L hc).view.set,
    (outHalfK L hc).view.writes (Elt F) (m (outLoc d)) [⟨Rect.whole S8, outDma m G d L acc hc f3 f4 f5⟩] i = Gout d i

set_option maxHeartbeats 4000000 in
/-- The task on tile (L 0, L 1) of device d: the fetches and their waits, the loop by its invariant, the stores and the
    sixteen indexed loads, the row copied to the staging array and waited for, the barrier (the row handed to tile 0's
    round), and on tile 0 the core's half fetched, summed and its first eight words copied to the result. -/
theorem tile_body (hF : (K (F := F)).Facts) (hS : TileSpec m G d L Gout) (q : PosShare TreeShare) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit G d (cV L) (jV L)
        ∗ goRes m d q (cL L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__seg_sum_body L neV (Memref.isWhole_whole _) lgV (Memref.isWhole_whole _) sgV (Memref.isWhole_whole _) outV (Memref.isWhole_whole _)
            stV (Memref.isWhole_whole _) s0V (Memref.isWhole_whole _) s1V (Memref.isWhole_whole _) s2V (Memref.isWhole_whole _)
            s3V (Memref.isWhole_whole _) s4V (Memref.isWhole_whole _) s5V (Memref.isWhole_whole _)
            cc0_scratch6 cc0_scratch7 cc0_scratch8 cc0_scoped0 cc0_scoped1 cc0_scoped2)
          fun _ => iprop(tdRes m G d Gout q (cL L) (jL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__seg_sum_body_eq_skeleton]; unfold cc0__seg_sum_body_skel
  rw [(K (F := F)).scopedBufs_V hF d (cV L) (jV L), SparseCore.Cfg.scopedSems0_V (Val := Elt F) d (cV L) (jV L), ownSems0_V, ownBufs_V]
  unfold bkit goRes tdRes
  iintro ⟨#Hlv, ⟨⟨%κ, #Hinv⟩, Htoks, #Hrch, Hat, Hcred⟩, ⟨⟨Hne, Hlg, Hsg⟩, Hst, Hout⟩,
    ⟨⟨%f0, H0⟩, ⟨%f1, H1⟩, ⟨%f2, H2⟩, ⟨%f3, H3⟩, ⟨%f4, H4⟩, ⟨%f5, H5⟩, Hbufs⟩, ⟨Hs6, Hs7, Hs8, Hs9, Hs10, Hs11, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hne' := (Entails.of_eq (pts_neV (F := F) d L q _).symm) $$ Hne
  ihave Hlg' := (Entails.of_eq (pts_lgV (F := F) d L q _).symm) $$ Hlg
  ihave Hsg' := (Entails.of_eq (pts_sgV (F := F) d L q _).symm) $$ Hsg
  ihave Hst' := (Entails.of_eq (pts_stRowK (F := F) d L _).symm) $$ Hst
  ihave H0' := (Entails.of_eq (pts_s0V (F := F) d L _).symm) $$ H0
  ihave H1' := (Entails.of_eq (pts_s1V (F := F) d L _).symm) $$ H1
  ihave H2' := (Entails.of_eq (pts_s2V (F := F) d L _).symm) $$ H2
  ihave H3' := (Entails.of_eq (pts_s3V (F := F) d L _).symm) $$ H3
  ihave H4' := (Entails.of_eq (pts_s4V (F := F) d L _).symm) $$ H4
  ihave H5' := (Entails.of_eq (pts_s5V (F := F) d L _).symm) $$ H5
  -- the three fetches and their waits
  sl_exec
  -- the loop
  sl_for (inv m d L) $$ [H0' H1' H2']
  case region =>
    intro k hk
    unfold inv
    iintro ⟨H0, H1, H2, %hacc⟩
    sl_exec
    sl_step
    isplitl [H0]; · iexact H0
    isplitl [H1]; · iexact H1
    isplitl [H2]; · iexact H2
    ipureintro
    rw [accIter_succ m d L k.val k.isLt, ← hacc]
    rfl
  · unfold inv
    rw [View.write_whole_univ, View.write_whole_univ, View.write_whole_univ]
    isplitl [H0']; · iexact H0'
    isplitl [H1']; · iexact H1'
    isplitl [H2']; · iexact H2'
    ipureintro; exact (accIter_zero m d L).symm
  iintro %acc HI
  unfold inv
  icases HI with ⟨H0, H1, H2, %hacc⟩
  have htr2 := trips2_zero L
  -- the last vector, the eight rows stored, the first index check
  sl_exec
  -- the sixteen indexed loads, each a load of the whole 8×16 scratch
  ihave H4a := (Entails.of_eq (pts_s4V_access (F := F) d L _).symm) $$ H4'
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  -- the written row is the whole-array function's
  ihave Hst'' := (Entails.of_eq (pointsTo_congr (q := fullShare) (hS.row acc hacc f3 f4))) $$ Hst'
  -- the barrier: the row handed to tile 0's round
  ihave Hpays := ((Entails.of_eq (pts_stRowK (F := F) d L _)).trans (pays_intro (F := F) G d L)) $$ Hst''
  iapply (SparseCore.wp_subcoreBarrier 𝒱₀ none EB (bRd (F := F) G) d (sc := cV L) (i := jV L) sc_bar0 (grid0.bound 1) hsub0 (L 1) rfl κ (fun _ => 0) (jV L).val
      (fun j => bRd_mem₀ G d _ _ _) (fun _ => rfl) (bRd_expect G d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  by_cases h0 : (L 1).val = 0
  · have hc : k0_cond1 L = 1#1 := (k0_cond1_iff L).mpr h0
    ihave Hout0 := (Entails.of_eq (if_pos (show (jL L).val = 0 from h0))) $$ Hout
    ihave Hrows := (pays_elim (F := F) G d L h0) $$ Hgot
    -- the sixteen rows are the core's half of the staging array
    ihave Hhalf := (Entails.of_eq ((pointsTo_biUnion (q := fullShare) (f := G d) (Finset.univ : Finset (Fin 16)) (fun i => stRow (tileNo (cL L) i)) (stHalf_rows_disjoint (cL L))).symm.trans
      ((congrArg (fun S => (stLoc d ↦[S]{fullShare} G d : sProp 𝕄)) (stHalf_rows (cL L))).trans (pts_stHalfK (F := F) d L hc (G d)).symm))) $$ Hrows
    ihave Hout' := (Entails.of_eq (pts_outHalfK (F := F) d L hc _).symm) $$ Hout0
    -- the half fetched, its sixteen rows added, the first eight sums copied out
    sl_exec
    ihave Hout1 := (Entails.of_eq (pointsTo_congr (q := fullShare) (hS.out acc hacc hc f3 f4 f5))) $$ Hout'
    ihave Hout'' := (Entails.of_eq (pts_outHalfK (F := F) d L hc _)) $$ Hout1
    ihave Hhalf' := (Entails.of_eq (pts_stHalfK (F := F) d L hc _)) $$ Hhalf
    sl_step
    isplitl [Hne' Hlg' Hsg' Hout'' Hhalf']
    · isplitl [Hne' Hlg' Hsg']
      · isplitl [Hne']; · iexact Hne'
        isplitl [Hlg']; · iexact Hlg'
        iexact Hsg'
      iapply (Entails.of_eq (if_pos (show (jL L).val = 0 from h0)).symm)
      isplitl [Hout'']; · iexact Hout''
      iexact Hhalf'
    isplitl [H0 H1 H2 H3' H4a H5' Hbufs]
    · isplitl [H0]; · iexists _; iexact H0
      isplitl [H1]; · iexists _; iexact H1
      isplitl [H2]; · iexists _; iexact H2
      isplitl [H3']; · iexists _; iexact H3'
      isplitl [H4a]; · iexists _; iexact H4a
      isplitl [H5']; · iexists _; iexact H5'
      iexact Hbufs
    isplitl [Hs6 Hs7 Hs8 Hs9 Hs10 Hs11 Hsems]
    · isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      iexact Hsems
    iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inr (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact .inl hp
  · have hc : ¬ k0_cond1 L = 1#1 := fun h => h0 ((k0_cond1_iff L).mp h)
    ihave Hout0 := (Entails.of_eq (if_neg (show ¬ (jL L).val = 0 from h0))) $$ Hout
    sl_exec
    sl_step
    isplitl [Hne' Hlg' Hsg']
    · isplitl [Hne' Hlg' Hsg']
      · isplitl [Hne']; · iexact Hne'
        isplitl [Hlg']; · iexact Hlg'
        iexact Hsg'
      iapply (Entails.of_eq (if_neg (show ¬ (jL L).val = 0 from h0)).symm)
      iempintro
    isplitl [H0 H1 H2 H3' H4a H5' Hbufs]
    · isplitl [H0]; · iexists _; iexact H0
      isplitl [H1]; · iexists _; iexact H1
      isplitl [H2]; · iexists _; iexact H2
      isplitl [H3']; · iexists _; iexact H3'
      isplitl [H4a]; · iexists _; iexact H4a
      isplitl [H5']; · iexists _; iexact H5'
      iexact Hbufs
    isplitl [Hs6 Hs7 Hs8 Hs9 Hs10 Hs11 Hsems]
    · isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      iexact Hsems
    iexists _; isplitr
    swap; · iexact HO
    ipureintro; intro p hp
    rcases Finset.mem_insert.mp hp with hp | hp; · exact .inr (.inr (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact .inl hp

end Cert.Kernel.SegSum

end
-- ==== Proof.KSegLaunch.lean ====
import proofs.«209885_g3178275799312_cont_8to1_b_553_16_alg».proof.Proof.KSegBody

/-!
# The launch: thirty-two tasks, two sequencers, one TensorCore

What the handshakes carry (each SparseCore a read share of the three inputs, its half of the staging array and of the
result; each task a read share, its row, and on tile 0 the result's half), the tasks' obligation, the split of a
SparseCore's operands among its tasks, the launch element of the ghost state (the barrier cells' invariants allocated at
once, each tile dealt its kit), @main on the TensorCore, and the program's run with every result named.
-/

noncomputable section

namespace Cert.Kernel.SegSum

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg) (G : StageVal (F := F)) (Gout : (d : Dev nD) → Buf (Elt F) (outLoc d))

/-! ## The read shares -/

/-- SparseCore c's read share of an input, and tile i's of that. -/
def qC (c : Fin 2) : PosShare TreeShare := Transfers.shareTok fullShare 2 c
def qT (c : Fin 2) (i : Fin 16) : PosShare TreeShare := Transfers.shareTok (qC c) 16 i

/-- What a SparseCore is handed: a read share of the inputs, its half of the staging array and of the result. -/
def stRes (d : Dev nD) (c : Fin 2) : sProp 𝕄 :=
  iprop(((neLoc d ↦{qC c} m (neLoc d)) ∗ (lgLoc d ↦{qC c} m (lgLoc d)) ∗ (sgLoc d ↦{qC c} m (sgLoc d)))
    ∗ (stLoc d ↦[stHalf c]{fullShare} m (stLoc d)) ∗ outLoc d ↦[outHalf c]{fullShare} m (outLoc d))
/-- What it hands back: the share, the halves written. -/
def dnRes (d : Dev nD) (c : Fin 2) : sProp 𝕄 :=
  iprop(((neLoc d ↦{qC c} m (neLoc d)) ∗ (lgLoc d ↦{qC c} m (lgLoc d)) ∗ (sgLoc d ↦{qC c} m (sgLoc d)))
    ∗ (stLoc d ↦[stHalf c]{fullShare} G d) ∗ outLoc d ↦[outHalf c]{fullShare} Gout d)

/-- Every tile's computation is the two whole-array functions'. -/
def Spec : Prop := ∀ (d : Dev nD) (L : grid0.Coords), TileSpec m G d L Gout

def P : (K (F := F)).Pay (nD := nD) (Val := Elt F) (Name := ℕ) (U := UU) where
  st := fun q d c => match q with | 0 => stRes m d (Fin.cast nCore_zero c)
  dn := fun q d c => match q with | 0 => dnRes m G Gout d (Fin.cast nCore_zero c)
  go := fun q d c i => match q with
    | 0 => goRes m d (qT (Fin.cast nCore_zero c) (Fin.cast nSub_zero i)) (Fin.cast nCore_zero c) (Fin.cast nSub_zero i)
  td := fun q d c i => match q with
    | 0 => tdRes m G d Gout (qT (Fin.cast nCore_zero c) (Fin.cast nSub_zero i)) (Fin.cast nCore_zero c) (Fin.cast nSub_zero i)
  x := fun _ thr => match thr with
    | (d, .scVector c i) => bkit G d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance goRes_storable (d : Dev nD) (q : PosShare TreeShare) (c : Fin 2) (i : Fin 16) : BI.Storable (upEmb : UEmb _ 𝕄) (goRes m d q c i) := by
  unfold goRes; split <;> infer_instance
instance tdRes_storable (d : Dev nD) (q : PosShare TreeShare) (c : Fin 2) (i : Fin 16) : BI.Storable (upEmb : UEmb _ 𝕄) (tdRes m G d Gout q c i) := by
  unfold tdRes; split <;> infer_instance

instance P_storable : (P (F := F) m G Gout).IsStorable where
  st q d c := match q with
    | 0 => (inferInstance : BI.Storable (upEmb : UEmb _ 𝕄) iprop(((neLoc d ↦{qC (Fin.cast nCore_zero c)} m (neLoc d)) ∗ (lgLoc d ↦{qC (Fin.cast nCore_zero c)} m (lgLoc d)) ∗ (sgLoc d ↦{qC (Fin.cast nCore_zero c)} m (sgLoc d)))
        ∗ (stLoc d ↦[stHalf (Fin.cast nCore_zero c)]{fullShare} m (stLoc d)) ∗ outLoc d ↦[outHalf (Fin.cast nCore_zero c)]{fullShare} m (outLoc d)))
  dn q d c := match q with
    | 0 => (inferInstance : BI.Storable (upEmb : UEmb _ 𝕄) iprop(((neLoc d ↦{qC (Fin.cast nCore_zero c)} m (neLoc d)) ∗ (lgLoc d ↦{qC (Fin.cast nCore_zero c)} m (lgLoc d)) ∗ (sgLoc d ↦{qC (Fin.cast nCore_zero c)} m (sgLoc d)))
        ∗ (stLoc d ↦[stHalf (Fin.cast nCore_zero c)]{fullShare} G d) ∗ outLoc d ↦[outHalf (Fin.cast nCore_zero c)]{fullShare} Gout d))
  go q d c i := match q with
    | 0 => goRes_storable m d _ _ _
  td q d c i := match q with
    | 0 => tdRes_storable m G Gout d _ _ _

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__seg_sum_body (coordsV c s)
          neV (Memref.isWhole_whole _) lgV (Memref.isWhole_whole _) sgV (Memref.isWhole_whole _) outV (Memref.isWhole_whole _)
          stV (Memref.isWhole_whole _) s0V (Memref.isWhole_whole _) s1V (Memref.isWhole_whole _) s2V (Memref.isWhole_whole _)
          s3V (Memref.isWhole_whole _) s4V (Memref.isWhole_whole _) s5V (Memref.isWhole_whole _)
          cc0_scratch6 cc0_scratch7 cc0_scratch8 cc0_scoped0 cc0_scoped1 cc0_scoped2) ⟨⟩ c s := rfl

set_option maxRecDepth 16384 in
theorem tileObl (hF : (K (F := F)).Facts) (hS : Spec m G Gout) : (K (F := F)).TileObl (D (F := F)) 𝒱 (P m G Gout) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m G d (coordsV ⟨_, hci.1⟩ ⟨_, hci.2⟩) Gout hF (hS d _) _ O W hO hOlev

/-! ## A SparseCore's operands split among its tasks, and join -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- What only tile 0 holds, among the sixteen. -/
theorem only_zero_intro (X : sProp 𝕄) : X ⊢ bigSep Finset.univ fun i : Fin 16 => if i.val = 0 then X else iprop(emp) := by
  rw [SparseCore.bigSep_erase' (Finset.mem_univ (0 : Fin 16)),
    show (bigSep (Finset.univ.erase (0 : Fin 16)) fun i : Fin 16 => if i.val = 0 then X else iprop(emp))
      = bigSep (Finset.univ.erase (0 : Fin 16)) fun _ => (iprop(emp) : sProp 𝕄) from
      bigSep_congr fun i hi => if_neg fun h => (Finset.mem_erase.mp hi).1 (Fin.ext h), bigSep_emp']
  iintro H
  isplitl [H]
  · rw [if_pos (show ((0 : Fin 16) : Fin 16).val = 0 from rfl)]; iexact H
  · iempintro
omit [FloatOps F] in
theorem only_zero_elim (X : sProp 𝕄) : (bigSep Finset.univ fun i : Fin 16 => if i.val = 0 then X else iprop(emp)) ⊢ X := by
  refine (bigSep_elim (i := (0 : Fin 16)) (Finset.mem_univ _)).trans ?_
  rw [if_pos (show ((0 : Fin 16) : Fin 16).val = 0 from rfl)]
  exact BI.Entails.refl _

omit [FloatOps F] in
/-- An input under a SparseCore's share is what stays with the sequencer and the sixteen tasks' shares. -/
theorem share_tasks (ℓ : Loc nD τ sig) (f : Buf (Elt F) ℓ) (c : Fin 2) :
    (ℓ ↦{qC c} f : sProp 𝕄) ⊣⊢ iprop((ℓ ↦{Transfers.shareDrop (qC c) 16} f) ∗ bigSep Finset.univ fun i : Fin 16 => ℓ ↦{qT c i} f) :=
  Transfers.pointsTo_toks (ℓ := ℓ) (S := Finset.univ) (f := f) (qC c) 16

omit [FloatOps F] in
theorem stHalf_split (d : Dev nD) (c : Fin 2) (f : Buf (Elt F) (stLoc d)) :
    (stLoc d ↦[stHalf c]{fullShare} f : sProp 𝕄) = bigSep Finset.univ fun i : Fin 16 => stRowPts d (tileNo c i) f := by
  rw [← stHalf_rows c]
  exact pointsTo_biUnion (q := fullShare) (f := f) (Finset.univ : Finset (Fin 16)) (fun i => stRow (tileNo c i)) (stHalf_rows_disjoint c)

theorem vecSplit : (K (F := F)).VecSplit' (P m G Gout) 0 := by
  intro d c
  show stRes m d (Fin.cast nCore_zero c) ⊢ |={Set.univ}=> iprop(
      (bigSep Finset.univ fun i : Fin ((K (F := F)).nSub 0) =>
        goRes m d (qT (Fin.cast nCore_zero c) (Fin.cast nSub_zero i)) (Fin.cast nCore_zero c) (Fin.cast nSub_zero i))
      ∗ ((bigSep Finset.univ fun i : Fin ((K (F := F)).nSub 0) =>
            tdRes m G d Gout (qT (Fin.cast nCore_zero c) (Fin.cast nSub_zero i)) (Fin.cast nCore_zero c) (Fin.cast nSub_zero i))
          -∗ dnRes m G Gout d (Fin.cast nCore_zero c)))
  generalize Fin.cast nCore_zero c = c'
  rw [bigSep_tasks (F := F) (fun i => goRes m d (qT c' i) c' i), bigSep_tasks (F := F) (fun i => tdRes m G d Gout (qT c' i) c' i)]
  unfold stRes dnRes goRes tdRes
  rw [bigSep_sep', bigSep_sep', bigSep_sep', bigSep_sep', bigSep_sep', bigSep_sep', bigSep_sep']
  iintro ⟨⟨Hne, Hlg, Hsg⟩, Hst, Hout⟩
  ihave Hne' := ((share_tasks (F := F) (neLoc d) (m (neLoc d)) c').1) $$ Hne
  ihave Hlg' := ((share_tasks (F := F) (lgLoc d) (m (lgLoc d)) c').1) $$ Hlg
  ihave Hsg' := ((share_tasks (F := F) (sgLoc d) (m (sgLoc d)) c').1) $$ Hsg
  icases Hne' with ⟨HneD, HneT⟩
  icases Hlg' with ⟨HlgD, HlgT⟩
  icases Hsg' with ⟨HsgD, HsgT⟩
  ihave Hst' := (Entails.of_eq (stHalf_split (F := F) d c' (m (stLoc d)))) $$ Hst
  ihave Hout' := (only_zero_intro (F := F) (outLoc d ↦[outHalf c']{fullShare} m (outLoc d))) $$ Hout
  imodintro
  isplitl [HneT HlgT HsgT Hst' Hout']
  · isplitl [HneT HlgT HsgT]
    · isplitl [HneT]; · iexact HneT
      isplitl [HlgT]; · iexact HlgT
      iexact HsgT
    isplitl [Hst']; · iexact Hst'
    iexact Hout'
  iintro ⟨⟨HneT, HlgT, HsgT⟩, Hres⟩
  ihave Hres' := (only_zero_elim (F := F) iprop((outLoc d ↦[outHalf c']{fullShare} Gout d) ∗ stLoc d ↦[stHalf c']{fullShare} G d)) $$ Hres
  icases Hres' with ⟨HoutG, HstG⟩
  isplitl [HneD HneT HlgD HlgT HsgD HsgT]
  · isplitl [HneD HneT]
    · iapply ((share_tasks (F := F) (neLoc d) (m (neLoc d)) c').2)
      isplitl [HneD]; · iexact HneD
      iexact HneT
    isplitl [HlgD HlgT]
    · iapply ((share_tasks (F := F) (lgLoc d) (m (lgLoc d)) c').2)
      isplitl [HlgD]; · iexact HlgD
      iexact HlgT
    iapply ((share_tasks (F := F) (sgLoc d) (m (sgLoc d)) c').2)
    isplitl [HsgD]; · iexact HsgD
    iexact HsgT
  isplitl [HstG]; · iexact HstG
  iexact HoutG

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile i's token in tile j's cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) G) g 0)
    ⊢ |={Set.univ}=> iprop(∃ κ : GSem nD τ sig → ℕ, bigSep bCells fun g => cellInv EB (bRd (F := F) G) (κ g) g) := by
  refine (Rounds.bodies_intro EB (bRd (F := F) G) bCells).trans ((inv_alloc_family bCells (Rounds.body EB (bRd (F := F) G)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P (F := F) m G Gout).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m G Gout).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m G Gout).oxFrom 0 (V d c i) = oxV d c := fun i => by
    rw [show (0 : ℕ) = (0 : Fin 1).val from rfl, (P m G Gout).oxFrom_step, (P m G Gout).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m G Gout).x q (SparseCore.T d)) = iprop(emp) :=
  bigSep_univ_of_subsingleton (0 : Fin 1)
theorem Px_S (d : Dev nD) (c : Fin τ.nSC) : (bigSep Finset.univ fun q : Fin 1 => (P (F := F) m G Gout).x q (S d c)) = iprop(emp) :=
  bigSep_univ_of_subsingleton (0 : Fin 1)
theorem Px_V (d : Dev nD) (c : Fin τ.nSC) (i : Fin τ.nSub) :
    (bigSep Finset.univ fun q : Fin 1 => (P (F := F) m G Gout).x q (V d c i)) = bkit G d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) G) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) G ∗ mine dci) ⊢ (bkit (F := F) G dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) G) (κ (bcell₃ x)) (bcell₃ x)) fun j _ =>
        sep_elim_left.trans (bigSep_elim (Φ := fun x : DCI => (cellInv EB (bRd (F := F) G) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) G ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m G Gout).x q thr : sProp 𝕄) := by
  rw [SparseCore.Cfg.bigSep_threads (fun thr : Thread nD τ => bigSep Finset.univ fun q : Fin 1 => (P m G Gout).x q thr)]
  simp only [Px_T, Px_S, Px_V, bigSep_emp']
  iintro ⟨#Hsh, Hat, Htok, Hcred⟩
  isplitr; · iempintro
  isplitr; · iempintro
  iapply (bigSep_mono_frame (R := shared (F := F) G) (Φ := mine (F := F)) fun dci _ => kit_intro (F := F) G dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m G Gout).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m G Gout).x q thr) : sProp 𝕄) := by
  unfold u₀
  iintro ⟨Hu, Hcred, Hfree⟩
  ihave H := (ownU_split _ _) $$ Hu
  icases H with ⟨HH, HB⟩
  imod (Rounds.fund EB (bRd (F := F) G) bCells bToks) $$ HB with ⟨Hst, #Hr, Hat, Htok⟩
  ihave Hsems := (sems_b (F := F)) $$ Hfree
  imod (invs_b (F := F) G) $$ [Hsems Hst] with ⟨%κ, #Hinv⟩
  · isplitl [Hsems] <;> iassumption
  ihave Hcred' := (creds_b m G Gout) $$ Hcred
  ihave Hinv' := (Entails.of_eq (bCells_eq (F := F) fun g => cellInv EB (bRd (F := F) G) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m G Gout)
  isplitr
  · isplitl; · iexists κ; iexact Hinv'
    iexact Hr'
  isplitl [Hat']; · iexact Hat'
  isplitl [Htok']; · iexact Htok'
  iexact Hcred'

/-! ## @main on the TensorCore -/

abbrev cst' : DevRef τ sig := Proc.devRef .tc (main_cst : Ref sig .tc)
abbrev v1' : DevRef τ sig := Proc.devRef .tc (main_v1 : Ref sig .tc)
abbrev opCst : HloOp τ sig (Elt F) := StableHlo.nullary main_cst (constant S_ .f32 0x00000000#32)
abbrev opBc : HloOp τ sig (Elt F) :=
  StableHlo.unary main_cst main_v1 (broadcastInDim S16x3x3 ![] bcast_S_S16x3x3 : (⟨S_, .f32⟩ : BufTy).Contents (Elt F) → (⟨S16x3x3, .f32⟩ : BufTy).Contents (Elt F))
/-- The two arrays the host operations after the call touch. -/
abbrev S2 : Finset (DevRef τ sig) := {cst', v1'}

omit [FloatOps F] in
theorem held_S2 (d : Dev nD) (W : Valuation τ sig (Elt F)) :
    (held (T d) S2 W : sProp 𝕄) = iprop(((SparseCore.T d).loc main_cst ↦{fullShare} W cst') ∗ (SparseCore.T d).loc main_v1 ↦{fullShare} W v1') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_arg3 ↦{fullShare} W main_arg3) ∗ ((SparseCore.T d).loc main_arg4 ↦{fullShare} W main_arg4) ∗ ((SparseCore.T d).loc main_arg5 ↦{fullShare} W main_arg5) ∗ ((SparseCore.T d).loc main_arg6 ↦{fullShare} W main_arg6) ∗ ((SparseCore.T d).loc main_v0_0 ↦{fullShare} W main_v0_0) ∗ ((SparseCore.T d).loc main_v0_1 ↦{fullShare} W main_v0_1) ∗ ((SparseCore.T d).loc main_cst ↦{fullShare} W main_cst) ∗ ((SparseCore.T d).loc main_v1 ↦{fullShare} W main_v1)) := by
  unfold unscopedBufs
  rw [show (Finset.univ.filter fun b : Ref sig .tc => ¬ b.isScoped) = {main_arg0, main_arg1, main_arg2, main_arg3, main_arg4, main_arg5, main_arg6, main_v0_0, main_v0_1, main_cst, main_v1} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The launch valuation. -/
def V0 (d : Dev nD) : Valuation τ sig (Elt F) := fun b => m (d, b)

theorem st0_eq (d : Dev nD) : (bigSep Finset.univ fun c : Fin ((K (F := F)).nCore 0) => (P m G Gout).st 0 d c) = iprop(stRes m d 0 ∗ stRes m d 1) := by
  show (bigSep (Finset.univ : Finset (Fin 2)) fun c => stRes m d (Fin.cast nCore_zero c)) = _
  rw [show (Finset.univ : Finset (Fin 2)) = {0, 1} by decide, SparseCore.bigSep_insert' (by decide), bigSep_singleton]
  rfl
theorem dn0_eq (d : Dev nD) : (bigSep Finset.univ fun c : Fin ((K (F := F)).nCore 0) => (P m G Gout).dn 0 d c) = iprop(dnRes m G Gout d 0 ∗ dnRes m G Gout d 1) := by
  show (bigSep (Finset.univ : Finset (Fin 2)) fun c => dnRes m G Gout d (Fin.cast nCore_zero c)) = _
  rw [show (Finset.univ : Finset (Fin 2)) = {0, 1} by decide, SparseCore.bigSep_insert' (by decide), bigSep_singleton]
  rfl

omit [FloatOps F] in
/-- An input whole is what stays with the TensorCore and the two SparseCores' shares. -/
theorem share_cores (ℓ : Loc nD τ sig) (f : Buf (Elt F) ℓ) :
    (ℓ ↦{fullShare} f : sProp 𝕄) ⊣⊢ iprop((ℓ ↦{Transfers.shareDrop fullShare 2} f) ∗ (ℓ ↦{qC 0} f) ∗ ℓ ↦{qC 1} f) := by
  have h : (ℓ ↦{fullShare} f : sProp 𝕄) ⊣⊢ iprop((ℓ ↦{Transfers.shareDrop fullShare 2} f) ∗ bigSep Finset.univ fun i : Fin 2 => ℓ ↦{Transfers.shareTok fullShare 2 i} f) :=
    Transfers.pointsTo_toks (ℓ := ℓ) (S := Finset.univ) (f := f) fullShare 2
  rw [show (Finset.univ : Finset (Fin 2)) = {0, 1} by decide, SparseCore.bigSep_insert' (by decide), bigSep_singleton] at h
  exact h

omit [FloatOps F] in
theorem stHalves_disjoint : ∀ c ∈ (Finset.univ : Finset (Fin 2)), ∀ c' ∈ (Finset.univ : Finset (Fin 2)), c ≠ c' → Disjoint (stHalf c) (stHalf c') := by
  intro c _ c' _ h
  rw [Finset.disjoint_left]; intro x hx hx'
  rw [mem_stHalf] at hx hx'
  exact h (Fin.ext (by omega))
omit [FloatOps F] in
theorem stHalves_cover : (Finset.univ : Finset (Fin 2)).biUnion stHalf = Finset.univ := by
  ext x
  simp only [Finset.mem_biUnion, Finset.mem_univ, true_and, iff_true]
  have hx : (x 0).val < 512 := (x 0).isLt
  exact ⟨⟨(x 0).val / 256, by omega⟩, mem_stHalf.mpr ⟨by show 256 * ((x 0).val / 256) ≤ _; omega, by show _ < 256 * ((x 0).val / 256) + 256; omega⟩⟩

omit [FloatOps F] in
theorem st_halves (d : Dev nD) (f : Buf (Elt F) (stLoc d)) :
    (stLoc d ↦{fullShare} f : sProp 𝕄) = iprop((stLoc d ↦[stHalf 0]{fullShare} f) ∗ stLoc d ↦[stHalf 1]{fullShare} f) := by
  rw [show (stLoc d ↦{fullShare} f : sProp 𝕄) = (stLoc d ↦[(Finset.univ : Finset (Fin 2)).biUnion stHalf]{fullShare} f) by rw [stHalves_cover],
    pointsTo_biUnion Finset.univ (ℓ := stLoc d) stHalf stHalves_disjoint,
    show (Finset.univ : Finset (Fin 2)) = {0, 1} by decide, SparseCore.bigSep_insert' (by decide), bigSep_singleton]
omit [FloatOps F] in
theorem out_halves (d : Dev nD) (f : Buf (Elt F) (outLoc d)) :
    (outLoc d ↦{fullShare} f : sProp 𝕄) = iprop((outLoc d ↦[outHalf 0]{fullShare} f) ∗ outLoc d ↦[outHalf 1]{fullShare} f) := by
  rw [show (outLoc d ↦{fullShare} f : sProp 𝕄) = (outLoc d ↦[(Finset.univ : Finset (Fin 2)).biUnion outHalf]{fullShare} f) by rw [outHalves_cover],
    pointsTo_biUnion Finset.univ (ℓ := outLoc d) outHalf outHalves_disjoint,
    show (Finset.univ : Finset (Fin 2)) = {0, 1} by decide, SparseCore.bigSep_insert' (by decide), bigSep_singleton]

theorem hCst : (opCst (F := F)).bufs ⊆ S2 := show ({cst'} : Finset (DevRef τ sig)) ⊆ S2 by decide
theorem hBc : (opBc (F := F)).bufs ⊆ S2 := show ({cst', v1'} : Finset (DevRef τ sig)) ⊆ S2 by decide

/-- What @main leaves the claim: the seven arguments at their launch contents, the sums, the zero block. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)) ∗ ((SparseCore.T d).loc main_arg5 ↦{fullShare} m ((SparseCore.T d).loc main_arg5))
    ∗ ((SparseCore.T d).loc main_arg6 ↦{fullShare} m ((SparseCore.T d).loc main_arg6))
    ∗ (outLoc d ↦{fullShare} Gout d)
    ∗ ((SparseCore.T d).loc main_v1 ↦{fullShare} (broadcastInDim S16x3x3 ![] bcast_S_S16x3x3 (constant S_ .f32 0x00000000#32) : (⟨S16x3x3, .f32⟩ : BufTy).Contents (Elt F))))

/-- @main on device d's TensorCore: the call (the library's wp_run, each SparseCore handed its shares and halves), then
    the constant and its broadcast. -/
theorem hmain (κ : GSem nD τ sig → ℕ) (d : Dev nD) :
    iprop((K (F := F)).ctx EH (P m G Gout) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m Gout d) := by
  unfold SparseCore.Cfg.tcRes
  rw [unscopedBufs_eq]
  simp only [main, wp_bind, wp_pure]
  iintro ⟨#Hctx, Hst, ⟨Hb, ⟨Ha0, Ha1, Ha2, Ha3, Ha4, Ha5, Ha6, Ho, Hs, Hcst, Hv1⟩, -, -⟩, -⟩
  ihave Ha0' := ((share_cores (F := F) _ _).1) $$ Ha0
  ihave Ha1' := ((share_cores (F := F) _ _).1) $$ Ha1
  ihave Ha2' := ((share_cores (F := F) _ _).1) $$ Ha2
  icases Ha0' with ⟨Ha0D, Ha0a, Ha0b⟩
  icases Ha1' with ⟨Ha1D, Ha1a, Ha1b⟩
  icases Ha2' with ⟨Ha2D, Ha2a, Ha2b⟩
  ihave Hs' := (Entails.of_eq (st_halves (F := F) d _)) $$ Hs
  icases Hs' with ⟨Hsa, Hsb⟩
  ihave Ho' := (Entails.of_eq (out_halves (F := F) d _)) $$ Ho
  icases Ho' with ⟨Hoa, Hob⟩
  iapply ((K (F := F)).wp_run (D (F := F)) 𝒱 (EH := EH) (P := P m G Gout) κ d 0) $$ [Hst Ha0a Ha0b Ha1a Ha1b Ha2a Ha2b Hsa Hsb Hoa Hob Ha0D Ha1D Ha2D Ha3 Ha4 Ha5 Ha6 Hb Hcst Hv1]
  isplitr; · iexact Hctx
  isplitl [Hst]; · iexact Hst
  isplitl [Ha0a Ha0b Ha1a Ha1b Ha2a Ha2b Hsa Hsb Hoa Hob]
  · rw [st0_eq]; unfold stRes
    isplitl [Ha0a Ha1a Ha2a Hsa Hoa]
    · isplitl [Ha0a Ha1a Ha2a]
      · isplitl [Ha0a]; · iexact Ha0a
        isplitl [Ha1a]; · iexact Ha1a
        iexact Ha2a
      isplitl [Hsa]; · iexact Hsa
      iexact Hoa
    · isplitl [Ha0b Ha1b Ha2b]
      · isplitl [Ha0b]; · iexact Ha0b
        isplitl [Ha1b]; · iexact Ha1b
        iexact Ha2b
      isplitl [Hsb]; · iexact Hsb
      iexact Hob
  iintro ⟨Hst, Hdn⟩
  ihave Hdn' := (Entails.of_eq (dn0_eq m G Gout d)) $$ Hdn
  unfold dnRes
  icases Hdn' with ⟨⟨⟨Ha0a, Ha1a, Ha2a⟩, -, Hoa⟩, ⟨⟨Ha0b, Ha1b, Ha2b⟩, -, Hob⟩⟩
  ihave Ha0 := ((share_cores (F := F) _ _).2) $$ [Ha0D Ha0a Ha0b]
  · isplitl [Ha0D]; · iexact Ha0D
    isplitl [Ha0a]; · iexact Ha0a
    iexact Ha0b
  ihave Ha1 := ((share_cores (F := F) _ _).2) $$ [Ha1D Ha1a Ha1b]
  · isplitl [Ha1D]; · iexact Ha1D
    isplitl [Ha1a]; · iexact Ha1a
    iexact Ha1b
  ihave Ha2 := ((share_cores (F := F) _ _).2) $$ [Ha2D Ha2a Ha2b]
  · isplitl [Ha2D]; · iexact Ha2D
    isplitl [Ha2a]; · iexact Ha2a
    iexact Ha2b
  ihave Ho := (Entails.of_eq (out_halves (F := F) d (Gout d)).symm) $$ [Hoa Hob]
  · isplitl [Hoa]; · iexact Hoa
    iexact Hob
  -- the constant and its broadcast
  iapply (wp_hlo_within 𝒱 (SparseCore.T d) none Set.univ (op := opCst) (S := S2) hCst (V := V0 m d)) $$ [Hb Hcst Hv1]
  · isplitl [Hb]; · iexact Hb
    rw [held_S2]
    isplitl [Hcst]; · iexact Hcst
    iexact Hv1
  iintro ⟨Hb, Hheld⟩
  rw [wp_ret]; imodintro
  iapply (wp_hlo_within 𝒱 (SparseCore.T d) none Set.univ (op := opBc) (S := S2) hBc (V := (opCst (F := F)).result (V0 m d))) $$ [Hb Hheld]
  · isplitl [Hb] <;> iassumption
  iintro ⟨Hb, Hheld⟩
  ihave Hh := (Entails.of_eq (held_S2 (F := F) d _)) $$ Hheld
  icases Hh with ⟨-, Hv1⟩
  rw [wp_ret]; imodintro; imodintro
  isplitl [Hst]; · iexact Hst
  unfold FIN
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ho]; · iexact Ho
  rw [StableHlo.unary_result, StableHlo.nullary_result]
  iexact Hv1

/-- What the claim reads off a final memory: the arguments as launched, the sums, the zero block. -/
def fqM (d : Dev nD) (μ : MemSt nD τ sig (Elt F)) : Prop :=
  μ.mem ((SparseCore.T d).loc main_arg0) = m ((SparseCore.T d).loc main_arg0)
  ∧ μ.mem ((SparseCore.T d).loc main_arg1) = m ((SparseCore.T d).loc main_arg1)
  ∧ μ.mem ((SparseCore.T d).loc main_arg2) = m ((SparseCore.T d).loc main_arg2)
  ∧ μ.mem ((SparseCore.T d).loc main_arg3) = m ((SparseCore.T d).loc main_arg3)
  ∧ μ.mem ((SparseCore.T d).loc main_arg4) = m ((SparseCore.T d).loc main_arg4)
  ∧ μ.mem ((SparseCore.T d).loc main_arg5) = m ((SparseCore.T d).loc main_arg5)
  ∧ μ.mem ((SparseCore.T d).loc main_arg6) = m ((SparseCore.T d).loc main_arg6)
  ∧ μ.mem (outLoc d) = Gout d
  ∧ μ.mem ((SparseCore.T d).loc main_v1) = (broadcastInDim S16x3x3 ![] bcast_S_S16x3x3 (constant S_ .f32 0x00000000#32) : (⟨S16x3x3, .f32⟩ : BufTy).Contents (Elt F))
def fq (d : Dev nD) (s' : Phys nD τ sig (Elt F)) : Prop := fqM m Gout d s'.mem

theorem hfin (d : Dev nD) (s' : Phys nD τ sig (Elt F)) : iprop(FIN m Gout d ∗ SI s') ⊢ (⌜fq m Gout d s'⌝ : sProp 𝕄) := by
  unfold FIN
  iintro ⟨⟨H0, H1, H2, H3, H4, H5, H6, Ho, Hv⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI H3]
  · isplitl [HSI] <;> iassumption
  icases H with ⟨%h3, HSI, -⟩
  ihave H := (persistent_entails_right (SI_pointsTo_agree (st := s') (ℓ := (SparseCore.T d).loc main_arg4) (I := Finset.univ) (q := fullShare) (f := m ((SparseCore.T d).loc main_arg4)))) $$ [HSI H4]
  · isplitl [HSI] <;> iassumption
  icases H with ⟨%h4, HSI, -⟩
  ihave H := (persistent_entails_right (SI_pointsTo_agree (st := s') (ℓ := (SparseCore.T d).loc main_arg5) (I := Finset.univ) (q := fullShare) (f := m ((SparseCore.T d).loc main_arg5)))) $$ [HSI H5]
  · isplitl [HSI] <;> iassumption
  icases H with ⟨%h5, HSI, -⟩
  ihave H := (persistent_entails_right (SI_pointsTo_agree (st := s') (ℓ := (SparseCore.T d).loc main_arg6) (I := Finset.univ) (q := fullShare) (f := m ((SparseCore.T d).loc main_arg6)))) $$ [HSI H6]
  · isplitl [HSI] <;> iassumption
  icases H with ⟨%h6, HSI, -⟩
  ihave H := (persistent_entails_right (SI_pointsTo_agree (st := s') (ℓ := outLoc d) (I := Finset.univ) (q := fullShare) (f := Gout d))) $$ [HSI Ho]
  · isplitl [HSI] <;> iassumption
  icases H with ⟨%ho, HSI, -⟩
  ihave H := (SI_pointsTo_agree (st := s') (ℓ := (SparseCore.T d).loc main_v1) (I := Finset.univ) (q := fullShare)) $$ [HSI Hv]
  · isplitl [HSI] <;> iassumption
  icases H with %hv
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i), funext fun i => h5 i (Finset.mem_univ i),
    funext fun i => h6 i (Finset.mem_univ i), funext fun i => ho i (Finset.mem_univ i), funext fun i => hv i (Finset.mem_univ i)⟩

/-! ## The program's run -/

/-- On every device: the arguments unchanged, the first result the sums, the fourth the zero block. -/
def QC : PUnit × MemSt nD τ sig (Elt F) → Prop := fun r => ∀ c : Dev nD, fqM m Gout c r.2

/-- Every weakly fair execution of @main on the TensorCore and of the kernel on the two SparseCores' subcores terminates,
    nothing faulting and no wait unanswered, with the results as the two whole-array functions say. -/
theorem run_main [∀ e, Nonempty (Elt F e)] (hS : Spec m G Gout) :
    θ_run (Cert.Kernel.defs (F := F)) (Cert.Kernel.threads (F := F)) ⟨m, fun _ => 0, ρ⟩ (QC m Gout) :=
  SparseCore.Cfg.θ_run_sc (K := K (F := F)) (D := D (F := F)) (𝒱 := 𝒱) (EH := EH) (P := P m G Gout) facts v₀
    (fun q hq => match q with | 0 => nomatch hq)
    (fun q _ => match q with | 0 => tileObl m G Gout facts hS)
    (fun q _ => match q with | 0 => SparseCore.Cfg.VecSplit.of_plain (vecSplit m G Gout))
    m ρ main (fun _ => iprop(emp)) (FIN m Gout) (u₀ (F := F)) (hu₀ m G Gout) (hmain m ρ G Gout) (fq m Gout) (hfin m Gout) (QC m Gout) (fun _ h => h)

end Cert.Kernel.SegSum

end
-- ==== Proof.KSegValue.lean ====
import proofs.«209885_g3178275799312_cont_8to1_b_553_16_alg».proof.Proof.KSegLaunch
import Idealize.ShloMosaic.Lib.Writes
import Idealize.ShloMosaic.Lib.ValueLayout
import Idealize.ShloMosaic.Lib.ValueIdx

/-!
# The two whole-array functions

What a tile's row and a core's eight sums are, as terms free of whatever the scratch buffers held before: the 8×16
scratch after its eight row stores is the matrix of lane accumulators, the 16-word scratch after its store is the
stored vector, the 256-word scratch after the fetch is the core's half of the staging array. From these the staging
array's contents G and the result's contents are defined, tile by tile and core by core, and each tile's
computation is shown to be theirs.
-/

noncomputable section

namespace Cert.Kernel.SegSum

open Cert.Kernel Cert.Kernel.Gen
open Idealize.ShloMosaic Idealize.ShloMosaic.ValueIdx
open Idealize.SL.Sem

variable {F : FTy → Type} [FloatOps F]
variable (m : (ℓ : Loc nD τ sig) → Buf (Elt F) ℓ) (d : Dev nD) (L : grid0.Coords)

/-! ## The 8×16 scratch is the matrix of lane accumulators -/

/-- Row g, lane l: accumulator g's lane l. -/
def accMat (acc : Acc8 F) : Vec F S8x16 .f32 := fun y => accRow m d L acc (y 0) (ix1 (y 1))

theorem piece_agree (acc : Acc8 F) (k : Fin 8) (inb : ∀ a, (![k.val, 0] : Fin 2 → Nat) a + S1x16.size a ≤ S8x16.size a)
    (x : (Rect.unit (s := S8x16) ![k.val, 0] S1x16.size inb).shape.Idx) :
    shapeCast S1x16 (accRow m d L acc k) shapeCasts_S16_S1x16 x = accMat m d L acc ((Rect.unit (s := S8x16) ![k.val, 0] S1x16.size inb).emb x) := by
  have hx0 : (x 0).val = 0 := by have := (x 0).isLt; change (x 0).val < 1 at this; omega
  have e0 : (Rect.unit (s := S8x16) ![k.val, 0] S1x16.size inb).emb x 0 = k := Fin.ext (by
    rw [Rect.emb_apply]; show k.val + 1 * (x 0).val = k.val; omega)
  have e1 : (Rect.unit (s := S8x16) ![k.val, 0] S1x16.size inb).emb x 1 = x 1 := Fin.ext (by
    rw [Rect.emb_apply]; show 0 + 1 * (x 1).val = (x 1).val; omega)
  unfold accMat
  rw [e0, e1]
  have hx : x = ix2 (x 0) (x 1) := eq_ix2 x
  rw [hx]
  exact shapeCast_a_1a_apply (accRow m d L acc k) shapeCasts_S16_S1x16 (x 0) (x 1)

theorem matOf_eq (f4 : Buf (Elt F) ((SparseCore.V d (cV L) (jV L)).loc cc0_scratch4)) (acc : Acc8 F) :
    matOf m d L f4 acc = accMat m d L acc := by
  unfold matOf
  refine (Memref.read_access_whole (Elt F) (cc0_scratch4 : Ref sig .scVector) ((s4V).view.writes (Elt F) f4 (pieces8 m d L acc))).trans ?_
  funext y
  refine View.read_writes_apply_of_pieces (v := (s4V).view) (f := f4) (accMat m d L acc) (pieces8 m d L acc) ?_ y
    (View.cover_of_tiled (pieces8 m d L acc) S1x16.size rfl y)
  intro p hp
  simp only [pieces8, List.mem_cons, List.not_mem_nil, or_false] at hp
  rcases hp with rfl | rfl | rfl | rfl | rfl | rfl | rfl | rfl
  · exact piece_agree m d L acc 7 inb_S8x16_S1x16_7_0
  · exact piece_agree m d L acc 6 inb_S8x16_S1x16_6_0
  · exact piece_agree m d L acc 5 inb_S8x16_S1x16_5_0
  · exact piece_agree m d L acc 4 inb_S8x16_S1x16_4_0
  · exact piece_agree m d L acc 3 inb_S8x16_S1x16_3_0
  · exact piece_agree m d L acc 2 inb_S8x16_S1x16_2_0
  · exact piece_agree m d L acc 1 inb_S8x16_S1x16_1_0
  · exact piece_agree m d L acc 0 inb_S8x16_S1x16_0_0

/-! ## The 16-word scratch after its store, and the tile's row -/

omit [FloatOps F] in
theorem emb16 (x : (Rect.unit (s := S16) ![0] S16.size inb_S16_S16_0).shape.Idx) :
    (Rect.unit (s := S16) ![0] S16.size inb_S16_S16_0).emb x = x := by
  funext a; apply Fin.ext
  obtain rfl : a = 0 := Subsingleton.elim _ _
  rw [Rect.emb_apply]; show 0 + 1 * (x 0).val = (x 0).val; omega

/-- Column l of the accumulator matrix gathered at rows lane & 7. -/
def gathM (acc : Acc8 F) (l : Fin 16) : Vec F S16 .f32 :=
  loadIdx (accMat m d L acc) ![k0_pay49, broadcast S16 (BitVec.ofNat 32 l.val)] (gidx_inb _ (by have := l.isLt; rw [BitVec.toNat_ofNat]; omega))

/-- The tile's row: lane j the sum over the sixteen columns of row j & 7 of the accumulator matrix. -/
def rowOfM (acc : Acc8 F) : FVec F S16 .f32 :=
  k0_pay51 (k0_pay50 (k0_pay20 (F := F)) (gathM m d L acc 0) (gathM m d L acc 1) (gathM m d L acc 2) (gathM m d L acc 3) (gathM m d L acc 4))
    (gathM m d L acc 5) (gathM m d L acc 6) (gathM m d L acc 7) (gathM m d L acc 8) (gathM m d L acc 9) (gathM m d L acc 10)
    (gathM m d L acc 11) (gathM m d L acc 12) (gathM m d L acc 13) (gathM m d L acc 14) (gathM m d L acc 15)

theorem rowOf_eq (f4 : Buf (Elt F) ((SparseCore.V d (cV L) (jV L)).loc cc0_scratch4)) (acc : Acc8 F) : rowOf m d L f4 acc = rowOfM m d L acc := by
  unfold rowOf rowOfM gath gathM
  rw [matOf_eq]

theorem rowDma_eq (acc : Acc8 F) (f3 : Buf (Elt F) ((SparseCore.V d (cV L) (jV L)).loc cc0_scratch3)) (f4 : Buf (Elt F) ((SparseCore.V d (cV L) (jV L)).loc cc0_scratch4)) :
    rowDma m d L acc f3 f4 = rowOfM m d L acc := by
  unfold rowDma rowPieces
  rw [rowOf_eq]
  funext x
  have h := View.read_writes_cons_emb (v := (s3V).view) (f := f3) (Rect.unit (s := S16) ![0] S16.size inb_S16_S16_0) (rowOfM m d L acc) [] x
  rw [emb16] at h
  exact h

/-! ## The staging array's contents -/

/-- The tile whose row holds word x of the staging array. -/
def tileOf (x : S512.Idx) : grid0.Coords :=
  coordsV ⟨(x 0).val / 256, by have := (x 0).isLt; show (x 0).val / 256 < 2; change (x 0).val < 512 at this; omega⟩
    ⟨(x 0).val / 16 % 16, by show (x 0).val / 16 % 16 < 16; omega⟩

/-- A tile's row, from the accumulators the loop leaves. -/
def rowVal (L : grid0.Coords) : S16.Idx → Elt F .f32 := rowOfM m d L (accIter m d L (k0_t1_loop L).trips)

/-- The staging array once every tile has written its row. -/
def Gst : StageVal (F := F) := fun d => ((fun x : S512.Idx => rowVal m d (tileOf x) (ix1 ⟨(x 0).val % 16, Nat.mod_lt _ (by decide)⟩)) : S512.Idx → Elt F .f32)

omit [FloatOps F] in
theorem stRowK_emb_val (y : S16.Idx) : (((stRowK L).view.emb y) 0).val = 256 * (L 0).val + 16 * (L 1).val + (y 0).val := by
  show (k0_off6 L 0) + 1 * (y 0).val = _
  rw [k0_off6_eq]; show 256 * (L 0).val + 16 * (L 1).val + 1 * (y 0).val = _; omega

omit [FloatOps F] in
theorem tileOf_emb (y : S16.Idx) : tileOf ((stRowK L).view.emb y) = L := by
  have hv := stRowK_emb_val L y
  have h0 : (L 0).val < 2 := (L 0).isLt
  have h1 : (L 1).val < 16 := (L 1).isLt
  have hy : (y 0).val < 16 := (y 0).isLt
  have e0 : (((stRowK L).view.emb y) 0).val / 256 = (L 0).val := by rw [hv]; omega
  have e1 : (((stRowK L).view.emb y) 0).val / 16 % 16 = (L 1).val := by rw [hv]; omega
  funext a
  match a with
  | 0 => exact Fin.ext e0
  | 1 => exact Fin.ext e1

theorem spec_row (acc : Acc8 F) (hacc : acc = accIter m d L (k0_t1_loop L).trips) (f3 : Buf (Elt F) ((SparseCore.V d (cV L) (jV L)).loc cc0_scratch3))
    (f4 : Buf (Elt F) ((SparseCore.V d (cV L) (jV L)).loc cc0_scratch4)) :
    ∀ i ∈ (stRowK L).view.set, (stRowK L).view.writes (Elt F) (m (stLoc d)) [⟨Rect.whole S16, rowDma m d L acc f3 f4⟩] i = Gst m d i := by
  intro i hi
  obtain ⟨y, -, rfl⟩ := Finset.mem_map.mp hi
  rw [rowDma_eq, hacc]
  have h1 := View.read_writes_cons_emb (v := (stRowK L).view) (f := m (stLoc d)) (Rect.whole S16) (rowOfM m d L (accIter m d L (k0_t1_loop L).trips)) [] y
  rw [Rect.emb_whole_apply] at h1
  refine Eq.trans (show _ = (stRowK L).view.read (Elt F) ((stRowK L).view.writes (Elt F) (m (stLoc d)) [⟨Rect.whole S16, rowOfM m d L (accIter m d L (k0_t1_loop L).trips)⟩]) y from rfl) (h1.trans ?_)
  show _ = rowVal m d (tileOf ((stRowK L).view.emb y)) (ix1 ⟨(((stRowK L).view.emb y) 0).val % 16, _⟩)
  rw [tileOf_emb]
  unfold rowVal
  congr 1
  rw [eq_ix1 y]
  congr 1
  apply Fin.ext
  show (y 0).val = (((stRowK L).view.emb y) 0).val % 16
  rw [stRowK_emb_val]; have hy : (y 0).val < 16 := (y 0).isLt; omega

/-! ## The core's sums -/

variable (G : StageVal (F := F))

/-- Sixteen consecutive words of the core's half of the staging array, from word off. -/
abbrev ldHalf (hc : k0_cond1 L = 1#1) (off : Fin 1 → Nat) (h : ∀ a, off a + S16.size a ≤ S256.size a) : Vec F S16 .f32 :=
  View.readAt (Elt F) (s5V).view (Rect.unit (s := S256) off S16.size h).toLoadRect (halfRead G d L hc)

/-- The sum of the core's sixteen rows. -/
def sumOfM (hc : k0_cond1 L = 1#1) : FVec F S16 .f32 :=
  k0_pay19 (ldHalf d L G hc ![0] inb_S256_S16_0) (ldHalf d L G hc ![16] inb_S256_S16_16) (ldHalf d L G hc ![32] inb_S256_S16_32) (ldHalf d L G hc ![48] inb_S256_S16_48) (ldHalf d L G hc ![64] inb_S256_S16_64) (ldHalf d L G hc ![80] inb_S256_S16_80) (ldHalf d L G hc ![96] inb_S256_S16_96) (ldHalf d L G hc ![112] inb_S256_S16_112) (ldHalf d L G hc ![128] inb_S256_S16_128) (ldHalf d L G hc ![144] inb_S256_S16_144) (ldHalf d L G hc ![160] inb_S256_S16_160) (ldHalf d L G hc ![176] inb_S256_S16_176) (ldHalf d L G hc ![192] inb_S256_S16_192) (ldHalf d L G hc ![208] inb_S256_S16_208) (ldHalf d L G hc ![224] inb_S256_S16_224) (ldHalf d L G hc ![240] inb_S256_S16_240)

theorem sumOf_eq (hc : k0_cond1 L = 1#1) (f5 : Buf (Elt F) ((SparseCore.V d (cV L) (jV L)).loc cc0_scratch5)) : sumOf G d L hc f5 = sumOfM d L G hc := by
  unfold sumOf sumOfM ldSt ldHalf
  rw [View.write_whole_univ]

omit [FloatOps F] in
theorem emb8 (y : S8.Idx) : (Rect.unit (s := S16) ![0] S8.size inb_S16_S8_0).emb y = ix1 ⟨(y 0).val, by have h := (y 0).isLt; change (y 0).val < 8 at h; omega⟩ := by
  funext a; apply Fin.ext
  obtain rfl : a = 0 := Subsingleton.elim _ _
  rw [Rect.emb_apply]; show 0 + 1 * (y 0).val = (y 0).val; omega

theorem outDma_eq (acc : Acc8 F) (hc : k0_cond1 L = 1#1) (f3 : Buf (Elt F) ((SparseCore.V d (cV L) (jV L)).loc cc0_scratch3))
    (f4 : Buf (Elt F) ((SparseCore.V d (cV L) (jV L)).loc cc0_scratch4)) (f5 : Buf (Elt F) ((SparseCore.V d (cV L) (jV L)).loc cc0_scratch5)) (y : S8.Idx) :
    outDma m G d L acc hc f3 f4 f5 y = sumOfM d L G hc (ix1 ⟨(y 0).val, by have h := (y 0).isLt; change (y 0).val < 8 at h; omega⟩) := by
  unfold outDma
  rw [sumOf_eq d L G]
  have h := View.read_writes_cons_emb (v := (s3V).view) (f := f3) (Rect.unit (s := S16) ![0] S16.size inb_S16_S16_0) (sumOfM d L G hc) (rowPieces m d L f4 acc)
    ((Rect.unit (s := S16) ![0] S8.size inb_S16_S8_0).emb y)
  rw [emb16] at h
  refine Eq.trans ?_ (h.trans (congrArg (sumOfM d L G hc) (emb8 y)))
  rfl

/-! ## The result's contents -/

/-- The tile 0 of the core that owns word x of the result. -/
def coreOf (x : S16.Idx) : grid0.Coords :=
  coordsV ⟨(x 0).val / 8, by have h := (x 0).isLt; change (x 0).val < 16 at h; show (x 0).val / 8 < 2; omega⟩ ⟨0, by decide⟩

omit [FloatOps F] in
theorem coreOf_cond (x : S16.Idx) : k0_cond1 (coreOf x) = 1#1 := (k0_cond1_iff _).mpr rfl

/-- The sixteen sums. -/
def Gres : (d : Dev nD) → Buf (Elt F) (outLoc d) :=
  fun d' => ((fun x : S16.Idx => sumOfM d' (coreOf x) (Gst m) (coreOf_cond x) (ix1 ⟨(x 0).val % 8, Nat.lt_of_lt_of_le (Nat.mod_lt _ (by decide)) (by decide)⟩)) : S16.Idx → Elt F .f32)

theorem sumOfM_congr {L L' : grid0.Coords} (h : L = L') (hc : k0_cond1 L = 1#1) (hc' : k0_cond1 L' = 1#1) : sumOfM d L G hc = sumOfM d L' G hc' := by
  subst h; rfl

omit [FloatOps F] in
theorem outHalfK_emb_val (hc : k0_cond1 L = 1#1) (y : S8.Idx) : (((outHalfK L hc).view.emb y) 0).val = 8 * (L 0).val + (y 0).val := by
  show (k0_off8 L 0) + 1 * (y 0).val = _
  rw [k0_off8_eq]; show 8 * (L 0).val + 1 * (y 0).val = _; omega

omit [FloatOps F] in
theorem coreOf_emb (hc : k0_cond1 L = 1#1) (y : S8.Idx) : coreOf ((outHalfK L hc).view.emb y) = L := by
  have hv := outHalfK_emb_val L hc y
  have hy : (y 0).val < 8 := (y 0).isLt
  have h1 : (L 1).val = 0 := (k0_cond1_iff L).mp hc
  have e0 : (((outHalfK L hc).view.emb y) 0).val / 8 = (L 0).val := by rw [hv]; omega
  funext a
  match a with
  | 0 => exact Fin.ext e0
  | 1 => exact Fin.ext h1.symm

theorem spec_out (acc : Acc8 F) (hacc : acc = accIter m d L (k0_t1_loop L).trips) (hc : k0_cond1 L = 1#1) (f3 : Buf (Elt F) ((SparseCore.V d (cV L) (jV L)).loc cc0_scratch3))
    (f4 : Buf (Elt F) ((SparseCore.V d (cV L) (jV L)).loc cc0_scratch4)) (f5 : Buf (Elt F) ((SparseCore.V d (cV L) (jV L)).loc cc0_scratch5)) :
    ∀ i ∈ (outHalfK L hc).view.set, (outHalfK L hc).view.writes (Elt F) (m (outLoc d)) [⟨Rect.whole S8, outDma m (Gst m) d L acc hc f3 f4 f5⟩] i = Gres m d i := by
  intro i hi
  obtain ⟨y, -, rfl⟩ := Finset.mem_map.mp hi
  have h1 := View.read_writes_cons_emb (v := (outHalfK L hc).view) (f := m (outLoc d)) (Rect.whole S8) (outDma m (Gst m) d L acc hc f3 f4 f5) [] y
  rw [Rect.emb_whole_apply] at h1
  refine Eq.trans (show _ = (outHalfK L hc).view.read (Elt F) ((outHalfK L hc).view.writes (Elt F) (m (outLoc d)) [⟨Rect.whole S8, outDma m (Gst m) d L acc hc f3 f4 f5⟩]) y from rfl) (h1.trans ?_)
  rw [outDma_eq]
  show _ = sumOfM d (coreOf ((outHalfK L hc).view.emb y)) (Gst m) (coreOf_cond _) (ix1 ⟨(((outHalfK L hc).view.emb y) 0).val % 8, _⟩)
  rw [sumOfM_congr d (Gst m) (coreOf_emb L hc y) (coreOf_cond _) hc]
  congr 2
  apply Fin.ext
  show (y 0).val = (((outHalfK L hc).view.emb y) 0).val % 8
  rw [outHalfK_emb_val]; have hy : (y 0).val < 8 := (y 0).isLt; omega

/-- Every tile's computation is the two whole-array functions'. -/
theorem spec : Spec m (Gst m) (Gres m) := fun d L => ⟨spec_row m d L, spec_out m d L⟩

end Cert.Kernel.SegSum

end
-- ==== Proof.SegCommon.lean ====
import proofs.«209885_g3178275799312_cont_8to1_b_553_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209885_g3178275799312_cont_8to1_b_553_16_alg».proof.Proof.Gen.KernelIdeal
import proofs.«209885_g3178275799312_cont_8to1_b_553_16_alg».proof.Proof.Gen.KernelIdeal.Skeleton

/-!
# Segment sums on the SparseCores: vocabulary

Two SparseCores of sixteen tiles each. Core c accumulates the segments 8c … 8c+7. Tile i of either core
fetches its 6256-element chunk of the three input vectors (the last tile's chunk is moved back so that it
ends with the arrays, and it skips the 96 elements it shares with tile 14), sums energy × mask per lane and
per segment, folds the lanes, and leaves a 16-word row (segments 0..7 twice) in row 16c+i of a 512-word
staging array. After the subcore barrier tile 0 of core c adds the sixteen rows of its core and writes the
first eight sums to words 8c … 8c+7 of the result.

This file fixes the configuration the launch theorem is applied at, the ghost state (handshakes, barrier
cells, transfer counters), the arrays as the tiles address them, the index sets the arrays are cut into,
and the barrier schedule: in tile 0's round, tile i's duty hands over row 16c+i of the staging array,
holding the values the whole-array function G gives it.
-/

noncomputable section

namespace Cert.KernelIdeal.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

/-- energy, mask, segment ids (arguments); the sixteen sums and the staging array (the call's results). -/
abbrev neLoc (d : Dev nD) : Loc nD τ sig := (SparseCore.T d).loc main_arg0
abbrev lgLoc (d : Dev nD) : Loc nD τ sig := (SparseCore.T d).loc main_arg1
abbrev sgLoc (d : Dev nD) : Loc nD τ sig := (SparseCore.T d).loc main_arg2
abbrev outLoc (d : Dev nD) : Loc nD τ sig := (SparseCore.T d).loc main_v0_0
abbrev stLoc (d : Dev nD) : Loc nD τ sig := (SparseCore.T d).loc main_v0_1

abbrev neV : Memref sig .scVector .hbm S100000 .f32 := Memref.whole main_arg0_scv
abbrev lgV : Memref sig .scVector .hbm S100000 .f32 := Memref.whole main_arg1_scv
abbrev sgV : Memref sig .scVector .hbm S100000 .i32 := Memref.whole main_arg2_scv
abbrev outV : Memref sig .scVector .hbm S16 .f32 := Memref.whole main_v0_0_scv
abbrev stV : Memref sig .scVector .hbm S512 .f32 := Memref.whole main_v0_1_scv
/-- A tile's scratch: the three chunks, the 16-word row, the 8×16 accumulators, the 256 staged words. -/
abbrev s0V : Memref sig .scVector .vmem S6256 .f32 := Memref.whole cc0_scratch0
abbrev s1V : Memref sig .scVector .vmem S6256 .f32 := Memref.whole cc0_scratch1
abbrev s2V : Memref sig .scVector .vmem S6256 .i32 := Memref.whole cc0_scratch2
abbrev s3V : Memref sig .scVector .vmem S16 .f32 := Memref.whole cc0_scratch3
abbrev s4V : Memref sig .scVector .vmem S8x16 .f32 := Memref.whole cc0_scratch4
abbrev s5V : Memref sig .scVector .vmem S256 .f32 := Memref.whole cc0_scratch5

/-! ## The index sets: rows and halves of the staging array, halves of the result -/

/-- Words 16 r … 16 r + 15 of the staging array: what the tile numbered r (16 c + i) writes. -/
abbrev stRowRect (r : Fin 32) : Rect S512 := Rect.unit (s := S512) ![16 * r.val] ![16] (Rect.inb₁ (by have := r.isLt; show 16 * r.val + 16 ≤ 512; omega))
abbrev stRow (r : Fin 32) : Finset S512.Idx := (stRowRect r).set
/-- Words 256 c … 256 c + 255: the sixteen rows of core c. -/
abbrev stHalfRect (c : Fin 2) : Rect S512 := Rect.unit (s := S512) ![256 * c.val] ![256] (Rect.inb₁ (by have := c.isLt; show 256 * c.val + 256 ≤ 512; omega))
abbrev stHalf (c : Fin 2) : Finset S512.Idx := (stHalfRect c).set
/-- Words 8 c … 8 c + 7 of the result: core c's segments. -/
abbrev outHalfRect (c : Fin 2) : Rect S16 := Rect.unit (s := S16) ![8 * c.val] ![8] (Rect.inb₁ (by have := c.isLt; show 8 * c.val + 8 ≤ 16; omega))
abbrev outHalf (c : Fin 2) : Finset S16.Idx := (outHalfRect c).set

/-- The number of tile i of core c among the 32. -/
def tileNo (c : Fin 2) (i : Fin 16) : Fin 32 := ⟨16 * c.val + i.val, by have := c.isLt; have := i.isLt; omega⟩

theorem unit_set_congr {s : Shape} {off off' size size' : Fin s.rank → Nat} {inb inb'} (ho : off = off') (hs : size = size') :
    (Rect.unit (s := s) off size inb).set = (Rect.unit (s := s) off' size' inb').set := by subst ho; subst hs; rfl

theorem mem_stRow {r : Fin 32} {x : S512.Idx} : x ∈ stRow r ↔ 16 * r.val ≤ (x 0).val ∧ (x 0).val < 16 * r.val + 16 := by
  unfold stRow stRowRect; rw [Rect.mem_set_unit]; exact Fin.forall_fin_one
theorem mem_stHalf {c : Fin 2} {x : S512.Idx} : x ∈ stHalf c ↔ 256 * c.val ≤ (x 0).val ∧ (x 0).val < 256 * c.val + 256 := by
  unfold stHalf stHalfRect; rw [Rect.mem_set_unit]; exact Fin.forall_fin_one
theorem mem_outHalf {c : Fin 2} {x : S16.Idx} : x ∈ outHalf c ↔ 8 * c.val ≤ (x 0).val ∧ (x 0).val < 8 * c.val + 8 := by
  unfold outHalf outHalfRect; rw [Rect.mem_set_unit]; exact Fin.forall_fin_one

theorem stRows_disjoint : ∀ r ∈ (Finset.univ : Finset (Fin 32)), ∀ r' ∈ (Finset.univ : Finset (Fin 32)), r ≠ r' → Disjoint (stRow r) (stRow r') := by
  intro r _ r' _ h
  rw [Finset.disjoint_left]; intro x hx hx'
  rw [mem_stRow] at hx hx'
  exact h (Fin.ext (by omega))
theorem stRows_cover : (Finset.univ : Finset (Fin 32)).biUnion stRow = Finset.univ := by
  ext x
  simp only [Finset.mem_biUnion, Finset.mem_univ, true_and, iff_true]
  have hx : (x 0).val < 512 := (x 0).isLt
  exact ⟨⟨(x 0).val / 16, by omega⟩, mem_stRow.mpr ⟨by show 16 * ((x 0).val / 16) ≤ _; omega, by show _ < 16 * ((x 0).val / 16) + 16; omega⟩⟩
/-- The sixteen rows of core c are its half. -/
theorem stHalf_rows (c : Fin 2) : (Finset.univ : Finset (Fin 16)).biUnion (fun i => stRow (tileNo c i)) = stHalf c := by
  ext x
  simp only [Finset.mem_biUnion, Finset.mem_univ, true_and, mem_stRow, mem_stHalf, tileNo]
  constructor
  · rintro ⟨i, h1, h2⟩; have := i.isLt; constructor <;> omega
  · rintro ⟨h1, h2⟩
    exact ⟨⟨((x 0).val - 256 * c.val) / 16, by omega⟩, by show 16 * (16 * c.val + ((x 0).val - 256 * c.val) / 16) ≤ _; omega,
      by show _ < 16 * (16 * c.val + ((x 0).val - 256 * c.val) / 16) + 16; omega⟩
theorem stHalf_rows_disjoint (c : Fin 2) : ∀ i ∈ (Finset.univ : Finset (Fin 16)), ∀ i' ∈ (Finset.univ : Finset (Fin 16)), i ≠ i' →
    Disjoint (stRow (tileNo c i)) (stRow (tileNo c i')) := by
  intro i _ i' _ h
  refine stRows_disjoint _ (Finset.mem_univ _) _ (Finset.mem_univ _) fun e => h (Fin.ext ?_)
  have := congrArg Fin.val e; simp only [tileNo] at this; omega
theorem outHalves_disjoint : ∀ c ∈ (Finset.univ : Finset (Fin 2)), ∀ c' ∈ (Finset.univ : Finset (Fin 2)), c ≠ c' → Disjoint (outHalf c) (outHalf c') := by
  intro c _ c' _ h
  rw [Finset.disjoint_left]; intro x hx hx'
  rw [mem_outHalf] at hx hx'
  exact h (Fin.ext (by omega))
theorem outHalves_cover : (Finset.univ : Finset (Fin 2)).biUnion outHalf = Finset.univ := by
  ext x
  simp only [Finset.mem_biUnion, Finset.mem_univ, true_and, iff_true]
  have hx : (x 0).val < 16 := (x 0).isLt
  exact ⟨⟨(x 0).val / 8, by omega⟩, mem_outHalf.mpr ⟨by show 8 * ((x 0).val / 8) ≤ _; omega, by show _ < 8 * ((x 0).val / 8) + 8; omega⟩⟩

variable [FloatOps F]

/-! ## The barrier cells -/

/-- Tile (c, j)'s barrier semaphore of device d. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

theorem nSC_eq : τ.nSC = 2 := rfl
theorem nSub_eq : τ.nSub = 16 := rfl

/-- The staging array's contents once every tile has written its row: one whole-array function per device. -/
abbrev StageVal : Type := (d : Dev nD) → Buf (Elt F) (stLoc d)

variable (G : StageVal (F := F))

abbrev stRowPts (d : Dev nD) (r : Fin 32) (f : Buf (Elt F) (stLoc d)) : sProp 𝕄 := stLoc d ↦[stRow r]{fullShare} f

/-- What a duty hands over: in the round of tile 0 of a core, tile n's duty its row of the staging array, written; in the
    other tiles' rounds nothing. -/
def bPay (g : GSem nD τ sig) (n : ℕ) : sProp 𝕄 :=
  match g with
  | ((d, .scVector c j), _) =>
      if j.val = 0 then (if h : n < 16 then stRowPts d (tileNo (Fin.cast nSC_eq c) ⟨n, h⟩) (G d) else iprop(emp)) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay G g n
  amount_pos _ _ _ _ := Nat.one_pos

instance bRd_payload_storable (g : GSem nD τ sig) (r n : ℕ) : BI.Storable (upEmb : UEmb _ 𝕄) ((bRd (F := F) G).payload g r n) := by
  show BI.Storable upEmb (bPay G g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) G).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) G).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) G).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) G) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

end Cert.KernelIdeal.SegSum

end
-- ==== Proof.SegBody.lean ====
import proofs.«209885_g3178275799312_cont_8to1_b_553_16_alg».proof.Proof.SegCommon

/-!
# One tile's task

The task of tile (c, i), at a symbolic place: the three fetches, the accumulation loop, the lane folds, the
row written to the staging array, the barrier (the row handed to tile 0's round), and on tile 0 the sum of
the core's sixteen rows written to the result's half.
-/

noncomputable section

namespace Cert.KernelIdeal.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (G : StageVal (F := F)) (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

abbrev dcell (d : Dev nD) (c : Fin τ.nSC) (i : Fin τ.nSub) (s : DmaSems sig S_) : GSem nD τ sig := (V d c i, .dma s.sem)

omit [FloatOps F] in
theorem ownSems0_V :
    (ownSems0 (V d (cV L) (jV L)) : sProp 𝕄)
      = iprop(semVal (dcell d (cV L) (jV L) cc0_scratch6) 0 ∗ semVal (dcell d (cV L) (jV L) cc0_scratch7) 0 ∗ semVal (dcell d (cV L) (jV L) cc0_scratch8) 0 ∗ semVal (dcell d (cV L) (jV L) cc0_scoped0) 0 ∗ semVal (dcell d (cV L) (jV L) cc0_scoped1) 0 ∗ semVal (dcell d (cV L) (jV L) cc0_scoped2) 0
          ∗ bigSep (((((((ownCells (V d (cV L) (jV L))).erase (dcell d (cV L) (jV L) cc0_scratch6)).erase (dcell d (cV L) (jV L) cc0_scratch7)).erase (dcell d (cV L) (jV L) cc0_scratch8)).erase (dcell d (cV L) (jV L) cc0_scoped0)).erase (dcell d (cV L) (jV L) cc0_scoped1)).erase (dcell d (cV L) (jV L) cc0_scoped2)) fun g => semVal g 0) := by
  unfold SparseCore.Cfg.ownSems0
  rw [SparseCore.bigSep_erase' (((mem_ownCells (g := (dcell d (cV L) (jV L) cc0_scratch6))).mpr ⟨rfl, by show (SemLoc.dma cc0_scratch6.sem : SemLoc sig).isScoped .scVector = true; decide⟩)),
    SparseCore.bigSep_erase' (Finset.mem_erase.mpr ⟨(fun e => absurd (congrArg (fun g : GSem nD τ sig => g.2) e) (show (SemLoc.dma cc0_scratch7.sem : SemLoc sig) ≠ SemLoc.dma cc0_scratch6.sem by decide)), ((mem_ownCells (g := (dcell d (cV L) (jV L) cc0_scratch7))).mpr ⟨rfl, by show (SemLoc.dma cc0_scratch7.sem : SemLoc sig).isScoped .scVector = true; decide⟩)⟩),
    SparseCore.bigSep_erase' (Finset.mem_erase.mpr ⟨(fun e => absurd (congrArg (fun g : GSem nD τ sig => g.2) e) (show (SemLoc.dma cc0_scratch8.sem : SemLoc sig) ≠ SemLoc.dma cc0_scratch7.sem by decide)), Finset.mem_erase.mpr ⟨(fun e => absurd (congrArg (fun g : GSem nD τ sig => g.2) e) (show (SemLoc.dma cc0_scratch8.sem : SemLoc sig) ≠ SemLoc.dma cc0_scratch6.sem by decide)), ((mem_ownCells (g := (dcell d (cV L) (jV L) cc0_scratch8))).mpr ⟨rfl, by show (SemLoc.dma cc0_scratch8.sem : SemLoc sig).isScoped .scVector = true; decide⟩)⟩⟩),
    SparseCore.bigSep_erase' (Finset.mem_erase.mpr ⟨(fun e => absurd (congrArg (fun g : GSem nD τ sig => g.2) e) (show (SemLoc.dma cc0_scoped0.sem : SemLoc sig) ≠ SemLoc.dma cc0_scratch8.sem by decide)), Finset.mem_erase.mpr ⟨(fun e => absurd (congrArg (fun g : GSem nD τ sig => g.2) e) (show (SemLoc.dma cc0_scoped0.sem : SemLoc sig) ≠ SemLoc.dma cc0_scratch7.sem by decide)), Finset.mem_erase.mpr ⟨(fun e => absurd (congrArg (fun g : GSem nD τ sig => g.2) e) (show (SemLoc.dma cc0_scoped0.sem : SemLoc sig) ≠ SemLoc.dma cc0_scratch6.sem by decide)), ((mem_ownCells (g := (dcell d (cV L) (jV L) cc0_scoped0))).mpr ⟨rfl, by show (SemLoc.dma cc0_scoped0.sem : SemLoc sig).isScoped .scVector = true; decide⟩)⟩⟩⟩),
    SparseCore.bigSep_erase' (Finset.mem_erase.mpr ⟨(fun e => absurd (congrArg (fun g : GSem nD τ sig => g.2) e) (show (SemLoc.dma cc0_scoped1.sem : SemLoc sig) ≠ SemLoc.dma cc0_scoped0.sem by decide)), Finset.mem_erase.mpr ⟨(fun e => absurd (congrArg (fun g : GSem nD τ sig => g.2) e) (show (SemLoc.dma cc0_scoped1.sem : SemLoc sig) ≠ SemLoc.dma cc0_scratch8.sem by decide)), Finset.mem_erase.mpr ⟨(fun e => absurd (congrArg (fun g : GSem nD τ sig => g.2) e) (show (SemLoc.dma cc0_scoped1.sem : SemLoc sig) ≠ SemLoc.dma cc0_scratch7.sem by decide)), Finset.mem_erase.mpr ⟨(fun e => absurd (congrArg (fun g : GSem nD τ sig => g.2) e) (show (SemLoc.dma cc0_scoped1.sem : SemLoc sig) ≠ SemLoc.dma cc0_scratch6.sem by decide)), ((mem_ownCells (g := (dcell d (cV L) (jV L) cc0_scoped1))).mpr ⟨rfl, by show (SemLoc.dma cc0_scoped1.sem : SemLoc sig).isScoped .scVector = true; decide⟩)⟩⟩⟩⟩),
    SparseCore.bigSep_erase' (Finset.mem_erase.mpr ⟨(fun e => absurd (congrArg (fun g : GSem nD τ sig => g.2) e) (show (SemLoc.dma cc0_scoped2.sem : SemLoc sig) ≠ SemLoc.dma cc0_scoped1.sem by decide)), Finset.mem_erase.mpr ⟨(fun e => absurd (congrArg (fun g : GSem nD τ sig => g.2) e) (show (SemLoc.dma cc0_scoped2.sem : SemLoc sig) ≠ SemLoc.dma cc0_scoped0.sem by decide)), Finset.mem_erase.mpr ⟨(fun e => absurd (congrArg (fun g : GSem nD τ sig => g.2) e) (show (SemLoc.dma cc0_scoped2.sem : SemLoc sig) ≠ SemLoc.dma cc0_scratch8.sem by decide)), Finset.mem_erase.mpr ⟨(fun e => absurd (congrArg (fun g : GSem nD τ sig => g.2) e) (show (SemLoc.dma cc0_scoped2.sem : SemLoc sig) ≠ SemLoc.dma cc0_scratch7.sem by decide)), Finset.mem_erase.mpr ⟨(fun e => absurd (congrArg (fun g : GSem nD τ sig => g.2) e) (show (SemLoc.dma cc0_scoped2.sem : SemLoc sig) ≠ SemLoc.dma cc0_scratch6.sem by decide)), ((mem_ownCells (g := (dcell d (cV L) (jV L) cc0_scoped2))).mpr ⟨rfl, by show (SemLoc.dma cc0_scoped2.sem : SemLoc sig).isScoped .scVector = true; decide⟩)⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  rw [SparseCore.bigSep_erase' ((SparseCore.Cfg.mem_ownRefs_of_owner (p := Proc.scVector (cV L) (jV L)) (b := ((Proc.scVector (cV L) (jV L)).devRef cc0_scratch0)) rfl)),
    SparseCore.bigSep_erase' (Finset.mem_erase.mpr ⟨(fun e => absurd (Proc.devRef_injective _ e) (show (cc0_scratch1 : Ref sig .scVector) ≠ cc0_scratch0 by decide)), (SparseCore.Cfg.mem_ownRefs_of_owner (p := Proc.scVector (cV L) (jV L)) (b := ((Proc.scVector (cV L) (jV L)).devRef cc0_scratch1)) rfl)⟩),
    SparseCore.bigSep_erase' (Finset.mem_erase.mpr ⟨(fun e => absurd (Proc.devRef_injective _ e) (show (cc0_scratch2 : Ref sig .scVector) ≠ cc0_scratch1 by decide)), Finset.mem_erase.mpr ⟨(fun e => absurd (Proc.devRef_injective _ e) (show (cc0_scratch2 : Ref sig .scVector) ≠ cc0_scratch0 by decide)), (SparseCore.Cfg.mem_ownRefs_of_owner (p := Proc.scVector (cV L) (jV L)) (b := ((Proc.scVector (cV L) (jV L)).devRef cc0_scratch2)) rfl)⟩⟩),
    SparseCore.bigSep_erase' (Finset.mem_erase.mpr ⟨(fun e => absurd (Proc.devRef_injective _ e) (show (cc0_scratch3 : Ref sig .scVector) ≠ cc0_scratch2 by decide)), Finset.mem_erase.mpr ⟨(fun e => absurd (Proc.devRef_injective _ e) (show (cc0_scratch3 : Ref sig .scVector) ≠ cc0_scratch1 by decide)), Finset.mem_erase.mpr ⟨(fun e => absurd (Proc.devRef_injective _ e) (show (cc0_scratch3 : Ref sig .scVector) ≠ cc0_scratch0 by decide)), (SparseCore.Cfg.mem_ownRefs_of_owner (p := Proc.scVector (cV L) (jV L)) (b := ((Proc.scVector (cV L) (jV L)).devRef cc0_scratch3)) rfl)⟩⟩⟩),
    SparseCore.bigSep_erase' (Finset.mem_erase.mpr ⟨(fun e => absurd (Proc.devRef_injective _ e) (show (cc0_scratch4 : Ref sig .scVector) ≠ cc0_scratch3 by decide)), Finset.mem_erase.mpr ⟨(fun e => absurd (Proc.devRef_injective _ e) (show (cc0_scratch4 : Ref sig .scVector) ≠ cc0_scratch2 by decide)), Finset.mem_erase.mpr ⟨(fun e => absurd (Proc.devRef_injective _ e) (show (cc0_scratch4 : Ref sig .scVector) ≠ cc0_scratch1 by decide)), Finset.mem_erase.mpr ⟨(fun e => absurd (Proc.devRef_injective _ e) (show (cc0_scratch4 : Ref sig .scVector) ≠ cc0_scratch0 by decide)), (SparseCore.Cfg.mem_ownRefs_of_owner (p := Proc.scVector (cV L) (jV L)) (b := ((Proc.scVector (cV L) (jV L)).devRef cc0_scratch4)) rfl)⟩⟩⟩⟩),
    SparseCore.bigSep_erase' (Finset.mem_erase.mpr ⟨(fun e => absurd (Proc.devRef_injective _ e) (show (cc0_scratch5 : Ref sig .scVector) ≠ cc0_scratch4 by decide)), Finset.mem_erase.mpr ⟨(fun e => absurd (Proc.devRef_injective _ e) (show (cc0_scratch5 : Ref sig .scVector) ≠ cc0_scratch3 by decide)), Finset.mem_erase.mpr ⟨(fun e => absurd (Proc.devRef_injective _ e) (show (cc0_scratch5 : Ref sig .scVector) ≠ cc0_scratch2 by decide)), Finset.mem_erase.mpr ⟨(fun e => absurd (Proc.devRef_injective _ e) (show (cc0_scratch5 : Ref sig .scVector) ≠ cc0_scratch1 by decide)), Finset.mem_erase.mpr ⟨(fun e => absurd (Proc.devRef_injective _ e) (show (cc0_scratch5 : Ref sig .scVector) ≠ cc0_scratch0 by decide)), (SparseCore.Cfg.mem_ownRefs_of_owner (p := Proc.scVector (cV L) (jV L)) (b := ((Proc.scVector (cV L) (jV L)).devRef cc0_scratch5)) rfl)⟩⟩⟩⟩⟩)]

/-! ## The arrays as the task slices them -/

abbrev stRowK (L : grid0.Coords) : Memref sig .scVector .hbm S16 .f32 :=
  (stV).slice (Rect.unit (s := S512) (k0_off6 L) S16.size (k0_off6_inb L)) (fun _ => rfl)
abbrev stHalfK (L : grid0.Coords) (h : k0_cond1 L = 1#1) : Memref sig .scVector .hbm S256 .f32 :=
  (stV).slice (Rect.unit (s := S512) (k0_off7 L) S256.size (k0_off7_inb L h)) (fun _ => rfl)
abbrev outHalfK (L : grid0.Coords) (h : k0_cond1 L = 1#1) : Memref sig .scVector .hbm S8 .f32 :=
  (outV).slice (Rect.unit (s := S16) (k0_off8 L) S8.size (k0_off8_inb L h)) (fun _ => rfl)

omit [FloatOps F] in
theorem set_stRowK : (stRowK L).view.set = stRow (tileNo (cL L) (jL L)) := by
  show ((View.whole (main_v0_1_scv : Ref sig .scVector)).slice _).set = _
  rw [View.set_slice_whole]
  exact unit_set_congr (by rw [k0_off6_eq]; exact congrArg (fun t => ![t]) (by show 256 * (L 0).val + 16 * (L 1).val = 16 * (16 * (L 0).val + (L 1).val); omega)) rfl
omit [FloatOps F] in
theorem set_stHalfK (h : k0_cond1 L = 1#1) : (stHalfK L h).view.set = stHalf (cL L) := by
  show ((View.whole (main_v0_1_scv : Ref sig .scVector)).slice _).set = _
  rw [View.set_slice_whole]
  exact unit_set_congr (by rw [k0_off7_eq]; rfl) rfl
omit [FloatOps F] in
theorem set_outHalfK (h : k0_cond1 L = 1#1) : (outHalfK L h).view.set = outHalf (cL L) := by
  show ((View.whole (main_v0_0_scv : Ref sig .scVector)).slice _).set = _
  rw [View.set_slice_whole]
  exact unit_set_congr (by rw [k0_off8_eq]; rfl) rfl

omit [FloatOps F] in
theorem pts_stRowK (f : Buf (Elt F) (stLoc d)) :
    ((stRowK L).view.loc (V d (cV L) (jV L)) ↦[(stRowK L).view.set]{fullShare} f : sProp 𝕄) = stRowPts d (tileNo (cL L) (jL L)) f := by
  unfold stRowPts; rw [set_stRowK]
omit [FloatOps F] in
theorem pts_stHalfK (h : k0_cond1 L = 1#1) (f : Buf (Elt F) (stLoc d)) :
    ((stHalfK L h).view.loc (V d (cV L) (jV L)) ↦[(stHalfK L h).view.set]{fullShare} f : sProp 𝕄) = stLoc d ↦[stHalf (cL L)]{fullShare} f := by
  rw [set_stHalfK]
omit [FloatOps F] in
theorem pts_outHalfK (h : k0_cond1 L = 1#1) (f : Buf (Elt F) (outLoc d)) :
    ((outHalfK L h).view.loc (V d (cV L) (jV L)) ↦[(outHalfK L h).view.set]{fullShare} f : sProp 𝕄) = outLoc d ↦[outHalf (cL L)]{fullShare} f := by
  rw [set_outHalfK]
omit [FloatOps F] in
theorem pts_neV (q : PosShare TreeShare) (f : Buf (Elt F) (neLoc d)) :
    ((neV).view.loc (V d (cV L) (jV L)) ↦{q} f : sProp 𝕄) = neLoc d ↦{q} f := rfl
omit [FloatOps F] in
theorem pts_lgV (q : PosShare TreeShare) (f : Buf (Elt F) (lgLoc d)) :
    ((lgV).view.loc (V d (cV L) (jV L)) ↦{q} f : sProp 𝕄) = lgLoc d ↦{q} f := rfl
omit [FloatOps F] in
theorem pts_sgV (q : PosShare TreeShare) (f : Buf (Elt F) (sgLoc d)) :
    ((sgV).view.loc (V d (cV L) (jV L)) ↦{q} f : sProp 𝕄) = sgLoc d ↦{q} f := rfl

omit [FloatOps F] in
theorem pts_s0V (f : Buf (Elt F) ((V d (cV L) (jV L)).loc cc0_scratch0)) :
    ((s0V).view.loc (V d (cV L) (jV L)) ↦{fullShare} f : sProp 𝕄) = (V d (cV L) (jV L)).loc cc0_scratch0 ↦{fullShare} f := rfl
omit [FloatOps F] in
theorem pts_s1V (f : Buf (Elt F) ((V d (cV L) (jV L)).loc cc0_scratch1)) :
    ((s1V).view.loc (V d (cV L) (jV L)) ↦{fullShare} f : sProp 𝕄) = (V d (cV L) (jV L)).loc cc0_scratch1 ↦{fullShare} f := rfl
omit [FloatOps F] in
theorem pts_s2V (f : Buf (Elt F) ((V d (cV L) (jV L)).loc cc0_scratch2)) :
    ((s2V).view.loc (V d (cV L) (jV L)) ↦{fullShare} f : sProp 𝕄) = (V d (cV L) (jV L)).loc cc0_scratch2 ↦{fullShare} f := rfl
omit [FloatOps F] in
theorem pts_s3V (f : Buf (Elt F) ((V d (cV L) (jV L)).loc cc0_scratch3)) :
    ((s3V).view.loc (V d (cV L) (jV L)) ↦{fullShare} f : sProp 𝕄) = (V d (cV L) (jV L)).loc cc0_scratch3 ↦{fullShare} f := rfl
omit [FloatOps F] in
theorem pts_s4V (f : Buf (Elt F) ((V d (cV L) (jV L)).loc cc0_scratch4)) :
    ((s4V).view.loc (V d (cV L) (jV L)) ↦{fullShare} f : sProp 𝕄) = (V d (cV L) (jV L)).loc cc0_scratch4 ↦{fullShare} f := rfl
omit [FloatOps F] in
theorem pts_s5V (f : Buf (Elt F) ((V d (cV L) (jV L)).loc cc0_scratch5)) :
    ((s5V).view.loc (V d (cV L) (jV L)) ↦{fullShare} f : sProp 𝕄) = (V d (cV L) (jV L)).loc cc0_scratch5 ↦{fullShare} f := rfl

omit [FloatOps F] in
theorem pts_s4V_access (f : Buf (Elt F) ((V d (cV L) (jV L)).loc cc0_scratch4)) :
    (((s4V).access (.whole S8x16)).loc (V d (cV L) (jV L)) ↦{fullShare} f : sProp 𝕄) = ((s4V).view.loc (V d (cV L) (jV L)) ↦{fullShare} f) := rfl

omit [FloatOps F] in
/-- The branch after the barrier is taken on tile 0 only. -/
theorem k0_cond1_iff : ∀ L : grid0.Coords, k0_cond1 L = 1#1 ↔ (L 1).val = 0 := by decide +kernel

variable (Gout : (d : Dev nD) → Buf (Elt F) (outLoc d))

/-- What a task is handed: its read shares of the inputs, its row of the staging array, and on tile 0 the core's half
    of the result. -/
def goRes (q : PosShare TreeShare) (c : Fin 2) (i : Fin 16) : sProp 𝕄 :=
  iprop(((neLoc d ↦{q} m (neLoc d)) ∗ (lgLoc d ↦{q} m (lgLoc d)) ∗ (sgLoc d ↦{q} m (sgLoc d)))
    ∗ stRowPts d (tileNo c i) (m (stLoc d))
    ∗ (if i.val = 0 then outLoc d ↦[outHalf c]{fullShare} m (outLoc d) else iprop(emp)))
/-- What it hands back: the read shares, and on tile 0 the result's half at its sums and the core's half of the staging
    array, all rows written. -/
def tdRes (q : PosShare TreeShare) (c : Fin 2) (i : Fin 16) : sProp 𝕄 :=
  iprop(((neLoc d ↦{q} m (neLoc d)) ∗ (lgLoc d ↦{q} m (lgLoc d)) ∗ (sgLoc d ↦{q} m (sgLoc d)))
    ∗ (if i.val = 0 then iprop((outLoc d ↦[outHalf c]{fullShare} Gout d) ∗ stLoc d ↦[stHalf c]{fullShare} G d) else iprop(emp)))

/-- Before the barrier, the tile's written row is what its duties hand over: tile 0's round the row, the others nothing. -/
theorem pays_intro : stRowPts d (tileNo (cL L) (jL L)) (G d)
    ⊢ (bigSep Finset.univ fun j : Fin (grid0.bound 1) => (bRd (F := F) G).payload (bcell d (cV L) (j.castLE hsub0)) 0 (jV L).val : sProp 𝕄) := by
  let j₀ : Fin (grid0.bound 1) := ⟨0, by decide⟩
  rw [SparseCore.bigSep_erase' (Finset.mem_univ j₀),
    show (bigSep (Finset.univ.erase j₀) fun j : Fin (grid0.bound 1) => (bRd (F := F) G).payload (bcell d (cV L) (j.castLE hsub0)) 0 (jV L).val)
      = bigSep (Finset.univ.erase j₀) fun _ => (iprop(emp) : sProp 𝕄) from
      bigSep_congr fun j hj => if_neg fun h => (Finset.mem_erase.mp hj).1 (Fin.ext h), bigSep_emp']
  have e : (bRd (F := F) G).payload (bcell d (cV L) (j₀.castLE hsub0)) 0 (jV L).val = stRowPts d (tileNo (cL L) (jL L)) (G d) := by
    show bPay G (bcell d (cV L) (j₀.castLE hsub0)) (jV L).val = _
    unfold bPay; dsimp only
    rw [if_pos (show (Fin.castLE hsub0 j₀).val = 0 from rfl), dif_pos (show (jV L).val < 16 from (jV L).isLt)]
    rfl
  rw [e]
  iintro H
  isplitl [H]
  · iexact H
  · iempintro

/-- After it, tile 0's own round collected the sixteen rows of its core. -/
theorem pays_elim (h0 : (L 1).val = 0) : (bigSep ((bRd (F := F) G).duties (bcell d (cV L) (jV L)) 0 \ ∅) fun n => (bRd (F := F) G).payload (bcell d (cV L) (jV L)) 0 n)
    ⊢ (bigSep Finset.univ fun i : Fin 16 => stRowPts d (tileNo (cL L) i) (G d) : sProp 𝕄) := by
  rw [Finset.sdiff_empty, bRd_duties₀, SparseCore.bigSep_image_of_injOn (fun a _ b _ e => Fin.val_injective e)]
  refine Entails.of_eq (bigSep_congr fun i _ => ?_)
  show bPay G (bcell d (cV L) (jV L)) i.val = _
  unfold bPay; dsimp only
  rw [if_pos (show (jV L).val = 0 from h0), dif_pos (show i.val < 16 from i.isLt)]
  rfl

/-- The three inputs, each under the read share q. -/
abbrev ins (q : PosShare TreeShare) : sProp 𝕄 :=
  iprop((neLoc d ↦{q} m (neLoc d)) ∗ (lgLoc d ↦{q} m (lgLoc d)) ∗ (sgLoc d ↦{q} m (sgLoc d)))

abbrev neChunkK (L : grid0.Coords) : Memref sig .scVector .hbm S6256 .f32 :=
  (neV).slice (Rect.unit (s := S100000) (k0_off1 L) S6256.size (k0_off1_inb L)) (fun _ => rfl)
abbrev lgChunkK (L : grid0.Coords) : Memref sig .scVector .hbm S6256 .f32 :=
  (lgV).slice (Rect.unit (s := S100000) (k0_off1 L) S6256.size (k0_off1_inb L)) (fun _ => rfl)
abbrev sgChunkK (L : grid0.Coords) : Memref sig .scVector .hbm S6256 .i32 :=
  (sgV).slice (Rect.unit (s := S100000) (k0_off1 L) S6256.size (k0_off1_inb L)) (fun _ => rfl)

/-- The tile's chunks of the three inputs, as its scratch holds them after the fetches. -/
def cNe : Buf (Elt F) ((V d (cV L) (jV L)).loc cc0_scratch0) := (neChunkK L).view.read (Elt F) (m (neLoc d))
def cLg : Buf (Elt F) ((V d (cV L) (jV L)).loc cc0_scratch1) := (lgChunkK L).view.read (Elt F) (m (lgLoc d))
def cSg : Buf (Elt F) ((V d (cV L) (jV L)).loc cc0_scratch2) := (sgChunkK L).view.read (Elt F) (m (sgLoc d))

abbrev Acc8 (F : FTy → Type) : Type := FVec F S16 .f32 × FVec F S16 .f32 × FVec F S16 .f32 × FVec F S16 .f32 × FVec F S16 .f32 × FVec F S16 .f32 × FVec F S16 .f32 × FVec F S16 .f32

/-- Sixteen consecutive words of a chunk, from word off. -/
abbrev ldNe (off : Fin 1 → Nat) (h : ∀ a, off a + S16.size a ≤ S6256.size a) : Vec F S16 .f32 :=
  View.readAt (Elt F) (s0V).view (Rect.unit (s := S6256) off S16.size h).toLoadRect (cNe m d L)
abbrev ldLg (off : Fin 1 → Nat) (h : ∀ a, off a + S16.size a ≤ S6256.size a) : Vec F S16 .f32 :=
  View.readAt (Elt F) (s1V).view (Rect.unit (s := S6256) off S16.size h).toLoadRect (cLg m d L)
abbrev ldSg (off : Fin 1 → Nat) (h : ∀ a, off a + S16.size a ≤ S6256.size a) : Vec F S16 .i32 :=
  View.readAt (Elt F) (s2V).view (Rect.unit (s := S6256) off S16.size h).toLoadRect (cSg m d L)

/-- The first of the core's eight segments, as a word. -/
abbrev seg0 (L : grid0.Coords) : BitVec 32 := Scalar.muli (BitVec.ofNat 32 (L 0).val) 8#32

/-- One trip of the loop: two vectors of sixteen words, each added into the eight lane accumulators where its segment
    id is the accumulator's. -/
def accStep (t : Fin (k0_t1_loop L).trips) (a : Acc8 F) : Acc8 F :=
  (k0_pay22 L (k0_pay2 (k0_pay20 (F := F)) (seg0 L) a.1 (ldNe m d L (k0_off2 L t) (k0_off2_inb L t)) (ldLg m d L (k0_off2 L t) (k0_off2_inb L t)) (ldSg m d L (k0_off2 L t) (k0_off2_inb L t)))
      (ldNe m d L (k0_off3 L t) (k0_off3_inb L t)) (ldLg m d L (k0_off3 L t) (k0_off3_inb L t)) (ldSg m d L (k0_off3 L t) (k0_off3_inb L t)),
   k0_pay23 L (k0_pay3 (k0_pay20 (F := F)) (seg0 L) a.2.1 (ldNe m d L (k0_off2 L t) (k0_off2_inb L t)) (ldLg m d L (k0_off2 L t) (k0_off2_inb L t)) (ldSg m d L (k0_off2 L t) (k0_off2_inb L t)))
      (ldNe m d L (k0_off3 L t) (k0_off3_inb L t)) (ldLg m d L (k0_off3 L t) (k0_off3_inb L t)) (ldSg m d L (k0_off3 L t) (k0_off3_inb L t)),
   k0_pay24 L (k0_pay4 (k0_pay20 (F := F)) (seg0 L) a.2.2.1 (ldNe m d L (k0_off2 L t) (k0_off2_inb L t)) (ldLg m d L (k0_off2 L t) (k0_off2_inb L t)) (ldSg m d L (k0_off2 L t) (k0_off2_inb L t)))
      (ldNe m d L (k0_off3 L t) (k0_off3_inb L t)) (ldLg m d L (k0_off3 L t) (k0_off3_inb L t)) (ldSg m d L (k0_off3 L t) (k0_off3_inb L t)),
   k0_pay25 L (k0_pay5 (k0_pay20 (F := F)) (seg0 L) a.2.2.2.1 (ldNe m d L (k0_off2 L t) (k0_off2_inb L t)) (ldLg m d L (k0_off2 L t) (k0_off2_inb L t)) (ldSg m d L (k0_off2 L t) (k0_off2_inb L t)))
      (ldNe m d L (k0_off3 L t) (k0_off3_inb L t)) (ldLg m d L (k0_off3 L t) (k0_off3_inb L t)) (ldSg m d L (k0_off3 L t) (k0_off3_inb L t)),
   k0_pay26 L (k0_pay6 (k0_pay20 (F := F)) (seg0 L) a.2.2.2.2.1 (ldNe m d L (k0_off2 L t) (k0_off2_inb L t)) (ldLg m d L (k0_off2 L t) (k0_off2_inb L t)) (ldSg m d L (k0_off2 L t) (k0_off2_inb L t)))
      (ldNe m d L (k0_off3 L t) (k0_off3_inb L t)) (ldLg m d L (k0_off3 L t) (k0_off3_inb L t)) (ldSg m d L (k0_off3 L t) (k0_off3_inb L t)),
   k0_pay27 L (k0_pay7 (k0_pay20 (F := F)) (seg0 L) a.2.2.2.2.2.1 (ldNe m d L (k0_off2 L t) (k0_off2_inb L t)) (ldLg m d L (k0_off2 L t) (k0_off2_inb L t)) (ldSg m d L (k0_off2 L t) (k0_off2_inb L t)))
      (ldNe m d L (k0_off3 L t) (k0_off3_inb L t)) (ldLg m d L (k0_off3 L t) (k0_off3_inb L t)) (ldSg m d L (k0_off3 L t) (k0_off3_inb L t)),
   k0_pay28 L (k0_pay8 (k0_pay20 (F := F)) (seg0 L) a.2.2.2.2.2.2.1 (ldNe m d L (k0_off2 L t) (k0_off2_inb L t)) (ldLg m d L (k0_off2 L t) (k0_off2_inb L t)) (ldSg m d L (k0_off2 L t) (k0_off2_inb L t)))
      (ldNe m d L (k0_off3 L t) (k0_off3_inb L t)) (ldLg m d L (k0_off3 L t) (k0_off3_inb L t)) (ldSg m d L (k0_off3 L t) (k0_off3_inb L t)),
   k0_pay29 L (k0_pay9 (k0_pay20 (F := F)) (seg0 L) a.2.2.2.2.2.2.2 (ldNe m d L (k0_off2 L t) (k0_off2_inb L t)) (ldLg m d L (k0_off2 L t) (k0_off2_inb L t)) (ldSg m d L (k0_off2 L t) (k0_off2_inb L t)))
      (ldNe m d L (k0_off3 L t) (k0_off3_inb L t)) (ldLg m d L (k0_off3 L t) (k0_off3_inb L t)) (ldSg m d L (k0_off3 L t) (k0_off3_inb L t)))

/-- The accumulators after n trips. -/
def accIter : Nat → Acc8 F
  | 0 => (k0_pay20 (F := F), k0_pay20 (F := F), k0_pay20 (F := F), k0_pay20 (F := F), k0_pay20 (F := F), k0_pay20 (F := F), k0_pay20 (F := F), k0_pay20 (F := F))
  | n + 1 => if h : n < (k0_t1_loop L).trips then accStep m d L ⟨n, h⟩ (accIter n) else accIter n

theorem accIter_zero : accIter m d L 0 = (k0_pay20 (F := F), k0_pay20 (F := F), k0_pay20 (F := F), k0_pay20 (F := F), k0_pay20 (F := F), k0_pay20 (F := F), k0_pay20 (F := F), k0_pay20 (F := F)) := rfl
theorem accIter_succ (n : Nat) (h : n < (k0_t1_loop L).trips) : accIter m d L (n + 1) = accStep m d L ⟨n, h⟩ (accIter m d L n) := by
  rw [accIter, dif_pos h]
attribute [irreducible] accIter

def inv (k : Nat) (acc : Acc8 F) : sProp 𝕄 :=
  iprop(((s0V).view.loc (V d (cV L) (jV L)) ↦{fullShare} cNe m d L)
    ∗ ((s1V).view.loc (V d (cV L) (jV L)) ↦{fullShare} cLg m d L)
    ∗ ((s2V).view.loc (V d (cV L) (jV L)) ↦{fullShare} cSg m d L)
    ∗ ⌜acc = accIter m d L k⌝)

omit [FloatOps F] in
theorem trips2_zero : Scf.trips (k0_t2_loop L).lb (k0_t2_loop L).ub (k0_t2_loop L).st = 0 := Nat.le_zero.mp (k0_t2_abs L).2.1

/-! ## What the tile computes, as terms of its scratch contents -/

/-- The last sixteen words of the chunks: the vector the loop leaves for after it. -/
abbrev tNe : Vec F S16 .f32 := ldNe m d L ![6240] inb_S6256_S16_6240
abbrev tLg : Vec F S16 .f32 := ldLg m d L ![6240] inb_S6256_S16_6240
abbrev tSg : Vec F S16 .i32 := ldSg m d L ![6240] inb_S6256_S16_6240

/-- The eight lane accumulators after the last vector: row g holds, per lane, the sum for segment 8c + g. -/
def accRow (acc : Acc8 F) : Fin 8 → FVec F S16 .f32
  | 0 => k0_pay40 L acc.1 (tNe m d L) (tLg m d L) (tSg m d L)
  | 1 => k0_pay42 (k0_pay20 (F := F)) acc.2.1 (k0_pay39 (tNe m d L) (tLg m d L)) (tSg m d L) (k0_pay41 L)
  | 2 => k0_pay43 (k0_pay20 (F := F)) (seg0 L) acc.2.2.1 (k0_pay39 (tNe m d L) (tLg m d L)) (tSg m d L)
  | 3 => k0_pay44 (k0_pay20 (F := F)) (seg0 L) acc.2.2.2.1 (k0_pay39 (tNe m d L) (tLg m d L)) (tSg m d L)
  | 4 => k0_pay45 (k0_pay20 (F := F)) (seg0 L) acc.2.2.2.2.1 (k0_pay39 (tNe m d L) (tLg m d L)) (tSg m d L)
  | 5 => k0_pay46 (k0_pay20 (F := F)) (seg0 L) acc.2.2.2.2.2.1 (k0_pay39 (tNe m d L) (tLg m d L)) (tSg m d L)
  | 6 => k0_pay47 (k0_pay20 (F := F)) (seg0 L) acc.2.2.2.2.2.2.1 (k0_pay39 (tNe m d L) (tLg m d L)) (tSg m d L)
  | 7 => k0_pay48 (k0_pay20 (F := F)) (seg0 L) acc.2.2.2.2.2.2.2 (k0_pay39 (tNe m d L) (tLg m d L)) (tSg m d L)

/-- The eight row stores into the 8×16 scratch, newest first. -/
def pieces8 (acc : Acc8 F) : List (View.Piece (Elt F) S8x16 .f32) :=
  [⟨Rect.unit ![7, 0] S1x16.size inb_S8x16_S1x16_7_0, shapeCast S1x16 (accRow m d L acc 7) shapeCasts_S16_S1x16⟩,
   ⟨Rect.unit ![6, 0] S1x16.size inb_S8x16_S1x16_6_0, shapeCast S1x16 (accRow m d L acc 6) shapeCasts_S16_S1x16⟩,
   ⟨Rect.unit ![5, 0] S1x16.size inb_S8x16_S1x16_5_0, shapeCast S1x16 (accRow m d L acc 5) shapeCasts_S16_S1x16⟩,
   ⟨Rect.unit ![4, 0] S1x16.size inb_S8x16_S1x16_4_0, shapeCast S1x16 (accRow m d L acc 4) shapeCasts_S16_S1x16⟩,
   ⟨Rect.unit ![3, 0] S1x16.size inb_S8x16_S1x16_3_0, shapeCast S1x16 (accRow m d L acc 3) shapeCasts_S16_S1x16⟩,
   ⟨Rect.unit ![2, 0] S1x16.size inb_S8x16_S1x16_2_0, shapeCast S1x16 (accRow m d L acc 2) shapeCasts_S16_S1x16⟩,
   ⟨Rect.unit ![1, 0] S1x16.size inb_S8x16_S1x16_1_0, shapeCast S1x16 (accRow m d L acc 1) shapeCasts_S16_S1x16⟩,
   ⟨Rect.unit ![0, 0] S1x16.size inb_S8x16_S1x16_0_0, shapeCast S1x16 (accRow m d L acc 0) shapeCasts_S16_S1x16⟩]

/-- The 8×16 scratch as the indexed loads read it. -/
def matOf (f4 : Buf (Elt F) ((V d (cV L) (jV L)).loc cc0_scratch4)) (acc : Acc8 F) : Vec F S8x16 .f32 :=
  View.read (Elt F) ((s4V).access (Rect.whole S8x16)) ((s4V).view.writes (Elt F) f4 (pieces8 m d L acc))

omit [FloatOps F] in
/-- Rows lane & 7, column l: inside the 8×16 scratch. -/
theorem gidx_inb (l : BitVec 32) (hl : l.toNat < 16) : ∀ a x, ((![k0_pay49, broadcast S16 l] : Fin 2 → IVec S16 32) a x).toNat < S8x16.size a := by
  intro a x
  match a with
  | 0 =>
    show (k0_pay49 x).toNat < 8
    unfold k0_pay49
    show ((iota .scVector S16 32 [0] iota_S16_d0_w32_scVector x) &&& 7#32).toNat < 8
    rw [BitVec.toNat_and]
    exact Nat.lt_of_le_of_lt Nat.and_le_right (by decide)
  | 1 => exact hl

/-- Column l of the scratch gathered at rows lane & 7. -/
def gath (f4 : Buf (Elt F) ((V d (cV L) (jV L)).loc cc0_scratch4)) (acc : Acc8 F) (l : Fin 16) : Vec F S16 .f32 :=
  loadIdx (matOf m d L f4 acc) ![k0_pay49, broadcast S16 (BitVec.ofNat 32 l.val)] (gidx_inb _ (by have := l.isLt; rw [BitVec.toNat_ofNat]; omega))

/-- The tile's 16-word row: lane j the sum over the sixteen columns of row j & 7. -/
def rowOf (f4 : Buf (Elt F) ((V d (cV L) (jV L)).loc cc0_scratch4)) (acc : Acc8 F) : FVec F S16 .f32 :=
  k0_pay51 (k0_pay50 (k0_pay20 (F := F)) (gath m d L f4 acc 0) (gath m d L f4 acc 1) (gath m d L f4 acc 2) (gath m d L f4 acc 3) (gath m d L f4 acc 4))
    (gath m d L f4 acc 5) (gath m d L f4 acc 6) (gath m d L f4 acc 7) (gath m d L f4 acc 8) (gath m d L f4 acc 9) (gath m d L f4 acc 10)
    (gath m d L f4 acc 11) (gath m d L f4 acc 12) (gath m d L f4 acc 13) (gath m d L f4 acc 14) (gath m d L f4 acc 15)

/-- The one store of the row into the 16-word scratch. -/
def rowPieces (f4 : Buf (Elt F) ((V d (cV L) (jV L)).loc cc0_scratch4)) (acc : Acc8 F) : List (View.Piece (Elt F) S16 .f32) :=
  [⟨Rect.unit ![0] S16.size inb_S16_S16_0, rowOf m d L f4 acc⟩]

/-- What the copy to the staging array carries: the 16-word scratch read back. -/
def rowDma (acc : Acc8 F) (f3 : Buf (Elt F) ((V d (cV L) (jV L)).loc cc0_scratch3)) (f4 : Buf (Elt F) ((V d (cV L) (jV L)).loc cc0_scratch4)) : S16.Idx → Elt F .f32 :=
  ReadAs.same.apply (View.read (Elt F) (s3V).view ((s3V).view.writes (Elt F) f3 (rowPieces m d L f4 acc)))

/-- The core's half of the staging array as tile 0 fetches it. -/
def halfRead (hc : k0_cond1 L = 1#1) : S256.Idx → Elt F .f32 :=
  ReadAs.same.apply (View.read (Elt F) (stHalfK L hc).view (G d))

abbrev ldSt (hc : k0_cond1 L = 1#1) (f5 : Buf (Elt F) ((V d (cV L) (jV L)).loc cc0_scratch5)) (off : Fin 1 → Nat) (h : ∀ a, off a + S16.size a ≤ S256.size a) : Vec F S16 .f32 :=
  View.readAt (Elt F) (s5V).view (Rect.unit (s := S256) off S16.size h).toLoadRect (View.write (Elt F) (s5V).view f5 (halfRead G d L hc) Finset.univ)

/-- The sum of the sixteen staged rows. -/
def sumOf (hc : k0_cond1 L = 1#1) (f5 : Buf (Elt F) ((V d (cV L) (jV L)).loc cc0_scratch5)) : FVec F S16 .f32 :=
  k0_pay19 (ldSt G d L hc f5 ![0] inb_S256_S16_0) (ldSt G d L hc f5 ![16] inb_S256_S16_16) (ldSt G d L hc f5 ![32] inb_S256_S16_32) (ldSt G d L hc f5 ![48] inb_S256_S16_48)
    (ldSt G d L hc f5 ![64] inb_S256_S16_64) (ldSt G d L hc f5 ![80] inb_S256_S16_80) (ldSt G d L hc f5 ![96] inb_S256_S16_96) (ldSt G d L hc f5 ![112] inb_S256_S16_112)
    (ldSt G d L hc f5 ![128] inb_S256_S16_128) (ldSt G d L hc f5 ![144] inb_S256_S16_144) (ldSt G d L hc f5 ![160] inb_S256_S16_160) (ldSt G d L hc f5 ![176] inb_S256_S16_176)
    (ldSt G d L hc f5 ![192] inb_S256_S16_192) (ldSt G d L hc f5 ![208] inb_S256_S16_208) (ldSt G d L hc f5 ![224] inb_S256_S16_224) (ldSt G d L hc f5 ![240] inb_S256_S16_240)

/-- The first eight words of the 16-word scratch, as the last copy slices it. -/
abbrev s3HeadK : Memref sig .scVector .vmem S8 .f32 := (s3V).slice (Rect.unit (s := S16) ![0] S8.size inb_S16_S8_0) (fun _ => rfl)

/-- What the copy to the result carries. -/
def outDma (acc : Acc8 F) (hc : k0_cond1 L = 1#1) (f3 : Buf (Elt F) ((V d (cV L) (jV L)).loc cc0_scratch3)) (f4 : Buf (Elt F) ((V d (cV L) (jV L)).loc cc0_scratch4))
    (f5 : Buf (Elt F) ((V d (cV L) (jV L)).loc cc0_scratch5)) : S8.Idx → Elt F .f32 :=
  ReadAs.same.apply (View.read (Elt F) (s3HeadK).view ((s3V).view.writes (Elt F) f3
    ((⟨Rect.unit ![0] S16.size inb_S16_S16_0, sumOf G d L hc f5⟩ : View.Piece (Elt F) S16 .f32) :: rowPieces m d L f4 acc)))

/-- What the two whole-array functions must be at this tile: the staging array's row what the tile's copy lands there, and
    on tile 0 the result's half what the last copy lands there — whatever the scratch held before. -/
structure TileSpec : Prop where
  row : ∀ acc, acc = accIter m d L (k0_t1_loop L).trips → ∀ f3 f4, ∀ i ∈ (stRowK L).view.set,
    (stRowK L).view.writes (Elt F) (m (stLoc d)) [⟨Rect.whole S16, rowDma m d L acc f3 f4⟩] i = G d i
  out : ∀ acc, acc = accIter m d L (k0_t1_loop L).trips → ∀ (hc : k0_cond1 L = 1#1) f3 f4 f5, ∀ i ∈ (outHalfK L hc).view.set,
    (outHalfK L hc).view.writes (Elt F) (m (outLoc d)) [⟨Rect.whole S8, outDma m G d L acc hc f3 f4 f5⟩] i = Gout d i

set_option maxHeartbeats 4000000 in
/-- The task on tile (L 0, L 1) of device d: the fetches and their waits, the loop by its invariant, the stores and the
    sixteen indexed loads, the row copied to the staging array and waited for, the barrier (the row handed to tile 0's
    round), and on tile 0 the core's half fetched, summed and its first eight words copied to the result. -/
theorem tile_body (hF : (K (F := F)).Facts) (hS : TileSpec m G d L Gout) (q : PosShare TreeShare) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit G d (cV L) (jV L)
        ∗ goRes m d q (cL L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__seg_sum_body L neV (Memref.isWhole_whole _) lgV (Memref.isWhole_whole _) sgV (Memref.isWhole_whole _) outV (Memref.isWhole_whole _)
            stV (Memref.isWhole_whole _) s0V (Memref.isWhole_whole _) s1V (Memref.isWhole_whole _) s2V (Memref.isWhole_whole _)
            s3V (Memref.isWhole_whole _) s4V (Memref.isWhole_whole _) s5V (Memref.isWhole_whole _)
            cc0_scratch6 cc0_scratch7 cc0_scratch8 cc0_scoped0 cc0_scoped1 cc0_scoped2)
          fun _ => iprop(tdRes m G d Gout q (cL L) (jL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__seg_sum_body_eq_skeleton]; unfold cc0__seg_sum_body_skel
  rw [(K (F := F)).scopedBufs_V hF d (cV L) (jV L), SparseCore.Cfg.scopedSems0_V (Val := Elt F) d (cV L) (jV L), ownSems0_V, ownBufs_V]
  unfold bkit goRes tdRes
  iintro ⟨#Hlv, ⟨⟨%κ, #Hinv⟩, Htoks, #Hrch, Hat, Hcred⟩, ⟨⟨Hne, Hlg, Hsg⟩, Hst, Hout⟩,
    ⟨⟨%f0, H0⟩, ⟨%f1, H1⟩, ⟨%f2, H2⟩, ⟨%f3, H3⟩, ⟨%f4, H4⟩, ⟨%f5, H5⟩, Hbufs⟩, ⟨Hs6, Hs7, Hs8, Hs9, Hs10, Hs11, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hne' := (Entails.of_eq (pts_neV (F := F) d L q _).symm) $$ Hne
  ihave Hlg' := (Entails.of_eq (pts_lgV (F := F) d L q _).symm) $$ Hlg
  ihave Hsg' := (Entails.of_eq (pts_sgV (F := F) d L q _).symm) $$ Hsg
  ihave Hst' := (Entails.of_eq (pts_stRowK (F := F) d L _).symm) $$ Hst
  ihave H0' := (Entails.of_eq (pts_s0V (F := F) d L _).symm) $$ H0
  ihave H1' := (Entails.of_eq (pts_s1V (F := F) d L _).symm) $$ H1
  ihave H2' := (Entails.of_eq (pts_s2V (F := F) d L _).symm) $$ H2
  ihave H3' := (Entails.of_eq (pts_s3V (F := F) d L _).symm) $$ H3
  ihave H4' := (Entails.of_eq (pts_s4V (F := F) d L _).symm) $$ H4
  ihave H5' := (Entails.of_eq (pts_s5V (F := F) d L _).symm) $$ H5
  -- the three fetches and their waits
  sl_exec
  -- the loop
  sl_for (inv m d L) $$ [H0' H1' H2']
  case region =>
    intro k hk
    unfold inv
    iintro ⟨H0, H1, H2, %hacc⟩
    sl_exec
    sl_step
    isplitl [H0]; · iexact H0
    isplitl [H1]; · iexact H1
    isplitl [H2]; · iexact H2
    ipureintro
    rw [accIter_succ m d L k.val k.isLt, ← hacc]
    rfl
  · unfold inv
    rw [View.write_whole_univ, View.write_whole_univ, View.write_whole_univ]
    isplitl [H0']; · iexact H0'
    isplitl [H1']; · iexact H1'
    isplitl [H2']; · iexact H2'
    ipureintro; exact (accIter_zero m d L).symm
  iintro %acc HI
  unfold inv
  icases HI with ⟨H0, H1, H2, %hacc⟩
  have htr2 := trips2_zero L
  -- the last vector, the eight rows stored, the first index check
  sl_exec
  -- the sixteen indexed loads, each a load of the whole 8×16 scratch
  ihave H4a := (Entails.of_eq (pts_s4V_access (F := F) d L _).symm) $$ H4'
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  iapply (SparseCore.wp_vectorLoadIdx 𝒱₀ (V d (cV L) (jV L)) none Set.univ (base := (s4V : Memref sig .scVector .vmem S8x16 .f32)) (S := Finset.univ) (q := fullShare) (Finset.subset_univ _)) $$ H4a; iintro H4a
  sl_exec
  -- the written row is the whole-array function's
  ihave Hst'' := (Entails.of_eq (pointsTo_congr (q := fullShare) (hS.row acc hacc f3 f4))) $$ Hst'
  -- the barrier: the row handed to tile 0's round
  ihave Hpays := ((Entails.of_eq (pts_stRowK (F := F) d L _)).trans (pays_intro (F := F) G d L)) $$ Hst''
  iapply (SparseCore.wp_subcoreBarrier 𝒱₀ none EB (bRd (F := F) G) d (sc := cV L) (i := jV L) sc_bar0 (grid0.bound 1) hsub0 (L 1) rfl κ (fun _ => 0) (jV L).val
      (fun j => bRd_mem₀ G d _ _ _) (fun _ => rfl) (bRd_expect G d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  by_cases h0 : (L 1).val = 0
  · have hc : k0_cond1 L = 1#1 := (k0_cond1_iff L).mpr h0
    ihave Hout0 := (Entails.of_eq (if_pos (show (jL L).val = 0 from h0))) $$ Hout
    ihave Hrows := (pays_elim (F := F) G d L h0) $$ Hgot
    -- the sixteen rows are the core's half of the staging array
    ihave Hhalf := (Entails.of_eq ((pointsTo_biUnion (q := fullShare) (f := G d) (Finset.univ : Finset (Fin 16)) (fun i => stRow (tileNo (cL L) i)) (stHalf_rows_disjoint (cL L))).symm.trans
      ((congrArg (fun S => (stLoc d ↦[S]{fullShare} G d : sProp 𝕄)) (stHalf_rows (cL L))).trans (pts_stHalfK (F := F) d L hc (G d)).symm))) $$ Hrows
    ihave Hout' := (Entails.of_eq (pts_outHalfK (F := F) d L hc _).symm) $$ Hout0
    -- the half fetched, its sixteen rows added, the first eight sums copied out
    sl_exec
    ihave Hout1 := (Entails.of_eq (pointsTo_congr (q := fullShare) (hS.out acc hacc hc f3 f4 f5))) $$ Hout'
    ihave Hout'' := (Entails.of_eq (pts_outHalfK (F := F) d L hc _)) $$ Hout1
    ihave Hhalf' := (Entails.of_eq (pts_stHalfK (F := F) d L hc _)) $$ Hhalf
    sl_step
    isplitl [Hne' Hlg' Hsg' Hout'' Hhalf']
    · isplitl [Hne' Hlg' Hsg']
      · isplitl [Hne']; · iexact Hne'
        isplitl [Hlg']; · iexact Hlg'
        iexact Hsg'
      iapply (Entails.of_eq (if_pos (show (jL L).val = 0 from h0)).symm)
      isplitl [Hout'']; · iexact Hout''
      iexact Hhalf'
    isplitl [H0 H1 H2 H3' H4a H5' Hbufs]
    · isplitl [H0]; · iexists _; iexact H0
      isplitl [H1]; · iexists _; iexact H1
      isplitl [H2]; · iexists _; iexact H2
      isplitl [H3']; · iexists _; iexact H3'
      isplitl [H4a]; · iexists _; iexact H4a
      isplitl [H5']; · iexists _; iexact H5'
      iexact Hbufs
    isplitl [Hs6 Hs7 Hs8 Hs9 Hs10 Hs11 Hsems]
    · isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      iexact Hsems
    iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inr (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact .inl hp
  · have hc : ¬ k0_cond1 L = 1#1 := fun h => h0 ((k0_cond1_iff L).mp h)
    ihave Hout0 := (Entails.of_eq (if_neg (show ¬ (jL L).val = 0 from h0))) $$ Hout
    sl_exec
    sl_step
    isplitl [Hne' Hlg' Hsg']
    · isplitl [Hne' Hlg' Hsg']
      · isplitl [Hne']; · iexact Hne'
        isplitl [Hlg']; · iexact Hlg'
        iexact Hsg'
      iapply (Entails.of_eq (if_neg (show ¬ (jL L).val = 0 from h0)).symm)
      iempintro
    isplitl [H0 H1 H2 H3' H4a H5' Hbufs]
    · isplitl [H0]; · iexists _; iexact H0
      isplitl [H1]; · iexists _; iexact H1
      isplitl [H2]; · iexists _; iexact H2
      isplitl [H3']; · iexists _; iexact H3'
      isplitl [H4a]; · iexists _; iexact H4a
      isplitl [H5']; · iexists _; iexact H5'
      iexact Hbufs
    isplitl [Hs6 Hs7 Hs8 Hs9 Hs10 Hs11 Hsems]
    · isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      iexact Hsems
    iexists _; isplitr
    swap; · iexact HO
    ipureintro; intro p hp
    rcases Finset.mem_insert.mp hp with hp | hp; · exact .inr (.inr (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact .inl hp

end Cert.KernelIdeal.SegSum

end
-- ==== Proof.SegLaunch.lean ====
import proofs.«209885_g3178275799312_cont_8to1_b_553_16_alg».proof.Proof.SegBody

/-!
# The launch: thirty-two tasks, two sequencers, one TensorCore

What the handshakes carry (each SparseCore a read share of the three inputs, its half of the staging array and of the
result; each task a read share, its row, and on tile 0 the result's half), the tasks' obligation, the split of a
SparseCore's operands among its tasks, the launch element of the ghost state (the barrier cells' invariants allocated at
once, each tile dealt its kit), @main on the TensorCore, and the program's run with every result named.
-/

noncomputable section

namespace Cert.KernelIdeal.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg) (G : StageVal (F := F)) (Gout : (d : Dev nD) → Buf (Elt F) (outLoc d))

/-! ## The read shares -/

/-- SparseCore c's read share of an input, and tile i's of that. -/
def qC (c : Fin 2) : PosShare TreeShare := Transfers.shareTok fullShare 2 c
def qT (c : Fin 2) (i : Fin 16) : PosShare TreeShare := Transfers.shareTok (qC c) 16 i

/-- What a SparseCore is handed: a read share of the inputs, its half of the staging array and of the result. -/
def stRes (d : Dev nD) (c : Fin 2) : sProp 𝕄 :=
  iprop(((neLoc d ↦{qC c} m (neLoc d)) ∗ (lgLoc d ↦{qC c} m (lgLoc d)) ∗ (sgLoc d ↦{qC c} m (sgLoc d)))
    ∗ (stLoc d ↦[stHalf c]{fullShare} m (stLoc d)) ∗ outLoc d ↦[outHalf c]{fullShare} m (outLoc d))
/-- What it hands back: the share, the halves written. -/
def dnRes (d : Dev nD) (c : Fin 2) : sProp 𝕄 :=
  iprop(((neLoc d ↦{qC c} m (neLoc d)) ∗ (lgLoc d ↦{qC c} m (lgLoc d)) ∗ (sgLoc d ↦{qC c} m (sgLoc d)))
    ∗ (stLoc d ↦[stHalf c]{fullShare} G d) ∗ outLoc d ↦[outHalf c]{fullShare} Gout d)

/-- Every tile's computation is the two whole-array functions'. -/
def Spec : Prop := ∀ (d : Dev nD) (L : grid0.Coords), TileSpec m G d L Gout

def P : (K (F := F)).Pay (nD := nD) (Val := Elt F) (Name := ℕ) (U := UU) where
  st := fun q d c => match q with | 0 => stRes m d (Fin.cast nCore_zero c)
  dn := fun q d c => match q with | 0 => dnRes m G Gout d (Fin.cast nCore_zero c)
  go := fun q d c i => match q with
    | 0 => goRes m d (qT (Fin.cast nCore_zero c) (Fin.cast nSub_zero i)) (Fin.cast nCore_zero c) (Fin.cast nSub_zero i)
  td := fun q d c i => match q with
    | 0 => tdRes m G d Gout (qT (Fin.cast nCore_zero c) (Fin.cast nSub_zero i)) (Fin.cast nCore_zero c) (Fin.cast nSub_zero i)
  x := fun _ thr => match thr with
    | (d, .scVector c i) => bkit G d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance goRes_storable (d : Dev nD) (q : PosShare TreeShare) (c : Fin 2) (i : Fin 16) : BI.Storable (upEmb : UEmb _ 𝕄) (goRes m d q c i) := by
  unfold goRes; split <;> infer_instance
instance tdRes_storable (d : Dev nD) (q : PosShare TreeShare) (c : Fin 2) (i : Fin 16) : BI.Storable (upEmb : UEmb _ 𝕄) (tdRes m G d Gout q c i) := by
  unfold tdRes; split <;> infer_instance

instance P_storable : (P (F := F) m G Gout).IsStorable where
  st q d c := match q with
    | 0 => (inferInstance : BI.Storable (upEmb : UEmb _ 𝕄) iprop(((neLoc d ↦{qC (Fin.cast nCore_zero c)} m (neLoc d)) ∗ (lgLoc d ↦{qC (Fin.cast nCore_zero c)} m (lgLoc d)) ∗ (sgLoc d ↦{qC (Fin.cast nCore_zero c)} m (sgLoc d)))
        ∗ (stLoc d ↦[stHalf (Fin.cast nCore_zero c)]{fullShare} m (stLoc d)) ∗ outLoc d ↦[outHalf (Fin.cast nCore_zero c)]{fullShare} m (outLoc d)))
  dn q d c := match q with
    | 0 => (inferInstance : BI.Storable (upEmb : UEmb _ 𝕄) iprop(((neLoc d ↦{qC (Fin.cast nCore_zero c)} m (neLoc d)) ∗ (lgLoc d ↦{qC (Fin.cast nCore_zero c)} m (lgLoc d)) ∗ (sgLoc d ↦{qC (Fin.cast nCore_zero c)} m (sgLoc d)))
        ∗ (stLoc d ↦[stHalf (Fin.cast nCore_zero c)]{fullShare} G d) ∗ outLoc d ↦[outHalf (Fin.cast nCore_zero c)]{fullShare} Gout d))
  go q d c i := match q with
    | 0 => goRes_storable m d _ _ _
  td q d c i := match q with
    | 0 => tdRes_storable m G Gout d _ _ _

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__seg_sum_body (coordsV c s)
          neV (Memref.isWhole_whole _) lgV (Memref.isWhole_whole _) sgV (Memref.isWhole_whole _) outV (Memref.isWhole_whole _)
          stV (Memref.isWhole_whole _) s0V (Memref.isWhole_whole _) s1V (Memref.isWhole_whole _) s2V (Memref.isWhole_whole _)
          s3V (Memref.isWhole_whole _) s4V (Memref.isWhole_whole _) s5V (Memref.isWhole_whole _)
          cc0_scratch6 cc0_scratch7 cc0_scratch8 cc0_scoped0 cc0_scoped1 cc0_scoped2) ⟨⟩ c s := rfl

set_option maxRecDepth 16384 in
theorem tileObl (hF : (K (F := F)).Facts) (hS : Spec m G Gout) : (K (F := F)).TileObl (D (F := F)) 𝒱 (P m G Gout) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m G d (coordsV ⟨_, hci.1⟩ ⟨_, hci.2⟩) Gout hF (hS d _) _ O W hO hOlev

/-! ## A SparseCore's operands split among its tasks, and join -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- What only tile 0 holds, among the sixteen. -/
theorem only_zero_intro (X : sProp 𝕄) : X ⊢ bigSep Finset.univ fun i : Fin 16 => if i.val = 0 then X else iprop(emp) := by
  rw [SparseCore.bigSep_erase' (Finset.mem_univ (0 : Fin 16)),
    show (bigSep (Finset.univ.erase (0 : Fin 16)) fun i : Fin 16 => if i.val = 0 then X else iprop(emp))
      = bigSep (Finset.univ.erase (0 : Fin 16)) fun _ => (iprop(emp) : sProp 𝕄) from
      bigSep_congr fun i hi => if_neg fun h => (Finset.mem_erase.mp hi).1 (Fin.ext h), bigSep_emp']
  iintro H
  isplitl [H]
  · rw [if_pos (show ((0 : Fin 16) : Fin 16).val = 0 from rfl)]; iexact H
  · iempintro
omit [FloatOps F] in
theorem only_zero_elim (X : sProp 𝕄) : (bigSep Finset.univ fun i : Fin 16 => if i.val = 0 then X else iprop(emp)) ⊢ X := by
  refine (bigSep_elim (i := (0 : Fin 16)) (Finset.mem_univ _)).trans ?_
  rw [if_pos (show ((0 : Fin 16) : Fin 16).val = 0 from rfl)]
  exact BI.Entails.refl _

omit [FloatOps F] in
/-- An input under a SparseCore's share is what stays with the sequencer and the sixteen tasks' shares. -/
theorem share_tasks (ℓ : Loc nD τ sig) (f : Buf (Elt F) ℓ) (c : Fin 2) :
    (ℓ ↦{qC c} f : sProp 𝕄) ⊣⊢ iprop((ℓ ↦{Transfers.shareDrop (qC c) 16} f) ∗ bigSep Finset.univ fun i : Fin 16 => ℓ ↦{qT c i} f) :=
  Transfers.pointsTo_toks (ℓ := ℓ) (S := Finset.univ) (f := f) (qC c) 16

omit [FloatOps F] in
theorem stHalf_split (d : Dev nD) (c : Fin 2) (f : Buf (Elt F) (stLoc d)) :
    (stLoc d ↦[stHalf c]{fullShare} f : sProp 𝕄) = bigSep Finset.univ fun i : Fin 16 => stRowPts d (tileNo c i) f := by
  rw [← stHalf_rows c]
  exact pointsTo_biUnion (q := fullShare) (f := f) (Finset.univ : Finset (Fin 16)) (fun i => stRow (tileNo c i)) (stHalf_rows_disjoint c)

theorem vecSplit : (K (F := F)).VecSplit' (P m G Gout) 0 := by
  intro d c
  show stRes m d (Fin.cast nCore_zero c) ⊢ |={Set.univ}=> iprop(
      (bigSep Finset.univ fun i : Fin ((K (F := F)).nSub 0) =>
        goRes m d (qT (Fin.cast nCore_zero c) (Fin.cast nSub_zero i)) (Fin.cast nCore_zero c) (Fin.cast nSub_zero i))
      ∗ ((bigSep Finset.univ fun i : Fin ((K (F := F)).nSub 0) =>
            tdRes m G d Gout (qT (Fin.cast nCore_zero c) (Fin.cast nSub_zero i)) (Fin.cast nCore_zero c) (Fin.cast nSub_zero i))
          -∗ dnRes m G Gout d (Fin.cast nCore_zero c)))
  generalize Fin.cast nCore_zero c = c'
  rw [bigSep_tasks (F := F) (fun i => goRes m d (qT c' i) c' i), bigSep_tasks (F := F) (fun i => tdRes m G d Gout (qT c' i) c' i)]
  unfold stRes dnRes goRes tdRes
  rw [bigSep_sep', bigSep_sep', bigSep_sep', bigSep_sep', bigSep_sep', bigSep_sep', bigSep_sep']
  iintro ⟨⟨Hne, Hlg, Hsg⟩, Hst, Hout⟩
  ihave Hne' := ((share_tasks (F := F) (neLoc d) (m (neLoc d)) c').1) $$ Hne
  ihave Hlg' := ((share_tasks (F := F) (lgLoc d) (m (lgLoc d)) c').1) $$ Hlg
  ihave Hsg' := ((share_tasks (F := F) (sgLoc d) (m (sgLoc d)) c').1) $$ Hsg
  icases Hne' with ⟨HneD, HneT⟩
  icases Hlg' with ⟨HlgD, HlgT⟩
  icases Hsg' with ⟨HsgD, HsgT⟩
  ihave Hst' := (Entails.of_eq (stHalf_split (F := F) d c' (m (stLoc d)))) $$ Hst
  ihave Hout' := (only_zero_intro (F := F) (outLoc d ↦[outHalf c']{fullShare} m (outLoc d))) $$ Hout
  imodintro
  isplitl [HneT HlgT HsgT Hst' Hout']
  · isplitl [HneT HlgT HsgT]
    · isplitl [HneT]; · iexact HneT
      isplitl [HlgT]; · iexact HlgT
      iexact HsgT
    isplitl [Hst']; · iexact Hst'
    iexact Hout'
  iintro ⟨⟨HneT, HlgT, HsgT⟩, Hres⟩
  ihave Hres' := (only_zero_elim (F := F) iprop((outLoc d ↦[outHalf c']{fullShare} Gout d) ∗ stLoc d ↦[stHalf c']{fullShare} G d)) $$ Hres
  icases Hres' with ⟨HoutG, HstG⟩
  isplitl [HneD HneT HlgD HlgT HsgD HsgT]
  · isplitl [HneD HneT]
    · iapply ((share_tasks (F := F) (neLoc d) (m (neLoc d)) c').2)
      isplitl [HneD]; · iexact HneD
      iexact HneT
    isplitl [HlgD HlgT]
    · iapply ((share_tasks (F := F) (lgLoc d) (m (lgLoc d)) c').2)
      isplitl [HlgD]; · iexact HlgD
      iexact HlgT
    iapply ((share_tasks (F := F) (sgLoc d) (m (sgLoc d)) c').2)
    isplitl [HsgD]; · iexact HsgD
    iexact HsgT
  isplitl [HstG]; · iexact HstG
  iexact HoutG

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile i's token in tile j's cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) G) g 0)
    ⊢ |={Set.univ}=> iprop(∃ κ : GSem nD τ sig → ℕ, bigSep bCells fun g => cellInv EB (bRd (F := F) G) (κ g) g) := by
  refine (Rounds.bodies_intro EB (bRd (F := F) G) bCells).trans ((inv_alloc_family bCells (Rounds.body EB (bRd (F := F) G)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P (F := F) m G Gout).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m G Gout).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m G Gout).oxFrom 0 (V d c i) = oxV d c := fun i => by
    rw [show (0 : ℕ) = (0 : Fin 1).val from rfl, (P m G Gout).oxFrom_step, (P m G Gout).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m G Gout).x q (SparseCore.T d)) = iprop(emp) :=
  bigSep_univ_of_subsingleton (0 : Fin 1)
theorem Px_S (d : Dev nD) (c : Fin τ.nSC) : (bigSep Finset.univ fun q : Fin 1 => (P (F := F) m G Gout).x q (S d c)) = iprop(emp) :=
  bigSep_univ_of_subsingleton (0 : Fin 1)
theorem Px_V (d : Dev nD) (c : Fin τ.nSC) (i : Fin τ.nSub) :
    (bigSep Finset.univ fun q : Fin 1 => (P (F := F) m G Gout).x q (V d c i)) = bkit G d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) G) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) G ∗ mine dci) ⊢ (bkit (F := F) G dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) G) (κ (bcell₃ x)) (bcell₃ x)) fun j _ =>
        sep_elim_left.trans (bigSep_elim (Φ := fun x : DCI => (cellInv EB (bRd (F := F) G) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) G ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m G Gout).x q thr : sProp 𝕄) := by
  rw [SparseCore.Cfg.bigSep_threads (fun thr : Thread nD τ => bigSep Finset.univ fun q : Fin 1 => (P m G Gout).x q thr)]
  simp only [Px_T, Px_S, Px_V, bigSep_emp']
  iintro ⟨#Hsh, Hat, Htok, Hcred⟩
  isplitr; · iempintro
  isplitr; · iempintro
  iapply (bigSep_mono_frame (R := shared (F := F) G) (Φ := mine (F := F)) fun dci _ => kit_intro (F := F) G dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m G Gout).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m G Gout).x q thr) : sProp 𝕄) := by
  unfold u₀
  iintro ⟨Hu, Hcred, Hfree⟩
  ihave H := (ownU_split _ _) $$ Hu
  icases H with ⟨HH, HB⟩
  imod (Rounds.fund EB (bRd (F := F) G) bCells bToks) $$ HB with ⟨Hst, #Hr, Hat, Htok⟩
  ihave Hsems := (sems_b (F := F)) $$ Hfree
  imod (invs_b (F := F) G) $$ [Hsems Hst] with ⟨%κ, #Hinv⟩
  · isplitl [Hsems] <;> iassumption
  ihave Hcred' := (creds_b m G Gout) $$ Hcred
  ihave Hinv' := (Entails.of_eq (bCells_eq (F := F) fun g => cellInv EB (bRd (F := F) G) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m G Gout)
  isplitr
  · isplitl; · iexists κ; iexact Hinv'
    iexact Hr'
  isplitl [Hat']; · iexact Hat'
  isplitl [Htok']; · iexact Htok'
  iexact Hcred'

/-! ## @main on the TensorCore -/

abbrev cst' : DevRef τ sig := Proc.devRef .tc (main_cst : Ref sig .tc)
abbrev v1' : DevRef τ sig := Proc.devRef .tc (main_v1 : Ref sig .tc)
abbrev opCst : HloOp τ sig (Elt F) := StableHlo.nullary main_cst (constant S_ .f32 0x00000000#32)
abbrev opBc : HloOp τ sig (Elt F) :=
  StableHlo.unary main_cst main_v1 (broadcastInDim S16x3x3 ![] bcast_S_S16x3x3 : (⟨S_, .f32⟩ : BufTy).Contents (Elt F) → (⟨S16x3x3, .f32⟩ : BufTy).Contents (Elt F))
/-- The two arrays the host operations after the call touch. -/
abbrev S2 : Finset (DevRef τ sig) := {cst', v1'}

omit [FloatOps F] in
theorem held_S2 (d : Dev nD) (W : Valuation τ sig (Elt F)) :
    (held (T d) S2 W : sProp 𝕄) = iprop(((SparseCore.T d).loc main_cst ↦{fullShare} W cst') ∗ (SparseCore.T d).loc main_v1 ↦{fullShare} W v1') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_arg3 ↦{fullShare} W main_arg3) ∗ ((SparseCore.T d).loc main_arg4 ↦{fullShare} W main_arg4) ∗ ((SparseCore.T d).loc main_arg5 ↦{fullShare} W main_arg5) ∗ ((SparseCore.T d).loc main_arg6 ↦{fullShare} W main_arg6) ∗ ((SparseCore.T d).loc main_v0_0 ↦{fullShare} W main_v0_0) ∗ ((SparseCore.T d).loc main_v0_1 ↦{fullShare} W main_v0_1) ∗ ((SparseCore.T d).loc main_cst ↦{fullShare} W main_cst) ∗ ((SparseCore.T d).loc main_v1 ↦{fullShare} W main_v1)) := by
  unfold unscopedBufs
  rw [show (Finset.univ.filter fun b : Ref sig .tc => ¬ b.isScoped) = {main_arg0, main_arg1, main_arg2, main_arg3, main_arg4, main_arg5, main_arg6, main_v0_0, main_v0_1, main_cst, main_v1} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The launch valuation. -/
def V0 (d : Dev nD) : Valuation τ sig (Elt F) := fun b => m (d, b)

theorem st0_eq (d : Dev nD) : (bigSep Finset.univ fun c : Fin ((K (F := F)).nCore 0) => (P m G Gout).st 0 d c) = iprop(stRes m d 0 ∗ stRes m d 1) := by
  show (bigSep (Finset.univ : Finset (Fin 2)) fun c => stRes m d (Fin.cast nCore_zero c)) = _
  rw [show (Finset.univ : Finset (Fin 2)) = {0, 1} by decide, SparseCore.bigSep_insert' (by decide), bigSep_singleton]
  rfl
theorem dn0_eq (d : Dev nD) : (bigSep Finset.univ fun c : Fin ((K (F := F)).nCore 0) => (P m G Gout).dn 0 d c) = iprop(dnRes m G Gout d 0 ∗ dnRes m G Gout d 1) := by
  show (bigSep (Finset.univ : Finset (Fin 2)) fun c => dnRes m G Gout d (Fin.cast nCore_zero c)) = _
  rw [show (Finset.univ : Finset (Fin 2)) = {0, 1} by decide, SparseCore.bigSep_insert' (by decide), bigSep_singleton]
  rfl

omit [FloatOps F] in
/-- An input whole is what stays with the TensorCore and the two SparseCores' shares. -/
theorem share_cores (ℓ : Loc nD τ sig) (f : Buf (Elt F) ℓ) :
    (ℓ ↦{fullShare} f : sProp 𝕄) ⊣⊢ iprop((ℓ ↦{Transfers.shareDrop fullShare 2} f) ∗ (ℓ ↦{qC 0} f) ∗ ℓ ↦{qC 1} f) := by
  have h : (ℓ ↦{fullShare} f : sProp 𝕄) ⊣⊢ iprop((ℓ ↦{Transfers.shareDrop fullShare 2} f) ∗ bigSep Finset.univ fun i : Fin 2 => ℓ ↦{Transfers.shareTok fullShare 2 i} f) :=
    Transfers.pointsTo_toks (ℓ := ℓ) (S := Finset.univ) (f := f) fullShare 2
  rw [show (Finset.univ : Finset (Fin 2)) = {0, 1} by decide, SparseCore.bigSep_insert' (by decide), bigSep_singleton] at h
  exact h

omit [FloatOps F] in
theorem stHalves_disjoint : ∀ c ∈ (Finset.univ : Finset (Fin 2)), ∀ c' ∈ (Finset.univ : Finset (Fin 2)), c ≠ c' → Disjoint (stHalf c) (stHalf c') := by
  intro c _ c' _ h
  rw [Finset.disjoint_left]; intro x hx hx'
  rw [mem_stHalf] at hx hx'
  exact h (Fin.ext (by omega))
omit [FloatOps F] in
theorem stHalves_cover : (Finset.univ : Finset (Fin 2)).biUnion stHalf = Finset.univ := by
  ext x
  simp only [Finset.mem_biUnion, Finset.mem_univ, true_and, iff_true]
  have hx : (x 0).val < 512 := (x 0).isLt
  exact ⟨⟨(x 0).val / 256, by omega⟩, mem_stHalf.mpr ⟨by show 256 * ((x 0).val / 256) ≤ _; omega, by show _ < 256 * ((x 0).val / 256) + 256; omega⟩⟩

omit [FloatOps F] in
theorem st_halves (d : Dev nD) (f : Buf (Elt F) (stLoc d)) :
    (stLoc d ↦{fullShare} f : sProp 𝕄) = iprop((stLoc d ↦[stHalf 0]{fullShare} f) ∗ stLoc d ↦[stHalf 1]{fullShare} f) := by
  rw [show (stLoc d ↦{fullShare} f : sProp 𝕄) = (stLoc d ↦[(Finset.univ : Finset (Fin 2)).biUnion stHalf]{fullShare} f) by rw [stHalves_cover],
    pointsTo_biUnion Finset.univ (ℓ := stLoc d) stHalf stHalves_disjoint,
    show (Finset.univ : Finset (Fin 2)) = {0, 1} by decide, SparseCore.bigSep_insert' (by decide), bigSep_singleton]
omit [FloatOps F] in
theorem out_halves (d : Dev nD) (f : Buf (Elt F) (outLoc d)) :
    (outLoc d ↦{fullShare} f : sProp 𝕄) = iprop((outLoc d ↦[outHalf 0]{fullShare} f) ∗ outLoc d ↦[outHalf 1]{fullShare} f) := by
  rw [show (outLoc d ↦{fullShare} f : sProp 𝕄) = (outLoc d ↦[(Finset.univ : Finset (Fin 2)).biUnion outHalf]{fullShare} f) by rw [outHalves_cover],
    pointsTo_biUnion Finset.univ (ℓ := outLoc d) outHalf outHalves_disjoint,
    show (Finset.univ : Finset (Fin 2)) = {0, 1} by decide, SparseCore.bigSep_insert' (by decide), bigSep_singleton]

theorem hCst : (opCst (F := F)).bufs ⊆ S2 := show ({cst'} : Finset (DevRef τ sig)) ⊆ S2 by decide
theorem hBc : (opBc (F := F)).bufs ⊆ S2 := show ({cst', v1'} : Finset (DevRef τ sig)) ⊆ S2 by decide

/-- What @main leaves the claim: the seven arguments at their launch contents, the sums, the zero block. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)) ∗ ((SparseCore.T d).loc main_arg5 ↦{fullShare} m ((SparseCore.T d).loc main_arg5))
    ∗ ((SparseCore.T d).loc main_arg6 ↦{fullShare} m ((SparseCore.T d).loc main_arg6))
    ∗ (outLoc d ↦{fullShare} Gout d)
    ∗ ((SparseCore.T d).loc main_v1 ↦{fullShare} (broadcastInDim S16x3x3 ![] bcast_S_S16x3x3 (constant S_ .f32 0x00000000#32) : (⟨S16x3x3, .f32⟩ : BufTy).Contents (Elt F))))

/-- @main on device d's TensorCore: the call (the library's wp_run, each SparseCore handed its shares and halves), then
    the constant and its broadcast. -/
theorem hmain (κ : GSem nD τ sig → ℕ) (d : Dev nD) :
    iprop((K (F := F)).ctx EH (P m G Gout) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m Gout d) := by
  unfold SparseCore.Cfg.tcRes
  rw [unscopedBufs_eq]
  simp only [main, wp_bind, wp_pure]
  iintro ⟨#Hctx, Hst, ⟨Hb, ⟨Ha0, Ha1, Ha2, Ha3, Ha4, Ha5, Ha6, Ho, Hs, Hcst, Hv1⟩, -, -⟩, -⟩
  ihave Ha0' := ((share_cores (F := F) _ _).1) $$ Ha0
  ihave Ha1' := ((share_cores (F := F) _ _).1) $$ Ha1
  ihave Ha2' := ((share_cores (F := F) _ _).1) $$ Ha2
  icases Ha0' with ⟨Ha0D, Ha0a, Ha0b⟩
  icases Ha1' with ⟨Ha1D, Ha1a, Ha1b⟩
  icases Ha2' with ⟨Ha2D, Ha2a, Ha2b⟩
  ihave Hs' := (Entails.of_eq (st_halves (F := F) d _)) $$ Hs
  icases Hs' with ⟨Hsa, Hsb⟩
  ihave Ho' := (Entails.of_eq (out_halves (F := F) d _)) $$ Ho
  icases Ho' with ⟨Hoa, Hob⟩
  iapply ((K (F := F)).wp_run (D (F := F)) 𝒱 (EH := EH) (P := P m G Gout) κ d 0) $$ [Hst Ha0a Ha0b Ha1a Ha1b Ha2a Ha2b Hsa Hsb Hoa Hob Ha0D Ha1D Ha2D Ha3 Ha4 Ha5 Ha6 Hb Hcst Hv1]
  isplitr; · iexact Hctx
  isplitl [Hst]; · iexact Hst
  isplitl [Ha0a Ha0b Ha1a Ha1b Ha2a Ha2b Hsa Hsb Hoa Hob]
  · rw [st0_eq]; unfold stRes
    isplitl [Ha0a Ha1a Ha2a Hsa Hoa]
    · isplitl [Ha0a Ha1a Ha2a]
      · isplitl [Ha0a]; · iexact Ha0a
        isplitl [Ha1a]; · iexact Ha1a
        iexact Ha2a
      isplitl [Hsa]; · iexact Hsa
      iexact Hoa
    · isplitl [Ha0b Ha1b Ha2b]
      · isplitl [Ha0b]; · iexact Ha0b
        isplitl [Ha1b]; · iexact Ha1b
        iexact Ha2b
      isplitl [Hsb]; · iexact Hsb
      iexact Hob
  iintro ⟨Hst, Hdn⟩
  ihave Hdn' := (Entails.of_eq (dn0_eq m G Gout d)) $$ Hdn
  unfold dnRes
  icases Hdn' with ⟨⟨⟨Ha0a, Ha1a, Ha2a⟩, -, Hoa⟩, ⟨⟨Ha0b, Ha1b, Ha2b⟩, -, Hob⟩⟩
  ihave Ha0 := ((share_cores (F := F) _ _).2) $$ [Ha0D Ha0a Ha0b]
  · isplitl [Ha0D]; · iexact Ha0D
    isplitl [Ha0a]; · iexact Ha0a
    iexact Ha0b
  ihave Ha1 := ((share_cores (F := F) _ _).2) $$ [Ha1D Ha1a Ha1b]
  · isplitl [Ha1D]; · iexact Ha1D
    isplitl [Ha1a]; · iexact Ha1a
    iexact Ha1b
  ihave Ha2 := ((share_cores (F := F) _ _).2) $$ [Ha2D Ha2a Ha2b]
  · isplitl [Ha2D]; · iexact Ha2D
    isplitl [Ha2a]; · iexact Ha2a
    iexact Ha2b
  ihave Ho := (Entails.of_eq (out_halves (F := F) d (Gout d)).symm) $$ [Hoa Hob]
  · isplitl [Hoa]; · iexact Hoa
    iexact Hob
  -- the constant and its broadcast
  iapply (wp_hlo_within 𝒱 (SparseCore.T d) none Set.univ (op := opCst) (S := S2) hCst (V := V0 m d)) $$ [Hb Hcst Hv1]
  · isplitl [Hb]; · iexact Hb
    rw [held_S2]
    isplitl [Hcst]; · iexact Hcst
    iexact Hv1
  iintro ⟨Hb, Hheld⟩
  rw [wp_ret]; imodintro
  iapply (wp_hlo_within 𝒱 (SparseCore.T d) none Set.univ (op := opBc) (S := S2) hBc (V := (opCst (F := F)).result (V0 m d))) $$ [Hb Hheld]
  · isplitl [Hb] <;> iassumption
  iintro ⟨Hb, Hheld⟩
  ihave Hh := (Entails.of_eq (held_S2 (F := F) d _)) $$ Hheld
  icases Hh with ⟨-, Hv1⟩
  rw [wp_ret]; imodintro; imodintro
  isplitl [Hst]; · iexact Hst
  unfold FIN
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ho]; · iexact Ho
  rw [StableHlo.unary_result, StableHlo.nullary_result]
  iexact Hv1

/-- What the claim reads off a final memory: the arguments as launched, the sums, the zero block. -/
def fqM (d : Dev nD) (μ : MemSt nD τ sig (Elt F)) : Prop :=
  μ.mem ((SparseCore.T d).loc main_arg0) = m ((SparseCore.T d).loc main_arg0)
  ∧ μ.mem ((SparseCore.T d).loc main_arg1) = m ((SparseCore.T d).loc main_arg1)
  ∧ μ.mem ((SparseCore.T d).loc main_arg2) = m ((SparseCore.T d).loc main_arg2)
  ∧ μ.mem ((SparseCore.T d).loc main_arg3) = m ((SparseCore.T d).loc main_arg3)
  ∧ μ.mem ((SparseCore.T d).loc main_arg4) = m ((SparseCore.T d).loc main_arg4)
  ∧ μ.mem ((SparseCore.T d).loc main_arg5) = m ((SparseCore.T d).loc main_arg5)
  ∧ μ.mem ((SparseCore.T d).loc main_arg6) = m ((SparseCore.T d).loc main_arg6)
  ∧ μ.mem (outLoc d) = Gout d
  ∧ μ.mem ((SparseCore.T d).loc main_v1) = (broadcastInDim S16x3x3 ![] bcast_S_S16x3x3 (constant S_ .f32 0x00000000#32) : (⟨S16x3x3, .f32⟩ : BufTy).Contents (Elt F))
def fq (d : Dev nD) (s' : Phys nD τ sig (Elt F)) : Prop := fqM m Gout d s'.mem

theorem hfin (d : Dev nD) (s' : Phys nD τ sig (Elt F)) : iprop(FIN m Gout d ∗ SI s') ⊢ (⌜fq m Gout d s'⌝ : sProp 𝕄) := by
  unfold FIN
  iintro ⟨⟨H0, H1, H2, H3, H4, H5, H6, Ho, Hv⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI H3]
  · isplitl [HSI] <;> iassumption
  icases H with ⟨%h3, HSI, -⟩
  ihave H := (persistent_entails_right (SI_pointsTo_agree (st := s') (ℓ := (SparseCore.T d).loc main_arg4) (I := Finset.univ) (q := fullShare) (f := m ((SparseCore.T d).loc main_arg4)))) $$ [HSI H4]
  · isplitl [HSI] <;> iassumption
  icases H with ⟨%h4, HSI, -⟩
  ihave H := (persistent_entails_right (SI_pointsTo_agree (st := s') (ℓ := (SparseCore.T d).loc main_arg5) (I := Finset.univ) (q := fullShare) (f := m ((SparseCore.T d).loc main_arg5)))) $$ [HSI H5]
  · isplitl [HSI] <;> iassumption
  icases H with ⟨%h5, HSI, -⟩
  ihave H := (persistent_entails_right (SI_pointsTo_agree (st := s') (ℓ := (SparseCore.T d).loc main_arg6) (I := Finset.univ) (q := fullShare) (f := m ((SparseCore.T d).loc main_arg6)))) $$ [HSI H6]
  · isplitl [HSI] <;> iassumption
  icases H with ⟨%h6, HSI, -⟩
  ihave H := (persistent_entails_right (SI_pointsTo_agree (st := s') (ℓ := outLoc d) (I := Finset.univ) (q := fullShare) (f := Gout d))) $$ [HSI Ho]
  · isplitl [HSI] <;> iassumption
  icases H with ⟨%ho, HSI, -⟩
  ihave H := (SI_pointsTo_agree (st := s') (ℓ := (SparseCore.T d).loc main_v1) (I := Finset.univ) (q := fullShare)) $$ [HSI Hv]
  · isplitl [HSI] <;> iassumption
  icases H with %hv
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i), funext fun i => h5 i (Finset.mem_univ i),
    funext fun i => h6 i (Finset.mem_univ i), funext fun i => ho i (Finset.mem_univ i), funext fun i => hv i (Finset.mem_univ i)⟩

/-! ## The program's run -/

/-- On every device: the arguments unchanged, the first result the sums, the fourth the zero block. -/
def QC : PUnit × MemSt nD τ sig (Elt F) → Prop := fun r => ∀ c : Dev nD, fqM m Gout c r.2

/-- Every weakly fair execution of @main on the TensorCore and of the kernel on the two SparseCores' subcores terminates,
    nothing faulting and no wait unanswered, with the results as the two whole-array functions say. -/
theorem run_main [∀ e, Nonempty (Elt F e)] (hS : Spec m G Gout) :
    θ_run (Cert.KernelIdeal.defs (F := F)) (Cert.KernelIdeal.threads (F := F)) ⟨m, fun _ => 0, ρ⟩ (QC m Gout) :=
  SparseCore.Cfg.θ_run_sc (K := K (F := F)) (D := D (F := F)) (𝒱 := 𝒱) (EH := EH) (P := P m G Gout) facts v₀
    (fun q hq => match q with | 0 => nomatch hq)
    (fun q _ => match q with | 0 => tileObl m G Gout facts hS)
    (fun q _ => match q with | 0 => SparseCore.Cfg.VecSplit.of_plain (vecSplit m G Gout))
    m ρ main (fun _ => iprop(emp)) (FIN m Gout) (u₀ (F := F)) (hu₀ m G Gout) (hmain m ρ G Gout) (fq m Gout) (hfin m Gout) (QC m Gout) (fun _ h => h)

end Cert.KernelIdeal.SegSum

end
-- ==== Proof.SegValue.lean ====
import proofs.«209885_g3178275799312_cont_8to1_b_553_16_alg».proof.Proof.SegLaunch
import Idealize.ShloMosaic.Lib.Writes
import Idealize.ShloMosaic.Lib.ValueLayout
import Idealize.ShloMosaic.Lib.ValueIdx

/-!
# The two whole-array functions

What a tile's row and a core's eight sums are, as terms free of whatever the scratch buffers held before: the 8×16
scratch after its eight row stores is the matrix of lane accumulators, the 16-word scratch after its store is the
stored vector, the 256-word scratch after the fetch is the core's half of the staging array. From these the staging
array's contents G and the result's contents are defined, tile by tile and core by core, and each tile's
computation is shown to be theirs.
-/

noncomputable section

namespace Cert.KernelIdeal.SegSum

open Cert.KernelIdeal Cert.KernelIdeal.Gen
open Idealize.ShloMosaic Idealize.ShloMosaic.ValueIdx
open Idealize.SL.Sem

variable {F : FTy → Type} [FloatOps F]
variable (m : (ℓ : Loc nD τ sig) → Buf (Elt F) ℓ) (d : Dev nD) (L : grid0.Coords)

/-! ## The 8×16 scratch is the matrix of lane accumulators -/

/-- Row g, lane l: accumulator g's lane l. -/
def accMat (acc : Acc8 F) : Vec F S8x16 .f32 := fun y => accRow m d L acc (y 0) (ix1 (y 1))

theorem piece_agree (acc : Acc8 F) (k : Fin 8) (inb : ∀ a, (![k.val, 0] : Fin 2 → Nat) a + S1x16.size a ≤ S8x16.size a)
    (x : (Rect.unit (s := S8x16) ![k.val, 0] S1x16.size inb).shape.Idx) :
    shapeCast S1x16 (accRow m d L acc k) shapeCasts_S16_S1x16 x = accMat m d L acc ((Rect.unit (s := S8x16) ![k.val, 0] S1x16.size inb).emb x) := by
  have hx0 : (x 0).val = 0 := by have := (x 0).isLt; change (x 0).val < 1 at this; omega
  have e0 : (Rect.unit (s := S8x16) ![k.val, 0] S1x16.size inb).emb x 0 = k := Fin.ext (by
    rw [Rect.emb_apply]; show k.val + 1 * (x 0).val = k.val; omega)
  have e1 : (Rect.unit (s := S8x16) ![k.val, 0] S1x16.size inb).emb x 1 = x 1 := Fin.ext (by
    rw [Rect.emb_apply]; show 0 + 1 * (x 1).val = (x 1).val; omega)
  unfold accMat
  rw [e0, e1]
  have hx : x = ix2 (x 0) (x 1) := eq_ix2 x
  rw [hx]
  exact shapeCast_a_1a_apply (accRow m d L acc k) shapeCasts_S16_S1x16 (x 0) (x 1)

theorem matOf_eq (f4 : Buf (Elt F) ((SparseCore.V d (cV L) (jV L)).loc cc0_scratch4)) (acc : Acc8 F) :
    matOf m d L f4 acc = accMat m d L acc := by
  unfold matOf
  refine (Memref.read_access_whole (Elt F) (cc0_scratch4 : Ref sig .scVector) ((s4V).view.writes (Elt F) f4 (pieces8 m d L acc))).trans ?_
  funext y
  refine View.read_writes_apply_of_pieces (v := (s4V).view) (f := f4) (accMat m d L acc) (pieces8 m d L acc) ?_ y
    (View.cover_of_tiled (pieces8 m d L acc) S1x16.size rfl y)
  intro p hp
  simp only [pieces8, List.mem_cons, List.not_mem_nil, or_false] at hp
  rcases hp with rfl | rfl | rfl | rfl | rfl | rfl | rfl | rfl
  · exact piece_agree m d L acc 7 inb_S8x16_S1x16_7_0
  · exact piece_agree m d L acc 6 inb_S8x16_S1x16_6_0
  · exact piece_agree m d L acc 5 inb_S8x16_S1x16_5_0
  · exact piece_agree m d L acc 4 inb_S8x16_S1x16_4_0
  · exact piece_agree m d L acc 3 inb_S8x16_S1x16_3_0
  · exact piece_agree m d L acc 2 inb_S8x16_S1x16_2_0
  · exact piece_agree m d L acc 1 inb_S8x16_S1x16_1_0
  · exact piece_agree m d L acc 0 inb_S8x16_S1x16_0_0

/-! ## The 16-word scratch after its store, and the tile's row -/

omit [FloatOps F] in
theorem emb16 (x : (Rect.unit (s := S16) ![0] S16.size inb_S16_S16_0).shape.Idx) :
    (Rect.unit (s := S16) ![0] S16.size inb_S16_S16_0).emb x = x := by
  funext a; apply Fin.ext
  obtain rfl : a = 0 := Subsingleton.elim _ _
  rw [Rect.emb_apply]; show 0 + 1 * (x 0).val = (x 0).val; omega

/-- Column l of the accumulator matrix gathered at rows lane & 7. -/
def gathM (acc : Acc8 F) (l : Fin 16) : Vec F S16 .f32 :=
  loadIdx (accMat m d L acc) ![k0_pay49, broadcast S16 (BitVec.ofNat 32 l.val)] (gidx_inb _ (by have := l.isLt; rw [BitVec.toNat_ofNat]; omega))

/-- The tile's row: lane j the sum over the sixteen columns of row j & 7 of the accumulator matrix. -/
def rowOfM (acc : Acc8 F) : FVec F S16 .f32 :=
  k0_pay51 (k0_pay50 (k0_pay20 (F := F)) (gathM m d L acc 0) (gathM m d L acc 1) (gathM m d L acc 2) (gathM m d L acc 3) (gathM m d L acc 4))
    (gathM m d L acc 5) (gathM m d L acc 6) (gathM m d L acc 7) (gathM m d L acc 8) (gathM m d L acc 9) (gathM m d L acc 10)
    (gathM m d L acc 11) (gathM m d L acc 12) (gathM m d L acc 13) (gathM m d L acc 14) (gathM m d L acc 15)

theorem rowOf_eq (f4 : Buf (Elt F) ((SparseCore.V d (cV L) (jV L)).loc cc0_scratch4)) (acc : Acc8 F) : rowOf m d L f4 acc = rowOfM m d L acc := by
  unfold rowOf rowOfM gath gathM
  rw [matOf_eq]

theorem rowDma_eq (acc : Acc8 F) (f3 : Buf (Elt F) ((SparseCore.V d (cV L) (jV L)).loc cc0_scratch3)) (f4 : Buf (Elt F) ((SparseCore.V d (cV L) (jV L)).loc cc0_scratch4)) :
    rowDma m d L acc f3 f4 = rowOfM m d L acc := by
  unfold rowDma rowPieces
  rw [rowOf_eq]
  funext x
  have h := View.read_writes_cons_emb (v := (s3V).view) (f := f3) (Rect.unit (s := S16) ![0] S16.size inb_S16_S16_0) (rowOfM m d L acc) [] x
  rw [emb16] at h
  exact h

/-! ## The staging array's contents -/

/-- The tile whose row holds word x of the staging array. -/
def tileOf (x : S512.Idx) : grid0.Coords :=
  coordsV ⟨(x 0).val / 256, by have := (x 0).isLt; show (x 0).val / 256 < 2; change (x 0).val < 512 at this; omega⟩
    ⟨(x 0).val / 16 % 16, by show (x 0).val / 16 % 16 < 16; omega⟩

/-- A tile's row, from the accumulators the loop leaves. -/
def rowVal (L : grid0.Coords) : S16.Idx → Elt F .f32 := rowOfM m d L (accIter m d L (k0_t1_loop L).trips)

/-- The staging array once every tile has written its row. -/
def Gst : StageVal (F := F) := fun d => ((fun x : S512.Idx => rowVal m d (tileOf x) (ix1 ⟨(x 0).val % 16, Nat.mod_lt _ (by decide)⟩)) : S512.Idx → Elt F .f32)

omit [FloatOps F] in
theorem stRowK_emb_val (y : S16.Idx) : (((stRowK L).view.emb y) 0).val = 256 * (L 0).val + 16 * (L 1).val + (y 0).val := by
  show (k0_off6 L 0) + 1 * (y 0).val = _
  rw [k0_off6_eq]; show 256 * (L 0).val + 16 * (L 1).val + 1 * (y 0).val = _; omega

omit [FloatOps F] in
theorem tileOf_emb (y : S16.Idx) : tileOf ((stRowK L).view.emb y) = L := by
  have hv := stRowK_emb_val L y
  have h0 : (L 0).val < 2 := (L 0).isLt
  have h1 : (L 1).val < 16 := (L 1).isLt
  have hy : (y 0).val < 16 := (y 0).isLt
  have e0 : (((stRowK L).view.emb y) 0).val / 256 = (L 0).val := by rw [hv]; omega
  have e1 : (((stRowK L).view.emb y) 0).val / 16 % 16 = (L 1).val := by rw [hv]; omega
  funext a
  match a with
  | 0 => exact Fin.ext e0
  | 1 => exact Fin.ext e1

theorem spec_row (acc : Acc8 F) (hacc : acc = accIter m d L (k0_t1_loop L).trips) (f3 : Buf (Elt F) ((SparseCore.V d (cV L) (jV L)).loc cc0_scratch3))
    (f4 : Buf (Elt F) ((SparseCore.V d (cV L) (jV L)).loc cc0_scratch4)) :
    ∀ i ∈ (stRowK L).view.set, (stRowK L).view.writes (Elt F) (m (stLoc d)) [⟨Rect.whole S16, rowDma m d L acc f3 f4⟩] i = Gst m d i := by
  intro i hi
  obtain ⟨y, -, rfl⟩ := Finset.mem_map.mp hi
  rw [rowDma_eq, hacc]
  have h1 := View.read_writes_cons_emb (v := (stRowK L).view) (f := m (stLoc d)) (Rect.whole S16) (rowOfM m d L (accIter m d L (k0_t1_loop L).trips)) [] y
  rw [Rect.emb_whole_apply] at h1
  refine Eq.trans (show _ = (stRowK L).view.read (Elt F) ((stRowK L).view.writes (Elt F) (m (stLoc d)) [⟨Rect.whole S16, rowOfM m d L (accIter m d L (k0_t1_loop L).trips)⟩]) y from rfl) (h1.trans ?_)
  show _ = rowVal m d (tileOf ((stRowK L).view.emb y)) (ix1 ⟨(((stRowK L).view.emb y) 0).val % 16, _⟩)
  rw [tileOf_emb]
  unfold rowVal
  congr 1
  rw [eq_ix1 y]
  congr 1
  apply Fin.ext
  show (y 0).val = (((stRowK L).view.emb y) 0).val % 16
  rw [stRowK_emb_val]; have hy : (y 0).val < 16 := (y 0).isLt; omega

/-! ## The core's sums -/

variable (G : StageVal (F := F))

/-- Sixteen consecutive words of the core's half of the staging array, from word off. -/
abbrev ldHalf (hc : k0_cond1 L = 1#1) (off : Fin 1 → Nat) (h : ∀ a, off a + S16.size a ≤ S256.size a) : Vec F S16 .f32 :=
  View.readAt (Elt F) (s5V).view (Rect.unit (s := S256) off S16.size h).toLoadRect (halfRead G d L hc)

/-- The sum of the core's sixteen rows. -/
def sumOfM (hc : k0_cond1 L = 1#1) : FVec F S16 .f32 :=
  k0_pay19 (ldHalf d L G hc ![0] inb_S256_S16_0) (ldHalf d L G hc ![16] inb_S256_S16_16) (ldHalf d L G hc ![32] inb_S256_S16_32) (ldHalf d L G hc ![48] inb_S256_S16_48) (ldHalf d L G hc ![64] inb_S256_S16_64) (ldHalf d L G hc ![80] inb_S256_S16_80) (ldHalf d L G hc ![96] inb_S256_S16_96) (ldHalf d L G hc ![112] inb_S256_S16_112) (ldHalf d L G hc ![128] inb_S256_S16_128) (ldHalf d L G hc ![144] inb_S256_S16_144) (ldHalf d L G hc ![160] inb_S256_S16_160) (ldHalf d L G hc ![176] inb_S256_S16_176) (ldHalf d L G hc ![192] inb_S256_S16_192) (ldHalf d L G hc ![208] inb_S256_S16_208) (ldHalf d L G hc ![224] inb_S256_S16_224) (ldHalf d L G hc ![240] inb_S256_S16_240)

theorem sumOf_eq (hc : k0_cond1 L = 1#1) (f5 : Buf (Elt F) ((SparseCore.V d (cV L) (jV L)).loc cc0_scratch5)) : sumOf G d L hc f5 = sumOfM d L G hc := by
  unfold sumOf sumOfM ldSt ldHalf
  rw [View.write_whole_univ]

omit [FloatOps F] in
theorem emb8 (y : S8.Idx) : (Rect.unit (s := S16) ![0] S8.size inb_S16_S8_0).emb y = ix1 ⟨(y 0).val, by have h := (y 0).isLt; change (y 0).val < 8 at h; omega⟩ := by
  funext a; apply Fin.ext
  obtain rfl : a = 0 := Subsingleton.elim _ _
  rw [Rect.emb_apply]; show 0 + 1 * (y 0).val = (y 0).val; omega

theorem outDma_eq (acc : Acc8 F) (hc : k0_cond1 L = 1#1) (f3 : Buf (Elt F) ((SparseCore.V d (cV L) (jV L)).loc cc0_scratch3))
    (f4 : Buf (Elt F) ((SparseCore.V d (cV L) (jV L)).loc cc0_scratch4)) (f5 : Buf (Elt F) ((SparseCore.V d (cV L) (jV L)).loc cc0_scratch5)) (y : S8.Idx) :
    outDma m G d L acc hc f3 f4 f5 y = sumOfM d L G hc (ix1 ⟨(y 0).val, by have h := (y 0).isLt; change (y 0).val < 8 at h; omega⟩) := by
  unfold outDma
  rw [sumOf_eq d L G]
  have h := View.read_writes_cons_emb (v := (s3V).view) (f := f3) (Rect.unit (s := S16) ![0] S16.size inb_S16_S16_0) (sumOfM d L G hc) (rowPieces m d L f4 acc)
    ((Rect.unit (s := S16) ![0] S8.size inb_S16_S8_0).emb y)
  rw [emb16] at h
  refine Eq.trans ?_ (h.trans (congrArg (sumOfM d L G hc) (emb8 y)))
  rfl

/-! ## The result's contents -/

/-- The tile 0 of the core that owns word x of the result. -/
def coreOf (x : S16.Idx) : grid0.Coords :=
  coordsV ⟨(x 0).val / 8, by have h := (x 0).isLt; change (x 0).val < 16 at h; show (x 0).val / 8 < 2; omega⟩ ⟨0, by decide⟩

omit [FloatOps F] in
theorem coreOf_cond (x : S16.Idx) : k0_cond1 (coreOf x) = 1#1 := (k0_cond1_iff _).mpr rfl

/-- The sixteen sums. -/
def Gres : (d : Dev nD) → Buf (Elt F) (outLoc d) :=
  fun d' => ((fun x : S16.Idx => sumOfM d' (coreOf x) (Gst m) (coreOf_cond x) (ix1 ⟨(x 0).val % 8, Nat.lt_of_lt_of_le (Nat.mod_lt _ (by decide)) (by decide)⟩)) : S16.Idx → Elt F .f32)

theorem sumOfM_congr {L L' : grid0.Coords} (h : L = L') (hc : k0_cond1 L = 1#1) (hc' : k0_cond1 L' = 1#1) : sumOfM d L G hc = sumOfM d L' G hc' := by
  subst h; rfl

omit [FloatOps F] in
theorem outHalfK_emb_val (hc : k0_cond1 L = 1#1) (y : S8.Idx) : (((outHalfK L hc).view.emb y) 0).val = 8 * (L 0).val + (y 0).val := by
  show (k0_off8 L 0) + 1 * (y 0).val = _
  rw [k0_off8_eq]; show 8 * (L 0).val + 1 * (y 0).val = _; omega

omit [FloatOps F] in
theorem coreOf_emb (hc : k0_cond1 L = 1#1) (y : S8.Idx) : coreOf ((outHalfK L hc).view.emb y) = L := by
  have hv := outHalfK_emb_val L hc y
  have hy : (y 0).val < 8 := (y 0).isLt
  have h1 : (L 1).val = 0 := (k0_cond1_iff L).mp hc
  have e0 : (((outHalfK L hc).view.emb y) 0).val / 8 = (L 0).val := by rw [hv]; omega
  funext a
  match a with
  | 0 => exact Fin.ext e0
  | 1 => exact Fin.ext h1.symm

theorem spec_out (acc : Acc8 F) (hacc : acc = accIter m d L (k0_t1_loop L).trips) (hc : k0_cond1 L = 1#1) (f3 : Buf (Elt F) ((SparseCore.V d (cV L) (jV L)).loc cc0_scratch3))
    (f4 : Buf (Elt F) ((SparseCore.V d (cV L) (jV L)).loc cc0_scratch4)) (f5 : Buf (Elt F) ((SparseCore.V d (cV L) (jV L)).loc cc0_scratch5)) :
    ∀ i ∈ (outHalfK L hc).view.set, (outHalfK L hc).view.writes (Elt F) (m (outLoc d)) [⟨Rect.whole S8, outDma m (Gst m) d L acc hc f3 f4 f5⟩] i = Gres m d i := by
  intro i hi
  obtain ⟨y, -, rfl⟩ := Finset.mem_map.mp hi
  have h1 := View.read_writes_cons_emb (v := (outHalfK L hc).view) (f := m (outLoc d)) (Rect.whole S8) (outDma m (Gst m) d L acc hc f3 f4 f5) [] y
  rw [Rect.emb_whole_apply] at h1
  refine Eq.trans (show _ = (outHalfK L hc).view.read (Elt F) ((outHalfK L hc).view.writes (Elt F) (m (outLoc d)) [⟨Rect.whole S8, outDma m (Gst m) d L acc hc f3 f4 f5⟩]) y from rfl) (h1.trans ?_)
  rw [outDma_eq]
  show _ = sumOfM d (coreOf ((outHalfK L hc).view.emb y)) (Gst m) (coreOf_cond _) (ix1 ⟨(((outHalfK L hc).view.emb y) 0).val % 8, _⟩)
  rw [sumOfM_congr d (Gst m) (coreOf_emb L hc y) (coreOf_cond _) hc]
  congr 2
  apply Fin.ext
  show (y 0).val = (((outHalfK L hc).view.emb y) 0).val % 8
  rw [outHalfK_emb_val]; have hy : (y 0).val < 8 := (y 0).isLt; omega

/-- Every tile's computation is the two whole-array functions'. -/
theorem spec : Spec m (Gst m) (Gres m) := fun d L => ⟨spec_row m d L, spec_out m d L⟩

end Cert.KernelIdeal.SegSum

end
-- ==== Proof.LibScatterAddRows.lean ====
/-
  The accumulating float scatter at the ideal instance, as adding updates into the rows an index column names lowers
  it, read at an index.

  `x.at[idx].add(upd)` for a vector `x : [N]`, positions `idx : [E, 1]` and updates `upd : [E]` is a scatter with no
  update window axis, inserted window axis `[0]`, scatter-dims-to-operand-dims `[0]` and index vector axis `1`: update
  `e` lands at position `idx[e, 0]`, read as a signed integer and NOT clamped, and is dropped when that is outside
  `[0, N)`. So element `n` of the result is `x n` plus the sum of the updates `e` whose index, read signed, is `n`.
  For a table `x : [N, C]` and updates `[E, C]` (update window axis `[1]`) the same holds column by column.
-/
import Idealize.ShloMosaic.PureOps.Ideal
import Idealize.ShloMosaic.Lib.ValueIdx

noncomputable section

open scoped BigOperators

namespace Cert.Lib

open Idealize.ShloMosaic Idealize.ShloMosaic.ValueIdx

/-- A rank-1 index set is its one coordinate's range. -/
def idxEquiv1 {n : Nat} : (⟨1, ![n]⟩ : Shape).Idx ≃ Fin n where
  toFun i := i 0
  invFun e := ix1 e
  left_inv i := (eq_ix1 i).symm
  right_inv _ := rfl

section ScatterVec

/-- The dimension numbers of `x.at[idx].add(upd)` for a vector `x : [N]`, positions `idx : [E, 1]` and updates `[E]`:
    no update window axis, inserted window axis `[0]`, scatter-dims-to-operand-dims `[0]`, index vector axis `1`. The
    conditions `wf` are an argument, so a record with these fields over literal shapes is this one by `rfl`. -/
abbrev scatterVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update `e`'s window starts at `idx[e, 0]` read signed. -/
theorem scatterVec_start (idx : IVec ⟨2, ![E, 1]⟩ w) (e : Fin E) :
    (scatterVecDims N E wf).start (ix1 e) idx 0 = (idx (ix2 e 0)).toInt := by
  unfold ScatterDims.start
  rw [dif_pos (show (0 : Fin 1) ∈ (scatterVecDims N E wf).scatterDimsToOperandDims from List.mem_singleton.mpr rfl)]
  have hsi : (scatterVecDims N E wf).siIdx (ix1 e) ⟨List.idxOf (0 : Fin 1) (scatterVecDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The one operand axis is inserted: an update has no window coordinate on it. -/
theorem scatterVec_window (e : Fin E) : (scatterVecDims N E wf).window (ix1 e) 0 = 0 := by
  unfold ScatterDims.window
  rw [dif_neg]
  intro h
  have : (0 : Fin 1) ∉ (scatterVecDims N E wf).insertedWindowDims := by
    simpa [ScatterDims.sKept, Shape.kept, List.mem_filter] using h
  exact this (List.mem_singleton.mpr rfl)

/-- WHERE AN UPDATE LANDS: update `e` lands on element `n` exactly when its index, read signed, is `n`. -/
theorem scatterVec_resultIdx_eq_some_iff (idx : IVec ⟨2, ![E, 1]⟩ w) (e : Fin E) (n : Fin N) :
    (scatterVecDims N E wf).resultIdx? (ix1 e) idx = some (ix1 n) ↔ (idx (ix2 e 0)).toInt = (n.val : ℤ) := by
  have hsz : (⟨1, ![N]⟩ : Shape).size 0 = N := rfl
  unfold ScatterDims.resultIdx?
  constructor
  · intro h
    split at h
    · rename_i hin
      have h0 := congrFun (Option.some.inj h) 0
      have hv : ((scatterVecDims N E wf).start (ix1 e) idx 0 + ((scatterVecDims N E wf).window (ix1 e) 0 : ℤ)).toNat = n.val :=
        congrArg Fin.val h0
      have hnn := (hin 0).1
      rw [scatterVec_start, scatterVec_window] at hv hnn
      omega
    · exact absurd h (by simp)
  · intro h
    have hin : ∀ a : Fin 1, 0 ≤ (scatterVecDims N E wf).start (ix1 e) idx a + ((scatterVecDims N E wf).window (ix1 e) a : ℤ) ∧
        (scatterVecDims N E wf).start (ix1 e) idx a + ((scatterVecDims N E wf).window (ix1 e) a : ℤ)
          < ((⟨1, ![N]⟩ : Shape).size a : ℤ) := by
      intro a
      obtain rfl : a = 0 := Subsingleton.elim _ _
      rw [scatterVec_start, scatterVec_window, hsz, h]
      have := n.isLt
      omega
    rw [dif_pos hin]
    congr 1
    funext a
    obtain rfl : a = 0 := Subsingleton.elim _ _
    refine Fin.ext ?_
    show ((scatterVecDims N E wf).start (ix1 e) idx 0 + ((scatterVecDims N E wf).window (ix1 e) 0 : ℤ)).toNat = n.val
    rw [scatterVec_start, scatterVec_window, h]
    omega

/-- THE VECTOR SCATTER-ADD READ AT `n`: the operand's element plus the sum of the updates whose index, read signed, is `n`. -/
theorem hostScatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (scatterVecDims N E wf) x idx upd (ix1 n)
      = x (ix1 n) + ∑ e ∈ Finset.univ.filter (fun e : Fin E => (idx (ix2 e 0)).toInt = (n.val : ℤ)), upd (ix1 e) := by
  unfold Ideal.hostScatterAdd
  congr 1
  refine Finset.sum_equiv idxEquiv1 (fun j => ?_) (fun j _ => congrArg upd (eq_ix1 j))
  simp only [Finset.mem_filter, Finset.mem_univ, true_and]
  rw [eq_ix1 j]
  exact scatterVec_resultIdx_eq_some_iff wf idx (j 0) n

end ScatterVec

section ScatterRows

/-- The dimension numbers of `x.at[idx].add(upd)` for a table `x : [N, C]`, row numbers `idx : [E, 1]` and updates
    `[E, C]`: update window axis `[1]`, inserted window axis `[0]`, scatter-dims-to-operand-dims `[0]`, index vector
    axis `1`. The conditions `wf` are an argument, so a record with these fields over literal shapes is this one by `rfl`. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis, update `(e, k')`'s window starts at `idx[e, 0]` read signed. -/
theorem scatterRows_start_row (idx : IVec ⟨2, ![E, 1]⟩ w) (e : Fin E) (k' : Fin C) :
    (scatterRowsDims N E C wf).start (ix2 e k') idx 0 = (idx (ix2 e 0)).toInt := by
  unfold ScatterDims.start
  rw [dif_pos (show (0 : Fin 2) ∈ (scatterRowsDims N E C wf).scatterDimsToOperandDims from List.mem_singleton.mpr rfl)]
  have hsi : (scatterRowsDims N E C wf).siIdx (ix2 e k') ⟨List.idxOf (0 : Fin 2) (scatterRowsDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The column axis is not named by the index: the window starts at `0` there. -/
theorem scatterRows_start_col (idx : IVec ⟨2, ![E, 1]⟩ w) (e : Fin E) (k' : Fin C) :
    (scatterRowsDims N E C wf).start (ix2 e k') idx 1 = 0 := by
  unfold ScatterDims.start
  rw [dif_neg (show (1 : Fin 2) ∉ (scatterRowsDims N E C wf).scatterDimsToOperandDims from
    (by decide : (1 : Fin 2) ∉ ([0] : List (Fin 2))))]

/-- The row axis is inserted: an update has no window coordinate on it. -/
theorem scatterRows_window_row (e : Fin E) (k' : Fin C) : (scatterRowsDims N E C wf).window (ix2 e k') 0 = 0 := by
  unfold ScatterDims.window
  rw [dif_neg]
  intro h
  have : (0 : Fin 2) ∉ (scatterRowsDims N E C wf).insertedWindowDims := by
    simpa [ScatterDims.sKept, Shape.kept, List.mem_filter] using h
  exact this (List.mem_singleton.mpr rfl)

/-- On the column axis an update's window coordinate is its column. -/
theorem scatterRows_window_col (e : Fin E) (k' : Fin C) : (scatterRowsDims N E C wf).window (ix2 e k') 1 = k'.val := by
  unfold ScatterDims.window
  have hk : (1 : Fin 2) ∈ (scatterRowsDims N E C wf).sKept :=
    show (1 : Fin 2) ∈ (List.finRange 2).filter (· ∉ ([0] : List (Fin 2))) from by decide
  rw [dif_pos hk]
  rfl

/-- WHERE AN UPDATE LANDS: update `(e, k')` lands on element `(n, k)` exactly when its index, read signed, is `n` and
    its column is `k`. -/
theorem scatterRows_resultIdx_eq_some_iff (idx : IVec ⟨2, ![E, 1]⟩ w) (e : Fin E) (k' : Fin C) (n : Fin N) (k : Fin C) :
    (scatterRowsDims N E C wf).resultIdx? (ix2 e k') idx = some (ix2 n k)
      ↔ (idx (ix2 e 0)).toInt = (n.val : ℤ) ∧ k' = k := by
  have hsz0 : (⟨2, ![N, C]⟩ : Shape).size 0 = N := rfl
  have hsz1 : (⟨2, ![N, C]⟩ : Shape).size 1 = C := rfl
  unfold ScatterDims.resultIdx?
  constructor
  · intro h
    split at h
    · rename_i hin
      have h0 := congrFun (Option.some.inj h) 0
      have h1 := congrFun (Option.some.inj h) 1
      have hv0 : ((scatterRowsDims N E C wf).start (ix2 e k') idx 0
          + ((scatterRowsDims N E C wf).window (ix2 e k') 0 : ℤ)).toNat = n.val := congrArg Fin.val h0
      have hv1 : ((scatterRowsDims N E C wf).start (ix2 e k') idx 1
          + ((scatterRowsDims N E C wf).window (ix2 e k') 1 : ℤ)).toNat = k.val := congrArg Fin.val h1
      have hnn := (hin 0).1
      rw [scatterRows_start_row, scatterRows_window_row] at hv0 hnn
      rw [scatterRows_start_col, scatterRows_window_col] at hv1
      exact ⟨by omega, Fin.ext (by omega)⟩
    · exact absurd h (by simp)
  · rintro ⟨h, rfl⟩
    have hin : ∀ a : Fin 2, 0 ≤ (scatterRowsDims N E C wf).start (ix2 e k') idx a
          + ((scatterRowsDims N E C wf).window (ix2 e k') a : ℤ) ∧
        (scatterRowsDims N E C wf).start (ix2 e k') idx a + ((scatterRowsDims N E C wf).window (ix2 e k') a : ℤ)
          < ((⟨2, ![N, C]⟩ : Shape).size a : ℤ) := by
      refine Fin.forall_fin_two.mpr ⟨?_, ?_⟩
      · rw [scatterRows_start_row, scatterRows_window_row, hsz0, h]
        have := n.isLt
        omega
      · rw [scatterRows_start_col, scatterRows_window_col, hsz1]
        have := k'.isLt
        omega
    rw [dif_pos hin]
    congr 1
    funext a
    refine Fin.ext ?_
    revert a
    refine Fin.forall_fin_two.mpr ⟨?_, ?_⟩
    · show ((scatterRowsDims N E C wf).start (ix2 e k') idx 0
          + ((scatterRowsDims N E C wf).window (ix2 e k') 0 : ℤ)).toNat = n.val
      rw [scatterRows_start_row, scatterRows_window_row, h]
      omega
    · show ((scatterRowsDims N E C wf).start (ix2 e k') idx 1
          + ((scatterRowsDims N E C wf).window (ix2 e k') 1 : ℤ)).toNat = k'.val
      rw [scatterRows_start_col, scatterRows_window_col]
      omega

/-- THE ROW SCATTER-ADD READ AT `(n, k)`: the operand's element plus the sum, over the updates `e` whose index read
    signed is `n`, of the update's column `k`. (The updates landing on `(n, k)` are the `(e, k)` with `e` such: the sum
    over update indices is split by coordinates and each row of it keeps its one term at column `k`.) -/
theorem hostScatterAdd_rows_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (scatterRowsDims N E C wf) x idx upd (ix2 n k)
      = x (ix2 n k) + ∑ e ∈ Finset.univ.filter (fun e : Fin E => (idx (ix2 e 0)).toInt = (n.val : ℤ)), upd (ix2 e k) := by
  unfold Ideal.hostScatterAdd
  congr 1
  rw [Finset.sum_filter, Finset.sum_filter, sum_idx2]
  refine Finset.sum_congr rfl fun e _ => ?_
  by_cases h : (idx (ix2 e 0)).toInt = (n.val : ℤ)
  · rw [if_pos h, Finset.sum_eq_single k]
    · rw [if_pos ((scatterRows_resultIdx_eq_some_iff wf idx e k n k).mpr ⟨h, rfl⟩)]
    · intro b _ hb
      rw [if_neg]
      intro hc
      exact hb ((scatterRows_resultIdx_eq_some_iff wf idx e b n k).mp hc).2
    · intro hk
      exact absurd (Finset.mem_univ k) hk
  · rw [if_neg h]
    refine Finset.sum_eq_zero fun b _ => ?_
    rw [if_neg]
    intro hc
    exact h ((scatterRows_resultIdx_eq_some_iff wf idx e b n k).mp hc).1

end ScatterRows

section Padding

/-- PADDING CHANGES NO ROW'S SUM: lengthen the index and update lists from `E` to `E'` entries, the first `E` kept; if
    no added entry's index is `n` (a sentinel row number on the padding), the sum of the updates whose index is `n` is the
    same over the long lists as over the short ones. -/
theorem sum_filter_eq_of_pad {M : Type*} [AddCommMonoid M] {E E' : Nat} (hE : E ≤ E') (n : ℤ)
    (ids : Fin E → ℤ) (ids' : Fin E' → ℤ) (upd : Fin E → M) (upd' : Fin E' → M)
    (hids : ∀ e : Fin E, ids' (Fin.castLE hE e) = ids e)
    (hupd : ∀ e : Fin E, upd' (Fin.castLE hE e) = upd e)
    (hpad : ∀ e : Fin E', E ≤ e.val → ids' e ≠ n) :
    ∑ e ∈ Finset.univ.filter (fun e : Fin E' => ids' e = n), upd' e
      = ∑ e ∈ Finset.univ.filter (fun e : Fin E => ids e = n), upd e := by
  symm
  refine Finset.sum_bij (fun e _ => Fin.castLE hE e) ?_ ?_ ?_ ?_
  · intro e he
    rw [Finset.mem_filter] at he ⊢
    exact ⟨Finset.mem_univ _, (hids e).trans he.2⟩
  · intro a _ b _ hab
    exact Fin.ext (by simpa [Fin.ext_iff] using hab)
  · intro e' he'
    rw [Finset.mem_filter] at he'
    have hlt : e'.val < E := by
      by_contra hge
      exact hpad e' (by omega) he'.2
    refine ⟨⟨e'.val, hlt⟩, ?_, Fin.ext rfl⟩
    rw [Finset.mem_filter]
    refine ⟨Finset.mem_univ _, ?_⟩
    rw [← hids ⟨e'.val, hlt⟩]
    exact he'.2
  · intro e _
    exact (hupd e).symm

end Padding

/-! ## On records spelt as a program prints them

A program names its shapes and states each record's fields over them, the conditions cited from a hypothesis. Such a
record is `scatterVecDims` / `scatterRowsDims` at the literal extents by `rfl`, so the lemmas above rewrite a scatter
through it. -/

section Printed

private abbrev S100001 : Shape := ⟨1, ![100001]⟩
private abbrev S100001x128 : Shape := ⟨2, ![100001, 128]⟩
private abbrev S606208x1 : Shape := ⟨2, ![606208, 1]⟩
private abbrev S606208 : Shape := ⟨1, ![606208]⟩
private abbrev S606208x128 : Shape := ⟨2, ![606208, 128]⟩

/-- A vector scatter's record as printed. -/
private def scatter_S100001_S606208x1_S606208_n_0_0_1 (hwf : ScatterDims.WF S100001 S606208x1 S606208 [] [0] [0] 1) :
    ScatterDims S100001 S606208x1 S606208 where
  updateWindowDims := []
  insertedWindowDims := [0]
  scatterDimsToOperandDims := [0]
  indexVectorDim := 1
  wf := hwf

/-- A row scatter's record as printed. -/
private def scatter_S100001x128_S606208x1_S606208x128_1_0_0_1
    (hwf : ScatterDims.WF S100001x128 S606208x1 S606208x128 [1] [0] [0] 1) :
    ScatterDims S100001x128 S606208x1 S606208x128 where
  updateWindowDims := [1]
  insertedWindowDims := [0]
  scatterDimsToOperandDims := [0]
  indexVectorDim := 1
  wf := hwf

/-- The vector lemma rewrites a scatter through the printed record. -/
example (hwf : ScatterDims.WF S100001 S606208x1 S606208 [] [0] [0] 1) (x : S100001.Idx → EReal)
    (idx : IVec S606208x1 32) (upd : S606208.Idx → EReal) (n : Fin 100001) :
    Ideal.hostScatterAdd (scatter_S100001_S606208x1_S606208_n_0_0_1 hwf) x idx upd (ix1 n)
      = x (ix1 n) + ∑ e ∈ Finset.univ.filter (fun e : Fin 606208 => (idx (ix2 e 0)).toInt = (n.val : ℤ)), upd (ix1 e) := by
  rw [show scatter_S100001_S606208x1_S606208_n_0_0_1 hwf = scatterVecDims 100001 606208 hwf from rfl,
    hostScatterAdd_vec_apply]

/-- The row lemma rewrites a scatter through the printed record. -/
example (hwf : ScatterDims.WF S100001x128 S606208x1 S606208x128 [1] [0] [0] 1) (x : S100001x128.Idx → EReal)
    (idx : IVec S606208x1 32) (upd : S606208x128.Idx → EReal) (n : Fin 100001) (k : Fin 128) :
    Ideal.hostScatterAdd (scatter_S100001x128_S606208x1_S606208x128_1_0_0_1 hwf) x idx upd (ix2 n k)
      = x (ix2 n k) + ∑ e ∈ Finset.univ.filter (fun e : Fin 606208 => (idx (ix2 e 0)).toInt = (n.val : ℤ)), upd (ix2 e k) := by
  rw [show scatter_S100001x128_S606208x1_S606208x128_1_0_0_1 hwf = scatterRowsDims 100001 606208 128 hwf from rfl,
    hostScatterAdd_rows_apply]

end Printed

end Cert.Lib

end
-- ==== Proof.SegIdeal.lean ====
import proofs.«209885_g3178275799312_cont_8to1_b_553_16_alg».proof.Proof.SegValue
import proofs.«209885_g3178275799312_cont_8to1_b_553_16_alg».proof.Proof.Gen.ReferenceIdeal.Read
import proofs.«209885_g3178275799312_cont_8to1_b_553_16_alg».proof.Proof.LibScatterAddRows
import Idealize.ShloMosaic.PureOps.Ideal
import Idealize.ShloMosaic.PureOps.Ideal.Laws

/-!
# The sums on the extended reals

At the ideal instance every accumulation is a sum on the extended reals, where sums regroup freely. A lane accumulator
after the loop is the sum, over the trips, of the two vectors' contributions; a tile's row at lane j is the sum over its
chunk (without the overlap the last tile skips) of energy × mask at the elements whose segment id is 8c + (j & 7); a
core's sums add the sixteen tiles' chunks, which tile [0, 100000); and the reference's scatter-add into zeros is the
same sum over the elements whose id, read signed, is the segment.
-/

noncomputable section

open scoped BigOperators

namespace Cert.KernelIdeal.SegSum

open Cert.KernelIdeal Cert.KernelIdeal.Gen
open Idealize.ShloMosaic Idealize.ShloMosaic.ValueIdx
open Idealize.SL.Sem

variable (m : (ℓ : Loc nD τ sig) → Buf (Elt Ideal) ℓ) (d : Dev nD) (L : grid0.Coords)

/-! ## One contribution: a vector added where its segment id is the accumulator's -/

/-- a + (x₁ · x₂ where x₃ = s, else 0), lane by lane. -/
def upd (s : BitVec 32) (a x1 x2 : FVec Ideal S16 .f32) (x3 : Vec Ideal S16 .i32) : FVec Ideal S16 .f32 :=
  addf a (select (cmpi .eq x3 (broadcast S16 s)) (mulf x1 x2) (k0_pay20 (F := Ideal)))

theorem pay20_apply (j : S16.Idx) : (k0_pay20 (F := Ideal)) j = (0 : EReal) := by
  unfold k0_pay20
  show Ideal.ofBits .f32 0x00000000#32 = 0
  exact Ideal.ofBits_zero_f32

theorem upd_apply (s : BitVec 32) (a x1 x2 : FVec Ideal S16 .f32) (x3 : Vec Ideal S16 .i32) (j : S16.Idx) :
    upd s a x1 x2 x3 j = a j + (if x3 j = s then x1 j * x2 j else 0) := by
  unfold upd addf select cmpi broadcast mulf Scalar.select IntOp.cmpi
  by_cases h : x3 j = s
  · simp [h]
  · have hb : (x3 j == s) = false := by simpa using h
    simp only [hb, h, if_false]
    rw [pay20_apply]
    simp

/-- The word of the core's g-th segment. -/
def sgW (g : Fin 8) : BitVec 32 := Scalar.addi (seg0 L) (BitVec.ofNat 32 g.val)

/-- The g-th of the eight accumulators. -/
def comp (a : Acc8 Ideal) : Fin 8 → FVec Ideal S16 .f32
  | 0 => a.1 | 1 => a.2.1 | 2 => a.2.2.1 | 3 => a.2.2.2.1 | 4 => a.2.2.2.2.1 | 5 => a.2.2.2.2.2.1 | 6 => a.2.2.2.2.2.2.1 | 7 => a.2.2.2.2.2.2.2

theorem accStep_comp (t : Fin (k0_t1_loop L).trips) (a : Acc8 Ideal) (g : Fin 8) :
    comp (accStep m d L t a) g
      = upd (sgW L g) (upd (sgW L g) (comp a g) (ldNe m d L (k0_off2 L t) (k0_off2_inb L t)) (ldLg m d L (k0_off2 L t) (k0_off2_inb L t)) (ldSg m d L (k0_off2 L t) (k0_off2_inb L t)))
          (ldNe m d L (k0_off3 L t) (k0_off3_inb L t)) (ldLg m d L (k0_off3 L t) (k0_off3_inb L t)) (ldSg m d L (k0_off3 L t) (k0_off3_inb L t)) := by
  fin_cases g <;> rfl

theorem accRow_eq (acc : Acc8 Ideal) (g : Fin 8) :
    accRow m d L acc g = upd (sgW L g) (comp acc g) (tNe m d L) (tLg m d L) (tSg m d L) := by
  fin_cases g <;> rfl

/-! ## The inputs as functions of the element number -/

/-- The three inputs as functions of an index. -/
def neF : S100000.Idx → EReal := m (neLoc d)
def lgF : S100000.Idx → EReal := m (lgLoc d)
def sgF : S100000.Idx → BitVec 32 := m (sgLoc d)

/-- energy, mask and segment id of element e (zero past the arrays' end). -/
def neN (e : ℕ) : EReal := if h : e < 100000 then neF m d (ix1 ⟨e, h⟩) else 0
def lgN (e : ℕ) : EReal := if h : e < 100000 then lgF m d (ix1 ⟨e, h⟩) else 0
def sgN (e : ℕ) : BitVec 32 := if h : e < 100000 then sgF m d (ix1 ⟨e, h⟩) else 0

/-- Element e's contribution to the segment of word s. -/
def tm (s : BitVec 32) (e : ℕ) : EReal := if sgN m d e = s then neN m d e * lgN m d e else 0

/-- Where the tile's chunk starts. -/
def base : ℕ := k0_off1 L 0

theorem base_le : base L + 6256 ≤ 100000 := k0_off1_inb L 0

theorem chunk_idx (off : Fin 1 → Nat) (h : ∀ a, off a + S16.size a ≤ S6256.size a) (j : S16.Idx) :
    base L + off 0 + (j 0).val < 100000 := by
  have h1 := base_le L
  have h2 : off 0 + 16 ≤ 6256 := h 0
  have h3 : (j 0).val < 16 := (j 0).isLt
  omega

theorem ldNe_apply (off : Fin 1 → Nat) (h : ∀ a, off a + S16.size a ≤ S6256.size a) (j : S16.Idx) :
    ldNe m d L off h j = neN m d (base L + off 0 + (j 0).val) := by
  unfold neN
  rw [dif_pos (chunk_idx L off h j)]
  show neF m d _ = neF m d _
  congr 1
  refine (eq_ix1 _).trans (congrArg ix1 (Fin.ext ?_))
  show k0_off1 L 0 + 1 * (off 0 + 1 * (j 0).val) = base L + off 0 + (j 0).val
  unfold base; omega
theorem ldLg_apply (off : Fin 1 → Nat) (h : ∀ a, off a + S16.size a ≤ S6256.size a) (j : S16.Idx) :
    ldLg m d L off h j = lgN m d (base L + off 0 + (j 0).val) := by
  unfold lgN
  rw [dif_pos (chunk_idx L off h j)]
  show lgF m d _ = lgF m d _
  congr 1
  refine (eq_ix1 _).trans (congrArg ix1 (Fin.ext ?_))
  show k0_off1 L 0 + 1 * (off 0 + 1 * (j 0).val) = base L + off 0 + (j 0).val
  unfold base; omega
theorem ldSg_apply (off : Fin 1 → Nat) (h : ∀ a, off a + S16.size a ≤ S6256.size a) (j : S16.Idx) :
    ldSg m d L off h j = sgN m d (base L + off 0 + (j 0).val) := by
  unfold sgN
  rw [dif_pos (chunk_idx L off h j)]
  show sgF m d _ = sgF m d _
  congr 1
  refine (eq_ix1 _).trans (congrArg ix1 (Fin.ext ?_))
  show k0_off1 L 0 + 1 * (off 0 + 1 * (j 0).val) = base L + off 0 + (j 0).val
  unfold base; omega

/-- One vector's contribution at a lane is its element's. -/
theorem upd_chunk (s : BitVec 32) (a : FVec Ideal S16 .f32) (off : Fin 1 → Nat) (h : ∀ a, off a + S16.size a ≤ S6256.size a) (j : S16.Idx) :
    upd s a (ldNe m d L off h) (ldLg m d L off h) (ldSg m d L off h) j = a j + tm m d s (base L + off 0 + (j 0).val) := by
  rw [upd_apply, ldNe_apply, ldLg_apply, ldSg_apply]; rfl

/-! ## A lane accumulator after the loop -/

/-- How many vector pairs the tile skips. -/
def lb : ℕ := if (L 1).val = 15 then 3 else 0

theorem off2_val (n : ℕ) (h : n < (k0_t1_loop L).trips) : k0_off2 L ⟨n, h⟩ 0 = 32 * lb L + 32 * n := by rw [k0_off2_eq]; rfl
theorem off3_val (n : ℕ) (h : n < (k0_t1_loop L).trips) : k0_off3 L ⟨n, h⟩ 0 = 32 * lb L + 32 * n + 16 := by rw [k0_off3_eq]; rfl

theorem comp_zero (g : Fin 8) (j : S16.Idx) : comp (accIter m d L 0) g j = 0 := by
  rw [accIter_zero]
  fin_cases g <;> exact pay20_apply j

theorem acc_lane (g : Fin 8) (j : S16.Idx) : ∀ n, n ≤ (k0_t1_loop L).trips →
    comp (accIter m d L n) g j
      = ∑ k ∈ Finset.range n, (tm m d (sgW L g) (base L + 32 * lb L + 32 * k + (j 0).val) + tm m d (sgW L g) (base L + 32 * lb L + 32 * k + 16 + (j 0).val))
  | 0, _ => by rw [Finset.sum_range_zero]; exact comp_zero m d L g j
  | n + 1, hn => by
    have hlt : n < (k0_t1_loop L).trips := hn
    rw [accIter_succ m d L n hlt, accStep_comp, upd_chunk, upd_chunk, acc_lane g j n (Nat.le_of_lt hlt), Finset.sum_range_succ, off2_val, off3_val]
    show _ + _ + _ = _ + (_ + _)
    rw [add_assoc]
    congr 2
    · congr 1; omega
    · congr 1; omega

/-! ## Regrouping sums of consecutive elements -/

section Regroup

variable {M : Type} [AddCommMonoid M]

/-- T blocks of 32, read as two half-blocks of 16 lanes each, lane by lane: the first 32 T elements. -/
theorem pairs_sum (f : ℕ → M) : ∀ T : ℕ,
    ∑ l ∈ Finset.range 16, ∑ k ∈ Finset.range T, (f (32 * k + l) + f (32 * k + 16 + l)) = ∑ y ∈ Finset.range (32 * T), f y
  | 0 => by simp
  | T + 1 => by
    have e : 32 * (T + 1) = 32 * T + 16 + 16 := by omega
    rw [e, Finset.sum_range_add, Finset.sum_range_add, ← pairs_sum f T]
    have h : ∀ l, ∑ k ∈ Finset.range (T + 1), (f (32 * k + l) + f (32 * k + 16 + l))
        = ∑ k ∈ Finset.range T, (f (32 * k + l) + f (32 * k + 16 + l)) + (f (32 * T + l) + f (32 * T + 16 + l)) := fun l => Finset.sum_range_succ _ T
    simp only [h]
    rw [Finset.sum_add_distrib, Finset.sum_add_distrib, add_assoc]

/-- The same from element A on, with a last block of 16. -/
theorem tile_sum (f : ℕ → M) (A T : ℕ) :
    ∑ l ∈ Finset.range 16, (∑ k ∈ Finset.range T, (f (A + 32 * k + l) + f (A + 32 * k + 16 + l)) + f (A + 32 * T + l))
      = ∑ y ∈ Finset.range (32 * T + 16), f (A + y) := by
  rw [Finset.sum_add_distrib, Finset.sum_range_add, ← pairs_sum (fun y => f (A + y)) T]
  simp only [Nat.add_assoc]

/-- a blocks of b consecutive elements are the first b a elements. -/
theorem blocks_sum (f : ℕ → M) (b : ℕ) : ∀ a : ℕ, ∑ t ∈ Finset.range a, ∑ y ∈ Finset.range b, f (b * t + y) = ∑ e ∈ Finset.range (b * a), f e
  | 0 => by simp
  | a + 1 => by rw [Finset.sum_range_succ, blocks_sum f b a, Nat.mul_succ, Finset.sum_range_add]

end Regroup

/-! ## A tile's row -/

/-- The trips of the loop: 195 pairs of vectors, less the three the last tile skips. -/
theorem trips_val : ∀ L : grid0.Coords, (k0_t1_loop L).trips = 195 - (if (L 1).val = 15 then 3 else 0) := by decide +kernel

/-- Rows lane & 7 of the accumulator matrix: on the first sixteen lanes, lane mod 8. -/
theorem pay49_val : ∀ x : Fin 16, (k0_pay49 (ix1 x)).toNat = x.val % 8 := by decide +kernel

set_option maxHeartbeats 1000000 in
/-- Lane l of accumulator row g after the last vector: the tile's elements of that lane (mod 16), from the first vector
    it does not skip, whose segment is the row's. -/
theorem accRow_lane (g : Fin 8) (l : Fin 16) :
    accRow m d L (accIter m d L (k0_t1_loop L).trips) g (ix1 l)
      = ∑ k ∈ Finset.range ((k0_t1_loop L).trips), (tm m d (sgW L g) (base L + 32 * lb L + 32 * k + l.val) + tm m d (sgW L g) (base L + 32 * lb L + 32 * k + 16 + l.val))
        + tm m d (sgW L g) (base L + 32 * lb L + 32 * (k0_t1_loop L).trips + l.val) := by
  rw [accRow_eq, upd_chunk, acc_lane m d L g (ix1 l) _ le_rfl]
  have e1 : ((ix1 l : S16.Idx) 0).val = l.val := rfl
  have e2 : base L + (![6240] : Fin 1 → ℕ) 0 + ((ix1 l : S16.Idx) 0).val = base L + 32 * lb L + 32 * (k0_t1_loop L).trips + l.val := by
    rw [e1, trips_val L]
    show base L + 6240 + l.val = _
    unfold lb; split <;> omega
  rw [e2, e1]

/-- The indexed load of column l at the first sixteen lanes: row (lane mod 8), lane l of the accumulator matrix. -/
theorem gathM_apply (acc : Acc8 Ideal) (l x : Fin 16) :
    gathM m d L acc l (ix1 x) = accRow m d L acc ⟨x.val % 8, Nat.mod_lt _ (by decide)⟩ (ix1 l) := by
  unfold gathM loadIdx accMat idxAt
  show accRow m d L acc ⟨(k0_pay49 (ix1 x)).toNat, _⟩ (ix1 ⟨(BitVec.ofNat 32 l.val).toNat, _⟩) = _
  have e0 : (k0_pay49 (ix1 x)).toNat = x.val % 8 := pay49_val x
  have e1 : (BitVec.ofNat 32 l.val).toNat = l.val := by rw [BitVec.toNat_ofNat]; have := l.isLt; omega
  congr 1
  · first | exact Fin.ext e0 | exact congrArg _ (Fin.ext e0) | (congr 1)
  · exact congrArg ix1 (Fin.ext e1)

/-- Lane l of accumulator row g after the last vector, as a function of the lane's number. -/
def laneN (g : Fin 8) (l : ℕ) : EReal :=
  if h : l < 16 then accRow m d L (accIter m d L (k0_t1_loop L).trips) g (ix1 ⟨l, h⟩) else 0

theorem gath_lane (x l : Fin 16) :
    gathM m d L (accIter m d L (k0_t1_loop L).trips) l (ix1 x) = laneN m d L ⟨x.val % 8, Nat.mod_lt _ (by decide)⟩ l.val := by
  rw [gathM_apply]; unfold laneN; rw [dif_pos l.isLt]

/-- A tile's row at a lane: the sum of the sixteen lanes of accumulator row (lane mod 8). -/
theorem rowVal_apply (x : Fin 16) :
    rowVal m d L (ix1 x) = ∑ l ∈ Finset.range 16, laneN m d L ⟨x.val % 8, Nat.mod_lt _ (by decide)⟩ l := by
  unfold rowVal rowOfM k0_pay51 k0_pay50
  simp only [addf, Ideal.addf_def, gath_lane, pay20_apply]
  simp only [Finset.sum_range_succ, Finset.sum_range_zero]
  rfl

/-- A tile's row at a lane: the sum, over the tile's chunk from the first vector it does not skip, of the contributions
    to the segment of row (lane mod 8). -/
theorem rowVal_sum (x : Fin 16) :
    rowVal m d L (ix1 x)
      = ∑ y ∈ Finset.range (32 * (k0_t1_loop L).trips + 16), tm m d (sgW L ⟨x.val % 8, Nat.mod_lt _ (by decide)⟩) (base L + 32 * lb L + y) := by
  rw [rowVal_apply, ← tile_sum]
  refine Finset.sum_congr rfl fun l hl => ?_
  have hl' : l < 16 := Finset.mem_range.mp hl
  unfold laneN
  rw [dif_pos hl']
  exact accRow_lane m d L _ ⟨l, hl'⟩

/-! ## A core's sums: the sixteen tiles' rows -/

omit m d in
theorem stHalfK_emb_val (hc : k0_cond1 L = 1#1) (y : S256.Idx) : (((stHalfK L hc).view.emb y) 0).val = 256 * (L 0).val + (y 0).val := by
  show (k0_off7 L 0) + 1 * (y 0).val = _
  rw [k0_off7_eq]; show 256 * (L 0).val + 1 * (y 0).val = _; omega

/-- Sixteen words of the core's half of the staging array from word 16 t: tile t's row. -/
theorem ldHalf_apply (hc : k0_cond1 L = 1#1) (off : Fin 1 → Nat) (h : ∀ a, off a + S16.size a ≤ S256.size a) (t : Fin 16) (ht : off 0 = 16 * t.val) (j : Fin 16) :
    ldHalf d L (Gst m) hc off h (ix1 j) = rowVal m d (coordsV ⟨(L 0).val, (L 0).isLt⟩ t) (ix1 j) := by
  show rowVal m d (tileOf ((stHalfK L hc).view.emb ((Rect.unit (s := S256) off S16.size h).toLoadRect.idx (ix1 j))))
      (ix1 ⟨(((stHalfK L hc).view.emb ((Rect.unit (s := S256) off S16.size h).toLoadRect.idx (ix1 j))) 0).val % 16, _⟩) = _
  have h0 : (L 0).val < 2 := (L 0).isLt
  have hv : (((stHalfK L hc).view.emb ((Rect.unit (s := S256) off S16.size h).toLoadRect.idx (ix1 j))) 0).val = 256 * (L 0).val + 16 * t.val + j.val := by
    rw [stHalfK_emb_val]
    show 256 * (L 0).val + (off 0 + 1 * j.val) = _
    rw [ht]; omega
  have e0 : (((stHalfK L hc).view.emb ((Rect.unit (s := S256) off S16.size h).toLoadRect.idx (ix1 j))) 0).val / 256 = (L 0).val := by rw [hv]; omega
  have e1 : (((stHalfK L hc).view.emb ((Rect.unit (s := S256) off S16.size h).toLoadRect.idx (ix1 j))) 0).val / 16 % 16 = t.val := by rw [hv]; omega
  have e2 : (((stHalfK L hc).view.emb ((Rect.unit (s := S256) off S16.size h).toLoadRect.idx (ix1 j))) 0).val % 16 = j.val := by rw [hv]; omega
  have hT : tileOf ((stHalfK L hc).view.emb ((Rect.unit (s := S256) off S16.size h).toLoadRect.idx (ix1 j))) = coordsV ⟨(L 0).val, (L 0).isLt⟩ t := by
    funext a
    match a with
    | 0 => exact Fin.ext e0
    | 1 => exact Fin.ext e1
  rw [hT]
  exact congrArg _ (congrArg ix1 (Fin.ext e2))

/-- Tile t's row of core cc at lane j, as a function of the tile's number. -/
def rowN (cc : Fin (grid0.bound 0)) (j : Fin 16) (t : ℕ) : EReal := if h : t < 16 then rowVal m d (coordsV cc ⟨t, h⟩) (ix1 j) else 0

/-- Word n of the result: the sum over the sixteen tiles of core n / 8 of their rows at lane n mod 8. -/
theorem Gres_apply (n : Fin 16) :
    (Gres m d : S16.Idx → EReal) (ix1 n) = ∑ t ∈ Finset.range 16, rowN m d ⟨n.val / 8, by show n.val / 8 < 2; omega⟩ ⟨n.val % 8, by omega⟩ t := by
  show sumOfM d (coreOf (ix1 n)) (Gst m) (coreOf_cond _) (ix1 ⟨n.val % 8, _⟩) = _
  unfold sumOfM k0_pay19
  simp only [addf, Ideal.addf_def]
  rw [ldHalf_apply m d _ _ ![0] _ (0 : Fin 16) rfl,
    ldHalf_apply m d _ _ ![16] _ (1 : Fin 16) rfl,
    ldHalf_apply m d _ _ ![32] _ (2 : Fin 16) rfl,
    ldHalf_apply m d _ _ ![48] _ (3 : Fin 16) rfl,
    ldHalf_apply m d _ _ ![64] _ (4 : Fin 16) rfl,
    ldHalf_apply m d _ _ ![80] _ (5 : Fin 16) rfl,
    ldHalf_apply m d _ _ ![96] _ (6 : Fin 16) rfl,
    ldHalf_apply m d _ _ ![112] _ (7 : Fin 16) rfl,
    ldHalf_apply m d _ _ ![128] _ (8 : Fin 16) rfl,
    ldHalf_apply m d _ _ ![144] _ (9 : Fin 16) rfl,
    ldHalf_apply m d _ _ ![160] _ (10 : Fin 16) rfl,
    ldHalf_apply m d _ _ ![176] _ (11 : Fin 16) rfl,
    ldHalf_apply m d _ _ ![192] _ (12 : Fin 16) rfl,
    ldHalf_apply m d _ _ ![208] _ (13 : Fin 16) rfl,
    ldHalf_apply m d _ _ ![224] _ (14 : Fin 16) rfl,
    ldHalf_apply m d _ _ ![240] _ (15 : Fin 16) rfl]
  simp only [Finset.sum_range_succ, Finset.sum_range_zero, zero_add]
  rfl

/-! ## The sixteen chunks tile the 100000 elements -/

omit m d in
/-- The core's g-th segment, as a number. -/
theorem sgW_val : ∀ (cc : Fin (grid0.bound 0)) (t : Fin (grid0.bound 1)) (g : Fin 8), sgW (coordsV cc t) g = BitVec.ofNat 32 (8 * cc.val + g.val) := by decide +kernel

omit m d in
/-- Where a tile's summed elements start and how many they are: tile t < 15 its whole chunk [6256 t, 6256 (t + 1)); the last
    tile [93840, 100000), the 96 elements it shares with tile 14 skipped. -/
theorem tile_range : ∀ (cc : Fin (grid0.bound 0)) (t : Fin (grid0.bound 1)), base (coordsV cc t) + 32 * lb (coordsV cc t) = (if t.val = 15 then 93840 else 6256 * t.val)
    ∧ 32 * (k0_t1_loop (coordsV cc t)).trips + 16 = (if t.val = 15 then 6160 else 6256) := by
  intro cc t
  have ht := trips_val (coordsV cc t)
  have hb : base (coordsV cc t) = if t.val = 15 then 93744 else 6256 * t.val := by
    unfold base; rw [k0_off1_eq]; rfl
  have hl : lb (coordsV cc t) = if t.val = 15 then 3 else 0 := rfl
  have h1 : ((coordsV cc t) 1).val = t.val := rfl
  rw [hb, hl, ht, h1]
  split <;> omega

/-- Core cc's sum for lane j < 8: every element whose segment is 8 cc + j. -/
theorem core_sum (cc : Fin (grid0.bound 0)) (j : Fin 16) (hj : j.val < 8) :
    ∑ t ∈ Finset.range 16, rowN m d cc j t = ∑ e ∈ Finset.range 100000, tm m d (BitVec.ofNat 32 (8 * cc.val + j.val)) e := by
  have hrow : ∀ t (h : t < 16), rowN m d cc j t = ∑ y ∈ Finset.range (if t = 15 then 6160 else 6256), tm m d (BitVec.ofNat 32 (8 * cc.val + j.val)) ((if t = 15 then 93840 else 6256 * t) + y) := by
    intro t h
    unfold rowN; rw [dif_pos h, rowVal_sum, sgW_val]
    obtain ⟨h1, h2⟩ := tile_range cc ⟨t, h⟩
    rw [h1, h2]
    have e : (⟨j.val % 8, Nat.mod_lt _ (by decide)⟩ : Fin 8).val = j.val := Nat.mod_eq_of_lt hj
    rw [e]
  rw [Finset.sum_range_succ, hrow 15 (by decide)]
  have h15 : ∑ t ∈ Finset.range 15, rowN m d cc j t = ∑ t ∈ Finset.range 15, ∑ y ∈ Finset.range 6256, tm m d (BitVec.ofNat 32 (8 * cc.val + j.val)) (6256 * t + y) := by
    refine Finset.sum_congr rfl fun t ht => ?_
    have ht' : t < 15 := Finset.mem_range.mp ht
    rw [hrow t (by omega), if_neg (by omega), if_neg (by omega)]
  rw [h15, blocks_sum]
  simp only [if_true]
  rw [show (100000 : ℕ) = 6256 * 15 + 6160 by norm_num, Finset.sum_range_add]

/-! ## The reference's scatter-add into zeros -/

omit m d in
theorem toInt_small : ∀ n : Fin 16, (BitVec.ofNat 32 n.val).toInt = (n.val : ℤ) := by decide

/-- The sum over all elements of the contributions to segment word s: the sum over the elements whose id is s. -/
theorem tm_sum_filter (s : BitVec 32) :
    ∑ e ∈ Finset.range 100000, tm m d s e
      = ∑ e ∈ Finset.univ.filter (fun e : Fin 100000 => sgF m d (ix1 e) = s), neF m d (ix1 e) * lgF m d (ix1 e) := by
  rw [Finset.sum_filter, ← Fin.sum_univ_eq_sum_range (fun e => tm m d s e) 100000]
  refine Finset.sum_congr rfl fun e _ => ?_
  unfold tm sgN neN lgN
  rw [dif_pos e.isLt, dif_pos e.isLt, dif_pos e.isLt]

/-- The scatter-add of energy × mask by segment id into zeros, read at segment n. -/
theorem ref_apply (n : Fin 16) :
    (Host.scatterAdd Cert.ReferenceIdeal.scatter_S16_S100000x1_S100000_n_0_0_1
        (broadcastInDim Cert.ReferenceIdeal.S16 ![] Cert.ReferenceIdeal.Facts₀.bcast_S_S16 (constant (F := Ideal) Cert.ReferenceIdeal.S_ .f32 0x00000000#32))
        (broadcastInDim Cert.ReferenceIdeal.S100000x1 ![0] Cert.ReferenceIdeal.Facts₀.bcast_S100000_S100000x1_0 (sgF m d))
        (mulf (neF m d : FVec Ideal S100000 .f32) (lgF m d)) : S16.Idx → EReal) (ix1 n)
      = ∑ e ∈ Finset.range 100000, tm m d (BitVec.ofNat 32 n.val) e := by
  unfold Host.scatterAdd
  rw [Ideal.hostScatterAdd_def,
    show Cert.ReferenceIdeal.scatter_S16_S100000x1_S100000_n_0_0_1 = Cert.Lib.scatterVecDims 16 100000 Cert.ReferenceIdeal.Facts₀.scatter_S16_S100000x1_S100000_n_0_0_1_wf from rfl,
    Cert.Lib.hostScatterAdd_vec_apply, tm_sum_filter]
  have hz : broadcastInDim Cert.ReferenceIdeal.S16 ![] Cert.ReferenceIdeal.Facts₀.bcast_S_S16 (constant (F := Ideal) Cert.ReferenceIdeal.S_ .f32 0x00000000#32) (ix1 n) = (0 : EReal) := by
    show Ideal.ofBits .f32 0x00000000#32 = 0
    exact Ideal.ofBits_zero_f32
  rw [hz, zero_add]
  refine Finset.sum_congr (Finset.filter_congr fun e _ => ?_) fun e _ => rfl
  have hidx : broadcastInDim Cert.ReferenceIdeal.S100000x1 ![0] Cert.ReferenceIdeal.Facts₀.bcast_S100000_S100000x1_0 (sgF m d) (ix2 e 0)
      = (sgF m d) (ix1 e) := by
    refine broadcastInDim_apply _ _ _ _ (ix1 e) fun a => ?_
    match a with
    | ⟨0, _⟩ => show e.val = if (100000 : ℕ) = 1 then 0 else e.val; rw [if_neg (by decide)]
  rw [hidx, ← toInt_small n, BitVec.toInt_inj]

/-- The kernel's sixteen sums are the reference's scatter-add of the same arguments. -/
theorem Gres_eq_ref (c : Dev nD) :
    (Gres m c : S16.Idx → EReal) = (Host.scatterAdd Cert.ReferenceIdeal.scatter_S16_S100000x1_S100000_n_0_0_1
        (broadcastInDim Cert.ReferenceIdeal.S16 ![] Cert.ReferenceIdeal.Facts₀.bcast_S_S16 (constant (F := Ideal) Cert.ReferenceIdeal.S_ .f32 0x00000000#32))
        (broadcastInDim Cert.ReferenceIdeal.S100000x1 ![0] Cert.ReferenceIdeal.Facts₀.bcast_S100000_S100000x1_0 (sgF m c))
        (mulf (neF m c : FVec Ideal S100000 .f32) (lgF m c)) : S16.Idx → EReal) := by
  funext (x : S16.Idx)
  have hx : x = ix1 (x 0) := eq_ix1 x
  have hn : (x 0).val < 16 := (x 0).isLt
  have h1 := Gres_apply m c (x 0)
  have h2 := core_sum m c ⟨(x 0).val / 8, by show (x 0).val / 8 < 2; omega⟩ ⟨(x 0).val % 8, by omega⟩ (Nat.mod_lt _ (by decide))
  have h3 := ref_apply m c (x 0)
  have e : 8 * ((x 0).val / 8) + (x 0).val % 8 = (x 0).val := by omega
  have h4 : (Gres m c : S16.Idx → EReal) (ix1 (x 0)) = ∑ e ∈ Finset.range 100000, tm m c (BitVec.ofNat 32 (x 0).val) e :=
    h1.trans (h2.trans (congrArg (fun k => ∑ e ∈ Finset.range 100000, tm m c (BitVec.ofNat 32 k) e) e))
  rw [hx]
  exact h4.trans h3.symm

end Cert.KernelIdeal.SegSum

end
-- ==== Proof.lean ====
import proofs.«209885_g3178275799312_cont_8to1_b_553_16_alg».proof.Defs
import proofs.«209885_g3178275799312_cont_8to1_b_553_16_alg».proof.Proof.Gen.Kernel
import proofs.«209885_g3178275799312_cont_8to1_b_553_16_alg».proof.Proof.Gen.Kernel.Skeleton
import proofs.«209885_g3178275799312_cont_8to1_b_553_16_alg».proof.Proof.Gen.KernelIdeal
import proofs.«209885_g3178275799312_cont_8to1_b_553_16_alg».proof.Proof.Gen.KernelIdeal.Skeleton
import proofs.«209885_g3178275799312_cont_8to1_b_553_16_alg».proof.Proof.Gen.ReferenceIdeal
import proofs.«209885_g3178275799312_cont_8to1_b_553_16_alg».proof.Proof.Gen.Pre_input_domain
import proofs.«209885_g3178275799312_cont_8to1_b_553_16_alg».proof.Proof.Gen.ReferenceIdeal.Run
import proofs.«209885_g3178275799312_cont_8to1_b_553_16_alg».proof.Proof.Gen.ReferenceIdeal.Read
import proofs.«209885_g3178275799312_cont_8to1_b_553_16_alg».proof.Proof.KSegValue
import proofs.«209885_g3178275799312_cont_8to1_b_553_16_alg».proof.Proof.SegIdeal
import Idealize.ShloMosaic.Adequacy
import Idealize.ShloMosaic.Init

/-!
# Segment sums of energy × mask on the SparseCores against the scatter-add

The kernel: thirty-two tiles, each summing its chunk of energy × mask per segment and lane, folding the lanes, and
leaving a row in a staging array; after the subcore barrier tile 0 of each SparseCore adds its core's sixteen rows
and writes eight of the sixteen sums. The reference: one scatter-add of energy × mask by segment id into zeros.
On the extended reals both are, for segment n, the sum of energy × mask over the elements whose id is n: sums may be
regrouped freely there, so no finiteness is used.

The three frames are the programs' runs with the values dropped; the ideal pass rewrote nothing; the value claim
joins the kernel's run (the sixteen sums as one function of the inputs) with the reference's generated run.
-/

noncomputable section

namespace Cert.Proof

open Idealize.ShloMosaic Idealize.SL.Sem

theorem frame_p : Cert.frame_Kernel (hKernel := Cert.Kernel.Gen.facts) (hPre_input_domain := Cert.Pre_input_domain.Gen.facts) := fun m ρ _ =>
  (θ_run Cert.Kernel.defs _ _).mono (fun _ h c => ⟨(h c).1, (h c).2.1, (h c).2.2.1, (h c).2.2.2.1, (h c).2.2.2.2.1, (h c).2.2.2.2.2.1, (h c).2.2.2.2.2.2.1⟩)
    (Cert.Kernel.SegSum.run_main (F := Bits) m ρ (Cert.Kernel.SegSum.Gst m) (Cert.Kernel.SegSum.Gres m) (Cert.Kernel.SegSum.spec m))

theorem frame_pi : Cert.frame_KernelIdeal (hKernelIdeal := Cert.KernelIdeal.Gen.facts) (hPre_input_domain := Cert.Pre_input_domain.Gen.facts) := fun m ρ _ =>
  (θ_run Cert.KernelIdeal.defs _ _).mono (fun _ h c => ⟨(h c).1, (h c).2.1, (h c).2.2.1, (h c).2.2.2.1, (h c).2.2.2.2.1, (h c).2.2.2.2.2.1, (h c).2.2.2.2.2.2.1⟩)
    (Cert.KernelIdeal.SegSum.run_main (F := Ideal) m ρ (Cert.KernelIdeal.SegSum.Gst m) (Cert.KernelIdeal.SegSum.Gres m) (Cert.KernelIdeal.SegSum.spec m))

theorem frame_ri : Cert.frame_ReferenceIdeal (hReferenceIdeal := Cert.ReferenceIdeal.Gen.facts) (hPre_input_domain := Cert.Pre_input_domain.Gen.facts) := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- At the ideal instance the kernel's sixteen sums are the reference's scatter-add of the same arguments; the other three
    results are an argument, an argument, and the zero block on both sides. -/
theorem algebraic : Cert.algebraic_KernelIdeal_ReferenceIdeal (hKernelIdeal := Cert.KernelIdeal.Gen.facts) (hReferenceIdeal := Cert.ReferenceIdeal.Gen.facts) (hPre_input_domain := Cert.Pre_input_domain.Gen.facts) := by
  intro m ρ m' ρ' _ hagree
  refine ⟨fun c => Cert.KernelIdeal.SegSum.Gres m c, fun c => m ((c.tc : Thread Cert.KernelIdeal.nD Cert.KernelIdeal.τ).loc Cert.KernelIdeal.main_arg0),
    fun c => m ((c.tc : Thread Cert.KernelIdeal.nD Cert.KernelIdeal.τ).loc Cert.KernelIdeal.main_arg6),
    fun _ => (broadcastInDim Cert.KernelIdeal.S16x3x3 ![] Cert.KernelIdeal.Facts₀.bcast_S_S16x3x3 (constant (F := Ideal) Cert.KernelIdeal.S_ .f32 0x00000000#32) : (⟨Cert.KernelIdeal.S16x3x3, .f32⟩ : BufTy).Contents (Elt Ideal)), ?_, ?_⟩
  · refine (θ_run Cert.KernelIdeal.defs _ _).mono (fun _ h c => ?_)
      (Cert.KernelIdeal.SegSum.run_main (F := Ideal) m ρ (Cert.KernelIdeal.SegSum.Gst m) (Cert.KernelIdeal.SegSum.Gres m) (Cert.KernelIdeal.SegSum.spec m))
    exact ⟨(h c).2.2.2.2.2.2.2.1, (h c).1, (h c).2.2.2.2.2.2.1, (h c).2.2.2.2.2.2.2.2,
      (h c).1, (h c).2.1, (h c).2.2.1, (h c).2.2.2.1, (h c).2.2.2.2.1, (h c).2.2.2.2.2.1, (h c).2.2.2.2.2.2.1⟩
  · refine (θ_run Cert.ReferenceIdeal.defs _ _).mono (fun _ h c => ?_) (Cert.ReferenceIdeal.Value.run (F := Ideal) m' ρ')
    refine ⟨(h c).1.trans ?_, (h c).2.1.trans (hagree c).1, (h c).2.2.1.trans (hagree c).2.2.2.2.2.2, (h c).2.2.2.1, (h c).2.2.2.2⟩
    rw [(hagree c).1, (hagree c).2.1, (hagree c).2.2.1]
    exact (Cert.KernelIdeal.SegSum.Gres_eq_ref m c).symm

theorem claim : Cert.Claim := ⟨Cert.Kernel.Gen.facts, Cert.KernelIdeal.Gen.facts, Cert.ReferenceIdeal.Gen.facts, Cert.Pre_input_domain.Gen.facts,
  frame_p, frame_pi, frame_ri, preserves, algebraic⟩

end Cert.Proof

end
